-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x512x512 : Shape := ⟨4, ![2, 3, 512, 512]⟩
abbrev S3x512x512x7x7 : Shape := ⟨5, ![3, 512, 512, 7, 7]⟩
abbrev S_ : Shape := ⟨0, ![]⟩

class Facts : Prop where
  bcast_S_S2x3x512x512 : S_.BroadcastsInDim S2x3x512x512 (![] : Fin 0 → Fin S2x3x512x512.rank)
  reducesTo_S2x3x512x512_S_d0_1_2_3 : S2x3x512x512.ReducesTo [0, 1, 2, 3] S_
  h_S_ : 0 < S_.numel
  bcast_S_S3x512x512x7x7 : S_.BroadcastsInDim S3x512x512x7x7 (![] : Fin 0 → Fin S3x512x512x7x7.rank)
  reducesTo_S3x512x512x7x7_S_d0_1_2_3_4 : S3x512x512x7x7.ReducesTo [0, 1, 2, 3, 4] S_

variable [Facts]

def fn {F : FTy → Type} [FloatOps F] (main_arg0 : FVec F S2x3x512x512 .f32) (main_arg1 : FVec F S3x512x512x7x7 .f32) : IVec S_ 1 :=
  let main_v0 : FVec F S2x3x512x512 .f32 := Host.absf main_arg0
  let main_cst : FVec F S_ .f32 := constant S_ .f32 0x7F800000#32
  let main_v1 : FVec F S2x3x512x512 .f32 := broadcastInDim S2x3x512x512 ![] bcast_S_S2x3x512x512 main_cst
  let main_v2 : IVec S2x3x512x512 1 := cmpf .olt main_v0 main_v1
  let main_c : IVec S_ 1 := constantI S_ 1 1#1
  let main_v3 : IVec S_ 1 := (fun x v => Host.reduce IntOp.andi x v reducesTo_S2x3x512x512_S_d0_1_2_3 h_S_) main_v2 main_c
  let main_v4 : FVec F S3x512x512x7x7 .f32 := Host.absf main_arg1
  let main_cst_0 : FVec F S_ .f32 := constant S_ .f32 0x7F800000#32
  let main_v5 : FVec F S3x512x512x7x7 .f32 := broadcastInDim S3x512x512x7x7 ![] bcast_S_S3x512x512x7x7 main_cst_0
  let main_v6 : IVec S3x512x512x7x7 1 := cmpf .olt main_v4 main_v5
  let main_c_1 : IVec S_ 1 := constantI S_ 1 1#1
  let main_v7 : IVec S_ 1 := (fun x v => Host.reduce IntOp.andi x v reducesTo_S3x512x512x7x7_S_d0_1_2_3_4 h_S_) main_v6 main_c_1
  let main_v8 : IVec S_ 1 := andi main_v3 main_v7
  main_v8
-- ==== Kernel.lean ====
abbrev S2x3x512x512 : Shape := ⟨4, ![2, 3, 512, 512]⟩
abbrev S3x512x512x7x7 : Shape := ⟨5, ![3, 512, 512, 7, 7]⟩
abbrev S_ : Shape := ⟨0, ![]⟩
abbrev S2x3x1x512 : Shape := ⟨4, ![2, 3, 1, 512]⟩
abbrev S2x3x3x512 : Shape := ⟨4, ![2, 3, 3, 512]⟩
abbrev S2x3x515x512 : Shape := ⟨4, ![2, 3, 515, 512]⟩
abbrev S2x3x518x512 : Shape := ⟨4, ![2, 3, 518, 512]⟩
abbrev S2x3x518x1 : Shape := ⟨4, ![2, 3, 518, 1]⟩
abbrev S2x3x518x3 : Shape := ⟨4, ![2, 3, 518, 3]⟩
abbrev S2x3x518x515 : Shape := ⟨4, ![2, 3, 518, 515]⟩
abbrev S2x3x518x518 : Shape := ⟨4, ![2, 3, 518, 518]⟩
abbrev S3x7x7x512x512 : Shape := ⟨5, ![3, 7, 7, 512, 512]⟩
abbrev S2x1x518x518 : Shape := ⟨4, ![2, 1, 518, 518]⟩
abbrev S1x7x7x64x512 : Shape := ⟨5, ![1, 7, 7, 64, 512]⟩
abbrev S2x1x64x512 : Shape := ⟨4, ![2, 1, 64, 512]⟩
abbrev S2x1x70x518 : Shape := ⟨4, ![2, 1, 70, 518]⟩
abbrev S2x70x518 : Shape := ⟨3, ![2, 70, 518]⟩
abbrev S2x64x512 : Shape := ⟨3, ![2, 64, 512]⟩
abbrev S1x1x1x64x512 : Shape := ⟨5, ![1, 1, 1, 64, 512]⟩
abbrev S64x512 : Shape := ⟨2, ![64, 512]⟩
abbrev S1x64x512 : Shape := ⟨3, ![1, 64, 512]⟩

abbrev nBuf : Space → Nat
  | .hbm => 21
  | .vmem => 6
  | .smem => 0
  | _ => 0

abbrev bufTy : (tb : Table) → Fin (tcTables nBuf tb) → BufTy
  | .hbm, ⟨0, _⟩ => ⟨S2x3x512x512, .f32⟩
  | .hbm, ⟨1, _⟩ => ⟨S3x512x512x7x7, .f32⟩
  | .hbm, ⟨2, _⟩ => ⟨S_, .i32⟩
  | .hbm, ⟨3, _⟩ => ⟨S2x3x1x512, .f32⟩
  | .hbm, ⟨4, _⟩ => ⟨S2x3x3x512, .f32⟩
  | .hbm, ⟨5, _⟩ => ⟨S2x3x3x512, .f32⟩
  | .hbm, ⟨6, _⟩ => ⟨S2x3x515x512, .f32⟩
  | .hbm, ⟨7, _⟩ => ⟨S2x3x1x512, .f32⟩
  | .hbm, ⟨8, _⟩ => ⟨S2x3x3x512, .f32⟩
  | .hbm, ⟨9, _⟩ => ⟨S2x3x3x512, .f32⟩
  | .hbm, ⟨10, _⟩ => ⟨S2x3x518x512, .f32⟩
  | .hbm, ⟨11, _⟩ => ⟨S2x3x518x1, .f32⟩
  | .hbm, ⟨12, _⟩ => ⟨S2x3x518x3, .f32⟩
  | .hbm, ⟨13, _⟩ => ⟨S2x3x518x3, .f32⟩
  | .hbm, ⟨14, _⟩ => ⟨S2x3x518x515, .f32⟩
  | .hbm, ⟨15, _⟩ => ⟨S2x3x518x1, .f32⟩
  | .hbm, ⟨16, _⟩ => ⟨S2x3x518x3, .f32⟩
  | .hbm, ⟨17, _⟩ => ⟨S2x3x518x3, .f32⟩
  | .hbm, ⟨18, _⟩ => ⟨S2x3x518x518, .f32⟩
  | .hbm, ⟨19, _⟩ => ⟨S3x7x7x512x512, .f32⟩
  | .hbm, ⟨20, _⟩ => ⟨S2x3x512x512, .f32⟩
  | .local _ .vmem, ⟨0, _⟩ => ⟨S2x1x518x518, .f32⟩
  | .local _ .vmem, ⟨1, _⟩ => ⟨S2x1x518x518, .f32⟩
  | .local _ .vmem, ⟨2, _⟩ => ⟨S1x7x7x64x512, .f32⟩
  | .local _ .vmem, ⟨3, _⟩ => ⟨S1x7x7x64x512, .f32⟩
  | .local _ .vmem, ⟨4, _⟩ => ⟨S2x1x64x512, .f32⟩
  | .local _ .vmem, ⟨5, _⟩ => ⟨S2x1x64x512, .f32⟩
  | _, _ => ⟨S2x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x1x518x518 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x7x7x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x3x512x512_S2x3x1x512_0_0_0_0 : S2x3x512x512.Slices ![0, 0, 0, 0] S2x3x1x512
  slices_S2x3x512x512_S2x3x3x512_0_0_1_0 : S2x3x512x512.Slices ![0, 0, 1, 0] S2x3x3x512
  concatenates_S2x3x3x512_S2x3x512x512_S2x3x515x512_d2 : Shape.Concatenates [S2x3x3x512, S2x3x512x512] S2x3x515x512 2
  slices_S2x3x515x512_S2x3x1x512_0_0_514_0 : S2x3x515x512.Slices ![0, 0, 514, 0] S2x3x1x512
  slices_S2x3x515x512_S2x3x3x512_0_0_511_0 : S2x3x515x512.Slices ![0, 0, 511, 0] S2x3x3x512
  concatenates_S2x3x515x512_S2x3x3x512_S2x3x518x512_d2 : Shape.Concatenates [S2x3x515x512, S2x3x3x512] S2x3x518x512 2
  slices_S2x3x518x512_S2x3x518x1_0_0_0_0 : S2x3x518x512.Slices ![0, 0, 0, 0] S2x3x518x1
  slices_S2x3x518x512_S2x3x518x3_0_0_0_1 : S2x3x518x512.Slices ![0, 0, 0, 1] S2x3x518x3
  concatenates_S2x3x518x3_S2x3x518x512_S2x3x518x515_d3 : Shape.Concatenates [S2x3x518x3, S2x3x518x512] S2x3x518x515 3
  slices_S2x3x518x515_S2x3x518x1_0_0_0_514 : S2x3x518x515.Slices ![0, 0, 0, 514] S2x3x518x1
  slices_S2x3x518x515_S2x3x518x3_0_0_0_511 : S2x3x518x515.Slices ![0, 0, 0, 511] S2x3x518x3
  concatenates_S2x3x518x515_S2x3x518x3_S2x3x518x518_d3 : Shape.Concatenates [S2x3x518x515, S2x3x518x3] S2x3x518x518 3
  transposes_S3x512x512x7x7_S3x7x7x512x512_0_3_4_1_2 : S3x512x512x7x7.Transposes [0, 3, 4, 1, 2] S3x7x7x512x512
  h_S2x1x70x518 : 0 < S2x1x70x518.numel
  shapeCasts_S2x1x70x518_S2x70x518 : S2x1x70x518.ShapeCasts S2x70x518
  slices_S2x70x518_o0_0_0_S2x64x512 : S2x70x518.Slices ![0, 0, 0] S2x64x512
  inb_S1x7x7x64x512_S1x1x1x64x512_0_0_0_0_0 : ∀ a, (![0, 0, 0, 0, 0] : Fin 5 → Nat) a + S1x1x1x64x512.size a ≤ S1x7x7x64x512.size a
  h_S1x1x1x64x512 : 0 < S1x1x1x64x512.numel
  shapeCasts_S1x1x1x64x512_S64x512 : S1x1x1x64x512.ShapeCasts S64x512
  shapeCasts_S64x512_S1x64x512 : S64x512.ShapeCasts S1x64x512
  broadcasts_S1x64x512_S2x64x512 : S1x64x512.Broadcasts S2x64x512
  slices_S2x70x518_o0_0_1_S2x64x512 : S2x70x518.Slices ![0, 0, 1] S2x64x512
  inb_S1x7x7x64x512_S1x1x1x64x512_0_0_1_0_0 : ∀ a, (![0, 0, 1, 0, 0] : Fin 5 → Nat) a + S1x1x1x64x512.size a ≤ S1x7x7x64x512.size a
  slices_S2x70x518_o0_0_2_S2x64x512 : S2x70x518.Slices ![0, 0, 2] S2x64x512
  inb_S1x7x7x64x512_S1x1x1x64x512_0_0_2_0_0 : ∀ a, (![0, 0, 2, 0, 0] : Fin 5 → Nat) a + S1x1x1x64x512.size a ≤ S1x7x7x64x512.size a
  slices_S2x70x518_o0_0_3_S2x64x512 : S2x70x518.Slices ![0, 0, 3] S2x64x512
  inb_S1x7x7x64x512_S1x1x1x64x512_0_0_3_0_0 : ∀ a, (![0, 0, 3, 0, 0] : Fin 5 → Nat) a + S1x1x1x64x512.size a ≤ S1x7x7x64x512.size a
  slices_S2x70x518_o0_0_4_S2x64x512 : S2x70x518.Slices ![0, 0, 4] S2x64x512
  inb_S1x7x7x64x512_S1x1x1x64x512_0_0_4_0_0 : ∀ a, (![0, 0, 4, 0, 0] : Fin 5 → Nat) a + S1x1x1x64x512.size a ≤ S1x7x7x64x512.size a
  slices_S2x70x518_o0_0_5_S2x64x512 : S2x70x518.Slices ![0, 0, 5] S2x64x512
  inb_S1x7x7x64x512_S1x1x1x64x512_0_0_5_0_0 : ∀ a, (![0, 0, 5, 0, 0] : Fin 5 → Nat) a + S1x1x1x64x512.size a ≤ S1x7x7x64x512.size a
  slices_S2x70x518_o0_0_6_S2x64x512 : S2x70x518.Slices ![0, 0, 6] S2x64x512
  inb_S1x7x7x64x512_S1x1x1x64x512_0_0_6_0_0 : ∀ a, (![0, 0, 6, 0, 0] : Fin 5 → Nat) a + S1x1x1x64x512.size a ≤ S1x7x7x64x512.size a
  slices_S2x70x518_o0_1_0_S2x64x512 : S2x70x518.Slices ![0, 1, 0] S2x64x512
  inb_S1x7x7x64x512_S1x1x1x64x512_0_1_0_0_0 : ∀ a, (![0, 1, 0, 0, 0] : Fin 5 → Nat) a + S1x1x1x64x512.size a ≤ S1x7x7x64x512.size a
  slices_S2x70x518_o0_1_1_S2x64x512 : S2x70x518.Slices ![0, 1, 1] S2x64x512
  inb_S1x7x7x64x512_S1x1x1x64x512_0_1_1_0_0 : ∀ a, (![0, 1, 1, 0, 0] : Fin 5 → Nat) a + S1x1x1x64x512.size a ≤ S1x7x7x64x512.size a
  slices_S2x70x518_o0_1_2_S2x64x512 : S2x70x518.Slices ![0, 1, 2] S2x64x512
  inb_S1x7x7x64x512_S1x1x1x64x512_0_1_2_0_0 : ∀ a, (![0, 1, 2, 0, 0] : Fin 5 → Nat) a + S1x1x1x64x512.size a ≤ S1x7x7x64x512.size a
  slices_S2x70x518_o0_1_3_S2x64x512 : S2x70x518.Slices ![0, 1, 3] S2x64x512
  inb_S1x7x7x64x512_S1x1x1x64x512_0_1_3_0_0 : ∀ a, (![0, 1, 3, 0, 0] : Fin 5 → Nat) a + S1x1x1x64x512.size a ≤ S1x7x7x64x512.size a
  slices_S2x70x518_o0_1_4_S2x64x512 : S2x70x518.Slices ![0, 1, 4] S2x64x512
  inb_S1x7x7x64x512_S1x1x1x64x512_0_1_4_0_0 : ∀ a, (![0, 1, 4, 0, 0] : Fin 5 → Nat) a + S1x1x1x64x512.size a ≤ S1x7x7x64x512.size a
  slices_S2x70x518_o0_1_5_S2x64x512 : S2x70x518.Slices ![0, 1, 5] S2x64x512
  inb_S1x7x7x64x512_S1x1x1x64x512_0_1_5_0_0 : ∀ a, (![0, 1, 5, 0, 0] : Fin 5 → Nat) a + S1x1x1x64x512.size a ≤ S1x7x7x64x512.size a
  slices_S2x70x518_o0_1_6_S2x64x512 : S2x70x518.Slices ![0, 1, 6] S2x64x512
  inb_S1x7x7x64x512_S1x1x1x64x512_0_1_6_0_0 : ∀ a, (![0, 1, 6, 0, 0] : Fin 5 → Nat) a + S1x1x1x64x512.size a ≤ S1x7x7x64x512.size a
  slices_S2x70x518_o0_2_0_S2x64x512 : S2x70x518.Slices ![0, 2, 0] S2x64x512
  inb_S1x7x7x64x512_S1x1x1x64x512_0_2_0_0_0 : ∀ a, (![0, 2, 0, 0, 0] : Fin 5 → Nat) a + S1x1x1x64x512.size a ≤ S1x7x7x64x512.size a
  slices_S2x70x518_o0_2_1_S2x64x512 : S2x70x518.Slices ![0, 2, 1] S2x64x512
  inb_S1x7x7x64x512_S1x1x1x64x512_0_2_1_0_0 : ∀ a, (![0, 2, 1, 0, 0] : Fin 5 → Nat) a + S1x1x1x64x512.size a ≤ S1x7x7x64x512.size a
  slices_S2x70x518_o0_2_2_S2x64x512 : S2x70x518.Slices ![0, 2, 2] S2x64x512
  inb_S1x7x7x64x512_S1x1x1x64x512_0_2_2_0_0 : ∀ a, (![0, 2, 2, 0, 0] : Fin 5 → Nat) a + S1x1x1x64x512.size a ≤ S1x7x7x64x512.size a
  slices_S2x70x518_o0_2_3_S2x64x512 : S2x70x518.Slices ![0, 2, 3] S2x64x512
  inb_S1x7x7x64x512_S1x1x1x64x512_0_2_3_0_0 : ∀ a, (![0, 2, 3, 0, 0] : Fin 5 → Nat) a + S1x1x1x64x512.size a ≤ S1x7x7x64x512.size a
  slices_S2x70x518_o0_2_4_S2x64x512 : S2x70x518.Slices ![0, 2, 4] S2x64x512
  inb_S1x7x7x64x512_S1x1x1x64x512_0_2_4_0_0 : ∀ a, (![0, 2, 4, 0, 0] : Fin 5 → Nat) a + S1x1x1x64x512.size a ≤ S1x7x7x64x512.size a
  slices_S2x70x518_o0_2_5_S2x64x512 : S2x70x518.Slices ![0, 2, 5] S2x64x512
  inb_S1x7x7x64x512_S1x1x1x64x512_0_2_5_0_0 : ∀ a, (![0, 2, 5, 0, 0] : Fin 5 → Nat) a + S1x1x1x64x512.size a ≤ S1x7x7x64x512.size a
  slices_S2x70x518_o0_2_6_S2x64x512 : S2x70x518.Slices ![0, 2, 6] S2x64x512
  inb_S1x7x7x64x512_S1x1x1x64x512_0_2_6_0_0 : ∀ a, (![0, 2, 6, 0, 0] : Fin 5 → Nat) a + S1x1x1x64x512.size a ≤ S1x7x7x64x512.size a
  slices_S2x70x518_o0_3_0_S2x64x512 : S2x70x518.Slices ![0, 3, 0] S2x64x512
  inb_S1x7x7x64x512_S1x1x1x64x512_0_3_0_0_0 : ∀ a, (![0, 3, 0, 0, 0] : Fin 5 → Nat) a + S1x1x1x64x512.size a ≤ S1x7x7x64x512.size a
  slices_S2x70x518_o0_3_1_S2x64x512 : S2x70x518.Slices ![0, 3, 1] S2x64x512
  inb_S1x7x7x64x512_S1x1x1x64x512_0_3_1_0_0 : ∀ a, (![0, 3, 1, 0, 0] : Fin 5 → Nat) a + S1x1x1x64x512.size a ≤ S1x7x7x64x512.size a
  slices_S2x70x518_o0_3_2_S2x64x512 : S2x70x518.Slices ![0, 3, 2] S2x64x512
  inb_S1x7x7x64x512_S1x1x1x64x512_0_3_2_0_0 : ∀ a, (![0, 3, 2, 0, 0] : Fin 5 → Nat) a + S1x1x1x64x512.size a ≤ S1x7x7x64x512.size a
  slices_S2x70x518_o0_3_3_S2x64x512 : S2x70x518.Slices ![0, 3, 3] S2x64x512
  inb_S1x7x7x64x512_S1x1x1x64x512_0_3_3_0_0 : ∀ a, (![0, 3, 3, 0, 0] : Fin 5 → Nat) a + S1x1x1x64x512.size a ≤ S1x7x7x64x512.size a
  slices_S2x70x518_o0_3_4_S2x64x512 : S2x70x518.Slices ![0, 3, 4] S2x64x512
  inb_S1x7x7x64x512_S1x1x1x64x512_0_3_4_0_0 : ∀ a, (![0, 3, 4, 0, 0] : Fin 5 → Nat) a + S1x1x1x64x512.size a ≤ S1x7x7x64x512.size a
  slices_S2x70x518_o0_3_5_S2x64x512 : S2x70x518.Slices ![0, 3, 5] S2x64x512
  inb_S1x7x7x64x512_S1x1x1x64x512_0_3_5_0_0 : ∀ a, (![0, 3, 5, 0, 0] : Fin 5 → Nat) a + S1x1x1x64x512.size a ≤ S1x7x7x64x512.size a
  slices_S2x70x518_o0_3_6_S2x64x512 : S2x70x518.Slices ![0, 3, 6] S2x64x512
  inb_S1x7x7x64x512_S1x1x1x64x512_0_3_6_0_0 : ∀ a, (![0, 3, 6, 0, 0] : Fin 5 → Nat) a + S1x1x1x64x512.size a ≤ S1x7x7x64x512.size a
  slices_S2x70x518_o0_4_0_S2x64x512 : S2x70x518.Slices ![0, 4, 0] S2x64x512
  inb_S1x7x7x64x512_S1x1x1x64x512_0_4_0_0_0 : ∀ a, (![0, 4, 0, 0, 0] : Fin 5 → Nat) a + S1x1x1x64x512.size a ≤ S1x7x7x64x512.size a
  slices_S2x70x518_o0_4_1_S2x64x512 : S2x70x518.Slices ![0, 4, 1] S2x64x512
  inb_S1x7x7x64x512_S1x1x1x64x512_0_4_1_0_0 : ∀ a, (![0, 4, 1, 0, 0] : Fin 5 → Nat) a + S1x1x1x64x512.size a ≤ S1x7x7x64x512.size a
  slices_S2x70x518_o0_4_2_S2x64x512 : S2x70x518.Slices ![0, 4, 2] S2x64x512
  inb_S1x7x7x64x512_S1x1x1x64x512_0_4_2_0_0 : ∀ a, (![0, 4, 2, 0, 0] : Fin 5 → Nat) a + S1x1x1x64x512.size a ≤ S1x7x7x64x512.size a
  slices_S2x70x518_o0_4_3_S2x64x512 : S2x70x518.Slices ![0, 4, 3] S2x64x512
  inb_S1x7x7x64x512_S1x1x1x64x512_0_4_3_0_0 : ∀ a, (![0, 4, 3, 0, 0] : Fin 5 → Nat) a + S1x1x1x64x512.size a ≤ S1x7x7x64x512.size a
  slices_S2x70x518_o0_4_4_S2x64x512 : S2x70x518.Slices ![0, 4, 4] S2x64x512
  inb_S1x7x7x64x512_S1x1x1x64x512_0_4_4_0_0 : ∀ a, (![0, 4, 4, 0, 0] : Fin 5 → Nat) a + S1x1x1x64x512.size a ≤ S1x7x7x64x512.size a
  slices_S2x70x518_o0_4_5_S2x64x512 : S2x70x518.Slices ![0, 4, 5] S2x64x512
  inb_S1x7x7x64x512_S1x1x1x64x512_0_4_5_0_0 : ∀ a, (![0, 4, 5, 0, 0] : Fin 5 → Nat) a + S1x1x1x64x512.size a ≤ S1x7x7x64x512.size a
  slices_S2x70x518_o0_4_6_S2x64x512 : S2x70x518.Slices ![0, 4, 6] S2x64x512
  inb_S1x7x7x64x512_S1x1x1x64x512_0_4_6_0_0 : ∀ a, (![0, 4, 6, 0, 0] : Fin 5 → Nat) a + S1x1x1x64x512.size a ≤ S1x7x7x64x512.size a
  slices_S2x70x518_o0_5_0_S2x64x512 : S2x70x518.Slices ![0, 5, 0] S2x64x512
  inb_S1x7x7x64x512_S1x1x1x64x512_0_5_0_0_0 : ∀ a, (![0, 5, 0, 0, 0] : Fin 5 → Nat) a + S1x1x1x64x512.size a ≤ S1x7x7x64x512.size a
  slices_S2x70x518_o0_5_1_S2x64x512 : S2x70x518.Slices ![0, 5, 1] S2x64x512
  inb_S1x7x7x64x512_S1x1x1x64x512_0_5_1_0_0 : ∀ a, (![0, 5, 1, 0, 0] : Fin 5 → Nat) a + S1x1x1x64x512.size a ≤ S1x7x7x64x512.size a
  slices_S2x70x518_o0_5_2_S2x64x512 : S2x70x518.Slices ![0, 5, 2] S2x64x512
  inb_S1x7x7x64x512_S1x1x1x64x512_0_5_2_0_0 : ∀ a, (![0, 5, 2, 0, 0] : Fin 5 → Nat) a + S1x1x1x64x512.size a ≤ S1x7x7x64x512.size a
  slices_S2x70x518_o0_5_3_S2x64x512 : S2x70x518.Slices ![0, 5, 3] S2x64x512
  inb_S1x7x7x64x512_S1x1x1x64x512_0_5_3_0_0 : ∀ a, (![0, 5, 3, 0, 0] : Fin 5 → Nat) a + S1x1x1x64x512.size a ≤ S1x7x7x64x512.size a
  slices_S2x70x518_o0_5_4_S2x64x512 : S2x70x518.Slices ![0, 5, 4] S2x64x512
  inb_S1x7x7x64x512_S1x1x1x64x512_0_5_4_0_0 : ∀ a, (![0, 5, 4, 0, 0] : Fin 5 → Nat) a + S1x1x1x64x512.size a ≤ S1x7x7x64x512.size a
  slices_S2x70x518_o0_5_5_S2x64x512 : S2x70x518.Slices ![0, 5, 5] S2x64x512
  inb_S1x7x7x64x512_S1x1x1x64x512_0_5_5_0_0 : ∀ a, (![0, 5, 5, 0, 0] : Fin 5 → Nat) a + S1x1x1x64x512.size a ≤ S1x7x7x64x512.size a
  slices_S2x70x518_o0_5_6_S2x64x512 : S2x70x518.Slices ![0, 5, 6] S2x64x512
  inb_S1x7x7x64x512_S1x1x1x64x512_0_5_6_0_0 : ∀ a, (![0, 5, 6, 0, 0] : Fin 5 → Nat) a + S1x1x1x64x512.size a ≤ S1x7x7x64x512.size a
  slices_S2x70x518_o0_6_0_S2x64x512 : S2x70x518.Slices ![0, 6, 0] S2x64x512
  inb_S1x7x7x64x512_S1x1x1x64x512_0_6_0_0_0 : ∀ a, (![0, 6, 0, 0, 0] : Fin 5 → Nat) a + S1x1x1x64x512.size a ≤ S1x7x7x64x512.size a
  slices_S2x70x518_o0_6_1_S2x64x512 : S2x70x518.Slices ![0, 6, 1] S2x64x512
  inb_S1x7x7x64x512_S1x1x1x64x512_0_6_1_0_0 : ∀ a, (![0, 6, 1, 0, 0] : Fin 5 → Nat) a + S1x1x1x64x512.size a ≤ S1x7x7x64x512.size a
  slices_S2x70x518_o0_6_2_S2x64x512 : S2x70x518.Slices ![0, 6, 2] S2x64x512
  inb_S1x7x7x64x512_S1x1x1x64x512_0_6_2_0_0 : ∀ a, (![0, 6, 2, 0, 0] : Fin 5 → Nat) a + S1x1x1x64x512.size a ≤ S1x7x7x64x512.size a
  slices_S2x70x518_o0_6_3_S2x64x512 : S2x70x518.Slices ![0, 6, 3] S2x64x512
  inb_S1x7x7x64x512_S1x1x1x64x512_0_6_3_0_0 : ∀ a, (![0, 6, 3, 0, 0] : Fin 5 → Nat) a + S1x1x1x64x512.size a ≤ S1x7x7x64x512.size a
  slices_S2x70x518_o0_6_4_S2x64x512 : S2x70x518.Slices ![0, 6, 4] S2x64x512
  inb_S1x7x7x64x512_S1x1x1x64x512_0_6_4_0_0 : ∀ a, (![0, 6, 4, 0, 0] : Fin 5 → Nat) a + S1x1x1x64x512.size a ≤ S1x7x7x64x512.size a
  slices_S2x70x518_o0_6_5_S2x64x512 : S2x70x518.Slices ![0, 6, 5] S2x64x512
  inb_S1x7x7x64x512_S1x1x1x64x512_0_6_5_0_0 : ∀ a, (![0, 6, 5, 0, 0] : Fin 5 → Nat) a + S1x1x1x64x512.size a ≤ S1x7x7x64x512.size a
  slices_S2x70x518_o0_6_6_S2x64x512 : S2x70x518.Slices ![0, 6, 6] S2x64x512
  inb_S1x7x7x64x512_S1x1x1x64x512_0_6_6_0_0 : ∀ a, (![0, 6, 6, 0, 0] : Fin 5 → Nat) a + S1x1x1x64x512.size a ≤ S1x7x7x64x512.size a
  inb_S2x1x64x512_S2x1x64x512_0_0_0_0 : ∀ a, (![0, 0, 0, 0] : Fin 4 → Nat) a + S2x1x64x512.size a ≤ S2x1x64x512.size a
  h_S2x1x64x512 : 0 < S2x1x64x512.numel
  shapeCasts_S2x1x64x512_S2x64x512 : S2x1x64x512.ShapeCasts S2x64x512
  shapeCasts_S2x64x512_S2x1x64x512 : S2x64x512.ShapeCasts S2x1x64x512
  hrank0 : 0 < grid0.rank
  k0_mult1_dvd : ∀ i : grid0.Coords, 64 ∣ (k0_mult1 i).toNat
  k0_off1_inb : ∀ i : grid0.Coords, ∀ a, (k0_off1 i) a + S2x1x70x518.size a ≤ S2x1x518x518.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x518x518.size a ≤ S2x3x518x518.size a
  hwx0_0 : ∀ i : grid0.Coords, EltTy.bits .f32 = 32 ∨ (Rect.block (s := S2x3x518x518) S2x1x518x518.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x7x7x64x512.size a ≤ S3x7x7x512x512.size a
  hwx0_1 : ∀ i : grid0.Coords, EltTy.bits .f32 = 32 ∨ (Rect.block (s := S3x7x7x512x512) S1x7x7x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x64x512.size a ≤ S2x3x512x512.size a
  hwx0_2 : ∀ i : grid0.Coords, EltTy.bits .f32 = 32 ∨ (Rect.block (s := S2x3x512x512) S2x1x64x512.size (cc0_transform_2 i) (hinb0_2 i)).WholeWords (EltTy.packing .f32)

variable [Facts₀]

abbrev win0_0 : Pipeline.Window sig grid0 :=
  Pipeline.Window.ofSpec (Memref.whole main_v0) S2x1x518x518.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x7x7x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x3x512x512 : Shape := ⟨4, ![2, 3, 512, 512]⟩
abbrev S3x512x512x7x7 : Shape := ⟨5, ![3, 512, 512, 7, 7]⟩
abbrev S_ : Shape := ⟨0, ![]⟩
abbrev S2x3x1x512 : Shape := ⟨4, ![2, 3, 1, 512]⟩
abbrev S2x3x3x512 : Shape := ⟨4, ![2, 3, 3, 512]⟩
abbrev S2x3x515x512 : Shape := ⟨4, ![2, 3, 515, 512]⟩
abbrev S2x3x518x512 : Shape := ⟨4, ![2, 3, 518, 512]⟩
abbrev S2x3x518x1 : Shape := ⟨4, ![2, 3, 518, 1]⟩
abbrev S2x3x518x3 : Shape := ⟨4, ![2, 3, 518, 3]⟩
abbrev S2x3x518x515 : Shape := ⟨4, ![2, 3, 518, 515]⟩
abbrev S2x3x518x518 : Shape := ⟨4, ![2, 3, 518, 518]⟩
abbrev S3x512x512x1x1 : Shape := ⟨5, ![3, 512, 512, 1, 1]⟩
abbrev S3x512x512 : Shape := ⟨3, ![3, 512, 512]⟩
abbrev S1x3x512x512 : Shape := ⟨4, ![1, 3, 512, 512]⟩

abbrev nBuf : Space → Nat
  | .hbm => 364
  | .vmem => 0
  | .smem => 0
  | _ => 0

abbrev hbmTy0_0 (i : Nat) : BufTy := match i % 128 with
  | 0 => ⟨S2x3x512x512, .f32⟩
  | 1 => ⟨S3x512x512x7x7, .f32⟩
  | 2 => ⟨S_, .i32⟩
  | 3 => ⟨S2x3x1x512, .f32⟩
  | 4 => ⟨S2x3x3x512, .f32⟩
  | 5 => ⟨S2x3x3x512, .f32⟩
  | 6 => ⟨S2x3x515x512, .f32⟩
  | 7 => ⟨S2x3x1x512, .f32⟩
  | 8 => ⟨S2x3x3x512, .f32⟩
  | 9 => ⟨S2x3x3x512, .f32⟩
  | 10 => ⟨S2x3x518x512, .f32⟩
  | 11 => ⟨S2x3x518x1, .f32⟩
  | 12 => ⟨S2x3x518x3, .f32⟩
  | 13 => ⟨S2x3x518x3, .f32⟩
  | 14 => ⟨S2x3x518x515, .f32⟩
  | 15 => ⟨S2x3x518x1, .f32⟩
  | 16 => ⟨S2x3x518x3, .f32⟩
  | 17 => ⟨S2x3x518x3, .f32⟩
  | 18 => ⟨S2x3x518x518, .f32⟩
  | 19 => ⟨S_, .f32⟩
  | 20 => ⟨S2x3x512x512, .f32⟩
  | 21 => ⟨S2x3x512x512, .f32⟩
  | 22 => ⟨S3x512x512x1x1, .f32⟩
  | 23 => ⟨S3x512x512, .f32⟩
  | 24 => ⟨S1x3x512x512, .f32⟩
  | 25 => ⟨S2x3x512x512, .f32⟩
  | 26 => ⟨S2x3x512x512, .f32⟩
  | 27 => ⟨S2x3x512x512, .f32⟩
  | 28 => ⟨S2x3x512x512, .f32⟩
  | 29 => ⟨S3x512x512x1x1, .f32⟩
  | 30 => ⟨S3x512x512, .f32⟩
  | 31 => ⟨S1x3x512x512, .f32⟩
  | 32 => ⟨S2x3x512x512, .f32⟩
  | 33 => ⟨S2x3x512x512, .f32⟩
  | 34 => ⟨S2x3x512x512, .f32⟩
  | 35 => ⟨S2x3x512x512, .f32⟩
  | 36 => ⟨S3x512x512x1x1, .f32⟩
  | 37 => ⟨S3x512x512, .f32⟩
  | 38 => ⟨S1x3x512x512, .f32⟩
  | 39 => ⟨S2x3x512x512, .f32⟩
  | 40 => ⟨S2x3x512x512, .f32⟩
  | 41 => ⟨S2x3x512x512, .f32⟩
  | 42 => ⟨S2x3x512x512, .f32⟩
  | 43 => ⟨S3x512x512x1x1, .f32⟩
  | 44 => ⟨S3x512x512, .f32⟩
  | 45 => ⟨S1x3x512x512, .f32⟩
  | 46 => ⟨S2x3x512x512, .f32⟩
  | 47 => ⟨S2x3x512x512, .f32⟩
  | 48 => ⟨S2x3x512x512, .f32⟩
  | 49 => ⟨S2x3x512x512, .f32⟩
  | 50 => ⟨S3x512x512x1x1, .f32⟩
  | 51 => ⟨S3x512x512, .f32⟩
  | 52 => ⟨S1x3x512x512, .f32⟩
  | 53 => ⟨S2x3x512x512, .f32⟩
  | 54 => ⟨S2x3x512x512, .f32⟩
  | 55 => ⟨S2x3x512x512, .f32⟩
  | 56 => ⟨S2x3x512x512, .f32⟩
  | 57 => ⟨S3x512x512x1x1, .f32⟩
  | 58 => ⟨S3x512x512, .f32⟩
  | 59 => ⟨S1x3x512x512, .f32⟩
  | 60 => ⟨S2x3x512x512, .f32⟩
  | 61 => ⟨S2x3x512x512, .f32⟩
  | 62 => ⟨S2x3x512x512, .f32⟩
  | 63 => ⟨S2x3x512x512, .f32⟩
  | 64 => ⟨S3x512x512x1x1, .f32⟩
  | 65 => ⟨S3x512x512, .f32⟩
  | 66 => ⟨S1x3x512x512, .f32⟩
  | 67 => ⟨S2x3x512x512, .f32⟩
  | 68 => ⟨S2x3x512x512, .f32⟩
  | 69 => ⟨S2x3x512x512, .f32⟩
  | 70 => ⟨S2x3x512x512, .f32⟩
  | 71 => ⟨S3x512x512x1x1, .f32⟩
  | 72 => ⟨S3x512x512, .f32⟩
  | 73 => ⟨S1x3x512x512, .f32⟩
  | 74 => ⟨S2x3x512x512, .f32⟩
  | 75 => ⟨S2x3x512x512, .f32⟩
  | 76 => ⟨S2x3x512x512, .f32⟩
  | 77 => ⟨S2x3x512x512, .f32⟩
  | 78 => ⟨S3x512x512x1x1, .f32⟩
  | 79 => ⟨S3x512x512, .f32⟩
  | 80 => ⟨S1x3x512x512, .f32⟩
  | 81 => ⟨S2x3x512x512, .f32⟩
  | 82 => ⟨S2x3x512x512, .f32⟩
  | 83 => ⟨S2x3x512x512, .f32⟩
  | 84 => ⟨S2x3x512x512, .f32⟩
  | 85 => ⟨S3x512x512x1x1, .f32⟩
  | 86 => ⟨S3x512x512, .f32⟩
  | 87 => ⟨S1x3x512x512, .f32⟩
  | 88 => ⟨S2x3x512x512, .f32⟩
  | 89 => ⟨S2x3x512x512, .f32⟩
  | 90 => ⟨S2x3x512x512, .f32⟩
  | 91 => ⟨S2x3x512x512, .f32⟩
  | 92 => ⟨S3x512x512x1x1, .f32⟩
  | 93 => ⟨S3x512x512, .f32⟩
  | 94 => ⟨S1x3x512x512, .f32⟩
  | 95 => ⟨S2x3x512x512, .f32⟩
  | 96 => ⟨S2x3x512x512, .f32⟩
  | 97 => ⟨S2x3x512x512, .f32⟩
  | 98 => ⟨S2x3x512x512, .f32⟩
  | 99 => ⟨S3x512x512x1x1, .f32⟩
  | 100 => ⟨S3x512x512, .f32⟩
  | 101 => ⟨S1x3x512x512, .f32⟩
  | 102 => ⟨S2x3x512x512, .f32⟩
  | 103 => ⟨S2x3x512x512, .f32⟩
  | 104 => ⟨S2x3x512x512, .f32⟩
  | 105 => ⟨S2x3x512x512, .f32⟩
  | 106 => ⟨S3x512x512x1x1, .f32⟩
  | 107 => ⟨S3x512x512, .f32⟩
  | 108 => ⟨S1x3x512x512, .f32⟩
  | 109 => ⟨S2x3x512x512, .f32⟩
  | 110 => ⟨S2x3x512x512, .f32⟩
  | 111 => ⟨S2x3x512x512, .f32⟩
  | 112 => ⟨S2x3x512x512, .f32⟩
  | 113 => ⟨S3x512x512x1x1, .f32⟩
  | 114 => ⟨S3x512x512, .f32⟩
  | 115 => ⟨S1x3x512x512, .f32⟩
  | 116 => ⟨S2x3x512x512, .f32⟩
  | 117 => ⟨S2x3x512x512, .f32⟩
  | 118 => ⟨S2x3x512x512, .f32⟩
  | 119 => ⟨S2x3x512x512, .f32⟩
  | 120 => ⟨S3x512x512x1x1, .f32⟩
  | 121 => ⟨S3x512x512, .f32⟩
  | 122 => ⟨S1x3x512x512, .f32⟩
  | 123 => ⟨S2x3x512x512, .f32⟩
  | 124 => ⟨S2x3x512x512, .f32⟩
  | 125 => ⟨S2x3x512x512, .f32⟩
  | 126 => ⟨S2x3x512x512, .f32⟩
  | 127 => ⟨S3x512x512x1x1, .f32⟩
  | _ => ⟨S2x3x512x512, .f32⟩

abbrev hbmTy0_1 (i : Nat) : BufTy := match i % 128 with
  | 0 => ⟨S3x512x512, .f32⟩
  | 1 => ⟨S1x3x512x512, .f32⟩
  | 2 => ⟨S2x3x512x512, .f32⟩
  | 3 => ⟨S2x3x512x512, .f32⟩
  | 4 => ⟨S2x3x512x512, .f32⟩
  | 5 => ⟨S2x3x512x512, .f32⟩
  | 6 => ⟨S3x512x512x1x1, .f32⟩
  | 7 => ⟨S3x512x512, .f32⟩
  | 8 => ⟨S1x3x512x512, .f32⟩
  | 9 => ⟨S2x3x512x512, .f32⟩
  | 10 => ⟨S2x3x512x512, .f32⟩
  | 11 => ⟨S2x3x512x512, .f32⟩
  | 12 => ⟨S2x3x512x512, .f32⟩
  | 13 => ⟨S3x512x512x1x1, .f32⟩
  | 14 => ⟨S3x512x512, .f32⟩
  | 15 => ⟨S1x3x512x512, .f32⟩
  | 16 => ⟨S2x3x512x512, .f32⟩
  | 17 => ⟨S2x3x512x512, .f32⟩
  | 18 => ⟨S2x3x512x512, .f32⟩
  | 19 => ⟨S2x3x512x512, .f32⟩
  | 20 => ⟨S3x512x512x1x1, .f32⟩
  | 21 => ⟨S3x512x512, .f32⟩
  | 22 => ⟨S1x3x512x512, .f32⟩
  | 23 => ⟨S2x3x512x512, .f32⟩
  | 24 => ⟨S2x3x512x512, .f32⟩
  | 25 => ⟨S2x3x512x512, .f32⟩
  | 26 => ⟨S2x3x512x512, .f32⟩
  | 27 => ⟨S3x512x512x1x1, .f32⟩
  | 28 => ⟨S3x512x512, .f32⟩
  | 29 => ⟨S1x3x512x512, .f32⟩
  | 30 => ⟨S2x3x512x512, .f32⟩
  | 31 => ⟨S2x3x512x512, .f32⟩
  | 32 => ⟨S2x3x512x512, .f32⟩
  | 33 => ⟨S2x3x512x512, .f32⟩
  | 34 => ⟨S3x512x512x1x1, .f32⟩
  | 35 => ⟨S3x512x512, .f32⟩
  | 36 => ⟨S1x3x512x512, .f32⟩
  | 37 => ⟨S2x3x512x512, .f32⟩
  | 38 => ⟨S2x3x512x512, .f32⟩
  | 39 => ⟨S2x3x512x512, .f32⟩
  | 40 => ⟨S2x3x512x512, .f32⟩
  | 41 => ⟨S3x512x512x1x1, .f32⟩
  | 42 => ⟨S3x512x512, .f32⟩
  | 43 => ⟨S1x3x512x512, .f32⟩
  | 44 => ⟨S2x3x512x512, .f32⟩
  | 45 => ⟨S2x3x512x512, .f32⟩
  | 46 => ⟨S2x3x512x512, .f32⟩
  | 47 => ⟨S2x3x512x512, .f32⟩
  | 48 => ⟨S3x512x512x1x1, .f32⟩
  | 49 => ⟨S3x512x512, .f32⟩
  | 50 => ⟨S1x3x512x512, .f32⟩
  | 51 => ⟨S2x3x512x512, .f32⟩
  | 52 => ⟨S2x3x512x512, .f32⟩
  | 53 => ⟨S2x3x512x512, .f32⟩
  | 54 => ⟨S2x3x512x512, .f32⟩
  | 55 => ⟨S3x512x512x1x1, .f32⟩
  | 56 => ⟨S3x512x512, .f32⟩
  | 57 => ⟨S1x3x512x512, .f32⟩
  | 58 => ⟨S2x3x512x512, .f32⟩
  | 59 => ⟨S2x3x512x512, .f32⟩
  | 60 => ⟨S2x3x512x512, .f32⟩
  | 61 => ⟨S2x3x512x512, .f32⟩
  | 62 => ⟨S3x512x512x1x1, .f32⟩
  | 63 => ⟨S3x512x512, .f32⟩
  | 64 => ⟨S1x3x512x512, .f32⟩
  | 65 => ⟨S2x3x512x512, .f32⟩
  | 66 => ⟨S2x3x512x512, .f32⟩
  | 67 => ⟨S2x3x512x512, .f32⟩
  | 68 => ⟨S2x3x512x512, .f32⟩
  | 69 => ⟨S3x512x512x1x1, .f32⟩
  | 70 => ⟨S3x512x512, .f32⟩
  | 71 => ⟨S1x3x512x512, .f32⟩
  | 72 => ⟨S2x3x512x512, .f32⟩
  | 73 => ⟨S2x3x512x512, .f32⟩
  | 74 => ⟨S2x3x512x512, .f32⟩
  | 75 => ⟨S2x3x512x512, .f32⟩
  | 76 => ⟨S3x512x512x1x1, .f32⟩
  | 77 => ⟨S3x512x512, .f32⟩
  | 78 => ⟨S1x3x512x512, .f32⟩
  | 79 => ⟨S2x3x512x512, .f32⟩
  | 80 => ⟨S2x3x512x512, .f32⟩
  | 81 => ⟨S2x3x512x512, .f32⟩
  | 82 => ⟨S2x3x512x512, .f32⟩
  | 83 => ⟨S3x512x512x1x1, .f32⟩
  | 84 => ⟨S3x512x512, .f32⟩
  | 85 => ⟨S1x3x512x512, .f32⟩
  | 86 => ⟨S2x3x512x512, .f32⟩
  | 87 => ⟨S2x3x512x512, .f32⟩
  | 88 => ⟨S2x3x512x512, .f32⟩
  | 89 => ⟨S2x3x512x512, .f32⟩
  | 90 => ⟨S3x512x512x1x1, .f32⟩
  | 91 => ⟨S3x512x512, .f32⟩
  | 92 => ⟨S1x3x512x512, .f32⟩
  | 93 => ⟨S2x3x512x512, .f32⟩
  | 94 => ⟨S2x3x512x512, .f32⟩
  | 95 => ⟨S2x3x512x512, .f32⟩
  | 96 => ⟨S2x3x512x512, .f32⟩
  | 97 => ⟨S3x512x512x1x1, .f32⟩
  | 98 => ⟨S3x512x512, .f32⟩
  | 99 => ⟨S1x3x512x512, .f32⟩
  | 100 => ⟨S2x3x512x512, .f32⟩
  | 101 => ⟨S2x3x512x512, .f32⟩
  | 102 => ⟨S2x3x512x512, .f32⟩
  | 103 => ⟨S2x3x512x512, .f32⟩
  | 104 => ⟨S3x512x512x1x1, .f32⟩
  | 105 => ⟨S3x512x512, .f32⟩
  | 106 => ⟨S1x3x512x512, .f32⟩
  | 107 => ⟨S2x3x512x512, .f32⟩
  | 108 => ⟨S2x3x512x512, .f32⟩
  | 109 => ⟨S2x3x512x512, .f32⟩
  | 110 => ⟨S2x3x512x512, .f32⟩
  | 111 => ⟨S3x512x512x1x1, .f32⟩
  | 112 => ⟨S3x512x512, .f32⟩
  | 113 => ⟨S1x3x512x512, .f32⟩
  | 114 => ⟨S2x3x512x512, .f32⟩
  | 115 => ⟨S2x3x512x512, .f32⟩
  | 116 => ⟨S2x3x512x512, .f32⟩
  | 117 => ⟨S2x3x512x512, .f32⟩
  | 118 => ⟨S3x512x512x1x1, .f32⟩
  | 119 => ⟨S3x512x512, .f32⟩
  | 120 => ⟨S1x3x512x512, .f32⟩
  | 121 => ⟨S2x3x512x512, .f32⟩
  | 122 => ⟨S2x3x512x512, .f32⟩
  | 123 => ⟨S2x3x512x512, .f32⟩
  | 124 => ⟨S2x3x512x512, .f32⟩
  | 125 => ⟨S3x512x512x1x1, .f32⟩
  | 126 => ⟨S3x512x512, .f32⟩
  | 127 => ⟨S1x3x512x512, .f32⟩
  | _ => ⟨S2x3x512x512, .f32⟩

abbrev hbmTy0_2 (i : Nat) : BufTy := match i % 128 with
  | 0 => ⟨S2x3x512x512, .f32⟩
  | 1 => ⟨S2x3x512x512, .f32⟩
  | 2 => ⟨S2x3x512x512, .f32⟩
  | 3 => ⟨S2x3x512x512, .f32⟩
  | 4 => ⟨S3x512x512x1x1, .f32⟩
  | 5 => ⟨S3x512x512, .f32⟩
  | 6 => ⟨S1x3x512x512, .f32⟩
  | 7 => ⟨S2x3x512x512, .f32⟩
  | 8 => ⟨S2x3x512x512, .f32⟩
  | 9 => ⟨S2x3x512x512, .f32⟩
  | 10 => ⟨S2x3x512x512, .f32⟩
  | 11 => ⟨S3x512x512x1x1, .f32⟩
  | 12 => ⟨S3x512x512, .f32⟩
  | 13 => ⟨S1x3x512x512, .f32⟩
  | 14 => ⟨S2x3x512x512, .f32⟩
  | 15 => ⟨S2x3x512x512, .f32⟩
  | 16 => ⟨S2x3x512x512, .f32⟩
  | 17 => ⟨S2x3x512x512, .f32⟩
  | 18 => ⟨S3x512x512x1x1, .f32⟩
  | 19 => ⟨S3x512x512, .f32⟩
  | 20 => ⟨S1x3x512x512, .f32⟩
  | 21 => ⟨S2x3x512x512, .f32⟩
  | 22 => ⟨S2x3x512x512, .f32⟩
  | 23 => ⟨S2x3x512x512, .f32⟩
  | 24 => ⟨S2x3x512x512, .f32⟩
  | 25 => ⟨S3x512x512x1x1, .f32⟩
  | 26 => ⟨S3x512x512, .f32⟩
  | 27 => ⟨S1x3x512x512, .f32⟩
  | 28 => ⟨S2x3x512x512, .f32⟩
  | 29 => ⟨S2x3x512x512, .f32⟩
  | 30 => ⟨S2x3x512x512, .f32⟩
  | 31 => ⟨S2x3x512x512, .f32⟩
  | 32 => ⟨S3x512x512x1x1, .f32⟩
  | 33 => ⟨S3x512x512, .f32⟩
  | 34 => ⟨S1x3x512x512, .f32⟩
  | 35 => ⟨S2x3x512x512, .f32⟩
  | 36 => ⟨S2x3x512x512, .f32⟩
  | 37 => ⟨S2x3x512x512, .f32⟩
  | 38 => ⟨S2x3x512x512, .f32⟩
  | 39 => ⟨S3x512x512x1x1, .f32⟩
  | 40 => ⟨S3x512x512, .f32⟩
  | 41 => ⟨S1x3x512x512, .f32⟩
  | 42 => ⟨S2x3x512x512, .f32⟩
  | 43 => ⟨S2x3x512x512, .f32⟩
  | 44 => ⟨S2x3x512x512, .f32⟩
  | 45 => ⟨S2x3x512x512, .f32⟩
  | 46 => ⟨S3x512x512x1x1, .f32⟩
  | 47 => ⟨S3x512x512, .f32⟩
  | 48 => ⟨S1x3x512x512, .f32⟩
  | 49 => ⟨S2x3x512x512, .f32⟩
  | 50 => ⟨S2x3x512x512, .f32⟩
  | 51 => ⟨S2x3x512x512, .f32⟩
  | 52 => ⟨S2x3x512x512, .f32⟩
  | 53 => ⟨S3x512x512x1x1, .f32⟩
  | 54 => ⟨S3x512x512, .f32⟩
  | 55 => ⟨S1x3x512x512, .f32⟩
  | 56 => ⟨S2x3x512x512, .f32⟩
  | 57 => ⟨S2x3x512x512, .f32⟩
  | 58 => ⟨S2x3x512x512, .f32⟩
  | 59 => ⟨S2x3x512x512, .f32⟩
  | 60 => ⟨S3x512x512x1x1, .f32⟩
  | 61 => ⟨S3x512x512, .f32⟩
  | 62 => ⟨S1x3x512x512, .f32⟩
  | 63 => ⟨S2x3x512x512, .f32⟩
  | 64 => ⟨S2x3x512x512, .f32⟩
  | 65 => ⟨S2x3x512x512, .f32⟩
  | 66 => ⟨S2x3x512x512, .f32⟩
  | 67 => ⟨S3x512x512x1x1, .f32⟩
  | 68 => ⟨S3x512x512, .f32⟩
  | 69 => ⟨S1x3x512x512, .f32⟩
  | 70 => ⟨S2x3x512x512, .f32⟩
  | 71 => ⟨S2x3x512x512, .f32⟩
  | 72 => ⟨S2x3x512x512, .f32⟩
  | 73 => ⟨S2x3x512x512, .f32⟩
  | 74 => ⟨S3x512x512x1x1, .f32⟩
  | 75 => ⟨S3x512x512, .f32⟩
  | 76 => ⟨S1x3x512x512, .f32⟩
  | 77 => ⟨S2x3x512x512, .f32⟩
  | 78 => ⟨S2x3x512x512, .f32⟩
  | 79 => ⟨S2x3x512x512, .f32⟩
  | 80 => ⟨S2x3x512x512, .f32⟩
  | 81 => ⟨S3x512x512x1x1, .f32⟩
  | 82 => ⟨S3x512x512, .f32⟩
  | 83 => ⟨S1x3x512x512, .f32⟩
  | 84 => ⟨S2x3x512x512, .f32⟩
  | 85 => ⟨S2x3x512x512, .f32⟩
  | 86 => ⟨S2x3x512x512, .f32⟩
  | 87 => ⟨S2x3x512x512, .f32⟩
  | 88 => ⟨S3x512x512x1x1, .f32⟩
  | 89 => ⟨S3x512x512, .f32⟩
  | 90 => ⟨S1x3x512x512, .f32⟩
  | 91 => ⟨S2x3x512x512, .f32⟩
  | 92 => ⟨S2x3x512x512, .f32⟩
  | 93 => ⟨S2x3x512x512, .f32⟩
  | 94 => ⟨S2x3x512x512, .f32⟩
  | 95 => ⟨S3x512x512x1x1, .f32⟩
  | 96 => ⟨S3x512x512, .f32⟩
  | 97 => ⟨S1x3x512x512, .f32⟩
  | 98 => ⟨S2x3x512x512, .f32⟩
  | 99 => ⟨S2x3x512x512, .f32⟩
  | 100 => ⟨S2x3x512x512, .f32⟩
  | 101 => ⟨S2x3x512x512, .f32⟩
  | 102 => ⟨S3x512x512x1x1, .f32⟩
  | 103 => ⟨S3x512x512, .f32⟩
  | 104 => ⟨S1x3x512x512, .f32⟩
  | 105 => ⟨S2x3x512x512, .f32⟩
  | 106 => ⟨S2x3x512x512, .f32⟩
  | 107 => ⟨S2x3x512x512, .f32⟩
  | _ => ⟨S2x3x512x512, .f32⟩

abbrev hbmTy (i : Nat) : BufTy := match i / 128 with
  | 0 => hbmTy0_0 i
  | 1 => hbmTy0_1 i
  | 2 => hbmTy0_2 i
  | _ => ⟨S2x3x512x512, .f32⟩

abbrev bufTy : (tb : Table) → Fin (tcTables nBuf tb) → BufTy
  | .hbm, ⟨i, _⟩ => hbmTy i
  | _, _ => ⟨S2x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_v315 : Ref sig .tc := ⟨.hbm, 334, rfl⟩
abbrev main_v316 : Ref sig .tc := ⟨.hbm, 335, rfl⟩
abbrev main_v317 : Ref sig .tc := ⟨.hbm, 336, rfl⟩
abbrev main_v318 : Ref sig .tc := ⟨.hbm, 337, rfl⟩
abbrev main_v319 : Ref sig .tc := ⟨.hbm, 338, rfl⟩
abbrev main_v320 : Ref sig .tc := ⟨.hbm, 339, rfl⟩
abbrev main_v321 : Ref sig .tc := ⟨.hbm, 340, rfl⟩
abbrev main_v322 : Ref sig .tc := ⟨.hbm, 341, rfl⟩
abbrev main_v323 : Ref sig .tc := ⟨.hbm, 342, rfl⟩
abbrev main_v324 : Ref sig .tc := ⟨.hbm, 343, rfl⟩
abbrev main_v325 : Ref sig .tc := ⟨.hbm, 344, rfl⟩
abbrev main_v326 : Ref sig .tc := ⟨.hbm, 345, rfl⟩
abbrev main_v327 : Ref sig .tc := ⟨.hbm, 346, rfl⟩
abbrev main_v328 : Ref sig .tc := ⟨.hbm, 347, rfl⟩
abbrev main_v329 : Ref sig .tc := ⟨.hbm, 348, rfl⟩
abbrev main_v330 : Ref sig .tc := ⟨.hbm, 349, rfl⟩
abbrev main_v331 : Ref sig .tc := ⟨.hbm, 350, rfl⟩
abbrev main_v332 : Ref sig .tc := ⟨.hbm, 351, rfl⟩
abbrev main_v333 : Ref sig .tc := ⟨.hbm, 352, rfl⟩
abbrev main_v334 : Ref sig .tc := ⟨.hbm, 353, rfl⟩
abbrev main_v335 : Ref sig .tc := ⟨.hbm, 354, rfl⟩
abbrev main_v336 : Ref sig .tc := ⟨.hbm, 355, rfl⟩
abbrev main_v337 : Ref sig .tc := ⟨.hbm, 356, rfl⟩
abbrev main_v338 : Ref sig .tc := ⟨.hbm, 357, rfl⟩
abbrev main_v339 : Ref sig .tc := ⟨.hbm, 358, rfl⟩
abbrev main_v340 : Ref sig .tc := ⟨.hbm, 359, rfl⟩
abbrev main_v341 : Ref sig .tc := ⟨.hbm, 360, rfl⟩
abbrev main_v342 : Ref sig .tc := ⟨.hbm, 361, rfl⟩
abbrev main_v343 : Ref sig .tc := ⟨.hbm, 362, rfl⟩
abbrev main_v344 : Ref sig .tc := ⟨.hbm, 363, rfl⟩

abbrev nD : Nat := 1
abbrev τ : Topo := Topo.v7x

variable {F : FTy → Type} [FloatOps F]

class Facts₀ : Prop where
  slices_S2x3x512x512_S2x3x1x512_0_0_0_0 : S2x3x512x512.Slices ![0, 0, 0, 0] S2x3x1x512
  slices_S2x3x512x512_S2x3x3x512_0_0_1_0 : S2x3x512x512.Slices ![0, 0, 1, 0] S2x3x3x512
  concatenates_S2x3x3x512_S2x3x512x512_S2x3x515x512_d2 : Shape.Concatenates [S2x3x3x512, S2x3x512x512] S2x3x515x512 2
  slices_S2x3x515x512_S2x3x1x512_0_0_514_0 : S2x3x515x512.Slices ![0, 0, 514, 0] S2x3x1x512
  slices_S2x3x515x512_S2x3x3x512_0_0_511_0 : S2x3x515x512.Slices ![0, 0, 511, 0] S2x3x3x512
  concatenates_S2x3x515x512_S2x3x3x512_S2x3x518x512_d2 : Shape.Concatenates [S2x3x515x512, S2x3x3x512] S2x3x518x512 2
  slices_S2x3x518x512_S2x3x518x1_0_0_0_0 : S2x3x518x512.Slices ![0, 0, 0, 0] S2x3x518x1
  slices_S2x3x518x512_S2x3x518x3_0_0_0_1 : S2x3x518x512.Slices ![0, 0, 0, 1] S2x3x518x3
  concatenates_S2x3x518x3_S2x3x518x512_S2x3x518x515_d3 : Shape.Concatenates [S2x3x518x3, S2x3x518x512] S2x3x518x515 3
  slices_S2x3x518x515_S2x3x518x1_0_0_0_514 : S2x3x518x515.Slices ![0, 0, 0, 514] S2x3x518x1
  slices_S2x3x518x515_S2x3x518x3_0_0_0_511 : S2x3x518x515.Slices ![0, 0, 0, 511] S2x3x518x3
  concatenates_S2x3x518x515_S2x3x518x3_S2x3x518x518_d3 : Shape.Concatenates [S2x3x518x515, S2x3x518x3] S2x3x518x518 3
  bcast_S_S2x3x512x512 : S_.BroadcastsInDim S2x3x512x512 (![] : Fin 0 → Fin S2x3x512x512.rank)
  slices_S2x3x518x518_S2x3x512x512_0_0_0_0 : S2x3x518x518.Slices ![0, 0, 0, 0] S2x3x512x512
  slices_S3x512x512x7x7_S3x512x512x1x1_0_0_0_0_0 : S3x512x512x7x7.Slices ![0, 0, 0, 0, 0] S3x512x512x1x1
  shapeCasts_S3x512x512x1x1_S3x512x512 : S3x512x512x1x1.ShapeCasts S3x512x512
  bcast_S3x512x512_S1x3x512x512_1_2_3 : S3x512x512.BroadcastsInDim S1x3x512x512 (![1, 2, 3] : Fin 3 → Fin S1x3x512x512.rank)
  bcast_S1x3x512x512_S2x3x512x512_0_1_2_3 : S1x3x512x512.BroadcastsInDim S2x3x512x512 (![0, 1, 2, 3] : Fin 4 → Fin S2x3x512x512.rank)
  slices_S2x3x518x518_S2x3x512x512_0_0_0_1 : S2x3x518x518.Slices ![0, 0, 0, 1] S2x3x512x512
  slices_S3x512x512x7x7_S3x512x512x1x1_0_0_0_0_1 : S3x512x512x7x7.Slices ![0, 0, 0, 0, 1] S3x512x512x1x1
  slices_S2x3x518x518_S2x3x512x512_0_0_0_2 : S2x3x518x518.Slices ![0, 0, 0, 2] S2x3x512x512
  slices_S3x512x512x7x7_S3x512x512x1x1_0_0_0_0_2 : S3x512x512x7x7.Slices ![0, 0, 0, 0, 2] S3x512x512x1x1
  slices_S2x3x518x518_S2x3x512x512_0_0_0_3 : S2x3x518x518.Slices ![0, 0, 0, 3] S2x3x512x512
  slices_S3x512x512x7x7_S3x512x512x1x1_0_0_0_0_3 : S3x512x512x7x7.Slices ![0, 0, 0, 0, 3] S3x512x512x1x1
  slices_S2x3x518x518_S2x3x512x512_0_0_0_4 : S2x3x518x518.Slices ![0, 0, 0, 4] S2x3x512x512
  slices_S3x512x512x7x7_S3x512x512x1x1_0_0_0_0_4 : S3x512x512x7x7.Slices ![0, 0, 0, 0, 4] S3x512x512x1x1
  slices_S2x3x518x518_S2x3x512x512_0_0_0_5 : S2x3x518x518.Slices ![0, 0, 0, 5] S2x3x512x512
  slices_S3x512x512x7x7_S3x512x512x1x1_0_0_0_0_5 : S3x512x512x7x7.Slices ![0, 0, 0, 0, 5] S3x512x512x1x1
  slices_S2x3x518x518_S2x3x512x512_0_0_0_6 : S2x3x518x518.Slices ![0, 0, 0, 6] S2x3x512x512
  slices_S3x512x512x7x7_S3x512x512x1x1_0_0_0_0_6 : S3x512x512x7x7.Slices ![0, 0, 0, 0, 6] S3x512x512x1x1
  slices_S2x3x518x518_S2x3x512x512_0_0_1_0 : S2x3x518x518.Slices ![0, 0, 1, 0] S2x3x512x512
  slices_S3x512x512x7x7_S3x512x512x1x1_0_0_0_1_0 : S3x512x512x7x7.Slices ![0, 0, 0, 1, 0] S3x512x512x1x1
  slices_S2x3x518x518_S2x3x512x512_0_0_1_1 : S2x3x518x518.Slices ![0, 0, 1, 1] S2x3x512x512
  slices_S3x512x512x7x7_S3x512x512x1x1_0_0_0_1_1 : S3x512x512x7x7.Slices ![0, 0, 0, 1, 1] S3x512x512x1x1
  slices_S2x3x518x518_S2x3x512x512_0_0_1_2 : S2x3x518x518.Slices ![0, 0, 1, 2] S2x3x512x512
  slices_S3x512x512x7x7_S3x512x512x1x1_0_0_0_1_2 : S3x512x512x7x7.Slices ![0, 0, 0, 1, 2] S3x512x512x1x1
  slices_S2x3x518x518_S2x3x512x512_0_0_1_3 : S2x3x518x518.Slices ![0, 0, 1, 3] S2x3x512x512
  slices_S3x512x512x7x7_S3x512x512x1x1_0_0_0_1_3 : S3x512x512x7x7.Slices ![0, 0, 0, 1, 3] S3x512x512x1x1
  slices_S2x3x518x518_S2x3x512x512_0_0_1_4 : S2x3x518x518.Slices ![0, 0, 1, 4] S2x3x512x512
  slices_S3x512x512x7x7_S3x512x512x1x1_0_0_0_1_4 : S3x512x512x7x7.Slices ![0, 0, 0, 1, 4] S3x512x512x1x1
  slices_S2x3x518x518_S2x3x512x512_0_0_1_5 : S2x3x518x518.Slices ![0, 0, 1, 5] S2x3x512x512
  slices_S3x512x512x7x7_S3x512x512x1x1_0_0_0_1_5 : S3x512x512x7x7.Slices ![0, 0, 0, 1, 5] S3x512x512x1x1
  slices_S2x3x518x518_S2x3x512x512_0_0_1_6 : S2x3x518x518.Slices ![0, 0, 1, 6] S2x3x512x512
  slices_S3x512x512x7x7_S3x512x512x1x1_0_0_0_1_6 : S3x512x512x7x7.Slices ![0, 0, 0, 1, 6] S3x512x512x1x1
  slices_S2x3x518x518_S2x3x512x512_0_0_2_0 : S2x3x518x518.Slices ![0, 0, 2, 0] S2x3x512x512
  slices_S3x512x512x7x7_S3x512x512x1x1_0_0_0_2_0 : S3x512x512x7x7.Slices ![0, 0, 0, 2, 0] S3x512x512x1x1
  slices_S2x3x518x518_S2x3x512x512_0_0_2_1 : S2x3x518x518.Slices ![0, 0, 2, 1] S2x3x512x512
  slices_S3x512x512x7x7_S3x512x512x1x1_0_0_0_2_1 : S3x512x512x7x7.Slices ![0, 0, 0, 2, 1] S3x512x512x1x1
  slices_S2x3x518x518_S2x3x512x512_0_0_2_2 : S2x3x518x518.Slices ![0, 0, 2, 2] S2x3x512x512
  slices_S3x512x512x7x7_S3x512x512x1x1_0_0_0_2_2 : S3x512x512x7x7.Slices ![0, 0, 0, 2, 2] S3x512x512x1x1
  slices_S2x3x518x518_S2x3x512x512_0_0_2_3 : S2x3x518x518.Slices ![0, 0, 2, 3] S2x3x512x512
  slices_S3x512x512x7x7_S3x512x512x1x1_0_0_0_2_3 : S3x512x512x7x7.Slices ![0, 0, 0, 2, 3] S3x512x512x1x1
  slices_S2x3x518x518_S2x3x512x512_0_0_2_4 : S2x3x518x518.Slices ![0, 0, 2, 4] S2x3x512x512
  slices_S3x512x512x7x7_S3x512x512x1x1_0_0_0_2_4 : S3x512x512x7x7.Slices ![0, 0, 0, 2, 4] S3x512x512x1x1
  slices_S2x3x518x518_S2x3x512x512_0_0_2_5 : S2x3x518x518.Slices ![0, 0, 2, 5] S2x3x512x512
  slices_S3x512x512x7x7_S3x512x512x1x1_0_0_0_2_5 : S3x512x512x7x7.Slices ![0, 0, 0, 2, 5] S3x512x512x1x1
  slices_S2x3x518x518_S2x3x512x512_0_0_2_6 : S2x3x518x518.Slices ![0, 0, 2, 6] S2x3x512x512
  slices_S3x512x512x7x7_S3x512x512x1x1_0_0_0_2_6 : S3x512x512x7x7.Slices ![0, 0, 0, 2, 6] S3x512x512x1x1
  slices_S2x3x518x518_S2x3x512x512_0_0_3_0 : S2x3x518x518.Slices ![0, 0, 3, 0] S2x3x512x512
  slices_S3x512x512x7x7_S3x512x512x1x1_0_0_0_3_0 : S3x512x512x7x7.Slices ![0, 0, 0, 3, 0] S3x512x512x1x1
  slices_S2x3x518x518_S2x3x512x512_0_0_3_1 : S2x3x518x518.Slices ![0, 0, 3, 1] S2x3x512x512
  slices_S3x512x512x7x7_S3x512x512x1x1_0_0_0_3_1 : S3x512x512x7x7.Slices ![0, 0, 0, 3, 1] S3x512x512x1x1
  slices_S2x3x518x518_S2x3x512x512_0_0_3_2 : S2x3x518x518.Slices ![0, 0, 3, 2] S2x3x512x512
  slices_S3x512x512x7x7_S3x512x512x1x1_0_0_0_3_2 : S3x512x512x7x7.Slices ![0, 0, 0, 3, 2] S3x512x512x1x1
  slices_S2x3x518x518_S2x3x512x512_0_0_3_3 : S2x3x518x518.Slices ![0, 0, 3, 3] S2x3x512x512
  slices_S3x512x512x7x7_S3x512x512x1x1_0_0_0_3_3 : S3x512x512x7x7.Slices ![0, 0, 0, 3, 3] S3x512x512x1x1
  slices_S2x3x518x518_S2x3x512x512_0_0_3_4 : S2x3x518x518.Slices ![0, 0, 3, 4] S2x3x512x512
  slices_S3x512x512x7x7_S3x512x512x1x1_0_0_0_3_4 : S3x512x512x7x7.Slices ![0, 0, 0, 3, 4] S3x512x512x1x1
  slices_S2x3x518x518_S2x3x512x512_0_0_3_5 : S2x3x518x518.Slices ![0, 0, 3, 5] S2x3x512x512
  slices_S3x512x512x7x7_S3x512x512x1x1_0_0_0_3_5 : S3x512x512x7x7.Slices ![0, 0, 0, 3, 5] S3x512x512x1x1
  slices_S2x3x518x518_S2x3x512x512_0_0_3_6 : S2x3x518x518.Slices ![0, 0, 3, 6] S2x3x512x512
  slices_S3x512x512x7x7_S3x512x512x1x1_0_0_0_3_6 : S3x512x512x7x7.Slices ![0, 0, 0, 3, 6] S3x512x512x1x1
  slices_S2x3x518x518_S2x3x512x512_0_0_4_0 : S2x3x518x518.Slices ![0, 0, 4, 0] S2x3x512x512
  slices_S3x512x512x7x7_S3x512x512x1x1_0_0_0_4_0 : S3x512x512x7x7.Slices ![0, 0, 0, 4, 0] S3x512x512x1x1
  slices_S2x3x518x518_S2x3x512x512_0_0_4_1 : S2x3x518x518.Slices ![0, 0, 4, 1] S2x3x512x512
  slices_S3x512x512x7x7_S3x512x512x1x1_0_0_0_4_1 : S3x512x512x7x7.Slices ![0, 0, 0, 4, 1] S3x512x512x1x1
  slices_S2x3x518x518_S2x3x512x512_0_0_4_2 : S2x3x518x518.Slices ![0, 0, 4, 2] S2x3x512x512
  slices_S3x512x512x7x7_S3x512x512x1x1_0_0_0_4_2 : S3x512x512x7x7.Slices ![0, 0, 0, 4, 2] S3x512x512x1x1
  slices_S2x3x518x518_S2x3x512x512_0_0_4_3 : S2x3x518x518.Slices ![0, 0, 4, 3] S2x3x512x512
  slices_S3x512x512x7x7_S3x512x512x1x1_0_0_0_4_3 : S3x512x512x7x7.Slices ![0, 0, 0, 4, 3] S3x512x512x1x1
  slices_S2x3x518x518_S2x3x512x512_0_0_4_4 : S2x3x518x518.Slices ![0, 0, 4, 4] S2x3x512x512
  slices_S3x512x512x7x7_S3x512x512x1x1_0_0_0_4_4 : S3x512x512x7x7.Slices ![0, 0, 0, 4, 4] S3x512x512x1x1
  slices_S2x3x518x518_S2x3x512x512_0_0_4_5 : S2x3x518x518.Slices ![0, 0, 4, 5] S2x3x512x512
  slices_S3x512x512x7x7_S3x512x512x1x1_0_0_0_4_5 : S3x512x512x7x7.Slices ![0, 0, 0, 4, 5] S3x512x512x1x1
  slices_S2x3x518x518_S2x3x512x512_0_0_4_6 : S2x3x518x518.Slices ![0, 0, 4, 6] S2x3x512x512
  slices_S3x512x512x7x7_S3x512x512x1x1_0_0_0_4_6 : S3x512x512x7x7.Slices ![0, 0, 0, 4, 6] S3x512x512x1x1
  slices_S2x3x518x518_S2x3x512x512_0_0_5_0 : S2x3x518x518.Slices ![0, 0, 5, 0] S2x3x512x512
  slices_S3x512x512x7x7_S3x512x512x1x1_0_0_0_5_0 : S3x512x512x7x7.Slices ![0, 0, 0, 5, 0] S3x512x512x1x1
  slices_S2x3x518x518_S2x3x512x512_0_0_5_1 : S2x3x518x518.Slices ![0, 0, 5, 1] S2x3x512x512
  slices_S3x512x512x7x7_S3x512x512x1x1_0_0_0_5_1 : S3x512x512x7x7.Slices ![0, 0, 0, 5, 1] S3x512x512x1x1
  slices_S2x3x518x518_S2x3x512x512_0_0_5_2 : S2x3x518x518.Slices ![0, 0, 5, 2] S2x3x512x512
  slices_S3x512x512x7x7_S3x512x512x1x1_0_0_0_5_2 : S3x512x512x7x7.Slices ![0, 0, 0, 5, 2] S3x512x512x1x1
  slices_S2x3x518x518_S2x3x512x512_0_0_5_3 : S2x3x518x518.Slices ![0, 0, 5, 3] S2x3x512x512
  slices_S3x512x512x7x7_S3x512x512x1x1_0_0_0_5_3 : S3x512x512x7x7.Slices ![0, 0, 0, 5, 3] S3x512x512x1x1
  slices_S2x3x518x518_S2x3x512x512_0_0_5_4 : S2x3x518x518.Slices ![0, 0, 5, 4] S2x3x512x512
  slices_S3x512x512x7x7_S3x512x512x1x1_0_0_0_5_4 : S3x512x512x7x7.Slices ![0, 0, 0, 5, 4] S3x512x512x1x1
  slices_S2x3x518x518_S2x3x512x512_0_0_5_5 : S2x3x518x518.Slices ![0, 0, 5, 5] S2x3x512x512
  slices_S3x512x512x7x7_S3x512x512x1x1_0_0_0_5_5 : S3x512x512x7x7.Slices ![0, 0, 0, 5, 5] S3x512x512x1x1
  slices_S2x3x518x518_S2x3x512x512_0_0_5_6 : S2x3x518x518.Slices ![0, 0, 5, 6] S2x3x512x512
  slices_S3x512x512x7x7_S3x512x512x1x1_0_0_0_5_6 : S3x512x512x7x7.Slices ![0, 0, 0, 5, 6] S3x512x512x1x1
  slices_S2x3x518x518_S2x3x512x512_0_0_6_0 : S2x3x518x518.Slices ![0, 0, 6, 0] S2x3x512x512
  slices_S3x512x512x7x7_S3x512x512x1x1_0_0_0_6_0 : S3x512x512x7x7.Slices ![0, 0, 0, 6, 0] S3x512x512x1x1
  slices_S2x3x518x518_S2x3x512x512_0_0_6_1 : S2x3x518x518.Slices ![0, 0, 6, 1] S2x3x512x512
  slices_S3x512x512x7x7_S3x512x512x1x1_0_0_0_6_1 : S3x512x512x7x7.Slices ![0, 0, 0, 6, 1] S3x512x512x1x1
  slices_S2x3x518x518_S2x3x512x512_0_0_6_2 : S2x3x518x518.Slices ![0, 0, 6, 2] S2x3x512x512
  slices_S3x512x512x7x7_S3x512x512x1x1_0_0_0_6_2 : S3x512x512x7x7.Slices ![0, 0, 0, 6, 2] S3x512x512x1x1
  slices_S2x3x518x518_S2x3x512x512_0_0_6_3 : S2x3x518x518.Slices ![0, 0, 6, 3] S2x3x512x512
  slices_S3x512x512x7x7_S3x512x512x1x1_0_0_0_6_3 : S3x512x512x7x7.Slices ![0, 0, 0, 6, 3] S3x512x512x1x1
  slices_S2x3x518x518_S2x3x512x512_0_0_6_4 : S2x3x518x518.Slices ![0, 0, 6, 4] S2x3x512x512
  slices_S3x512x512x7x7_S3x512x512x1x1_0_0_0_6_4 : S3x512x512x7x7.Slices ![0, 0, 0, 6, 4] S3x512x512x1x1
  slices_S2x3x518x518_S2x3x512x512_0_0_6_5 : S2x3x518x518.Slices ![0, 0, 6, 5] S2x3x512x512
  slices_S3x512x512x7x7_S3x512x512x1x1_0_0_0_6_5 : S3x512x512x7x7.Slices ![0, 0, 0, 6, 5] S3x512x512x1x1
  slices_S2x3x518x518_S2x3x512x512_0_0_6_6 : S2x3x518x518.Slices ![0, 0, 6, 6] S2x3x512x512
  slices_S3x512x512x7x7_S3x512x512x1x1_0_0_0_6_6 : S3x512x512x7x7.Slices ![0, 0, 0, 6, 6] S3x512x512x1x1

variable [Facts₀]

class Facts : Prop extends Facts₀ where

variable [Facts]
-- ==== Proof.Spec.lean ====
/-
  A spatially varying 7×7 convolution: every output pixel has its own 7×7 kernel.

    out[b, c, i, j] = Σ_{p, q < 7} xpad[b, c, i + p, j + q] · k[c, i, j, p, q]

  with xpad the input reflect-padded by three pixels on each side of both image axes. Both programs
  accumulate the 49 products in the same order (p outer, q inner) from zero, so the sum is kept as that
  left fold; no law of the extended reals is needed, only the reading of each tap at an index.

  This module states the padding, one tap of the whole-array (host) form, the host fold, and the
  index-by-index function `G`, and proves that the host fold read at an index is `G`.
-/
import Idealize.ShloMosaic.PureOps.Ideal
import Idealize.ShloMosaic.Lib.ValueIdx
import Idealize.ShloMosaic.Lib.Pipeline.Value

noncomputable section

namespace SVConv

open Idealize.ShloMosaic Idealize.ShloMosaic.ValueIdx

/-- images, padded images, per-pixel kernels -/
abbrev SX : Shape := ⟨4, ![2, 3, 512, 512]⟩
abbrev SP : Shape := ⟨4, ![2, 3, 518, 518]⟩
abbrev SK : Shape := ⟨5, ![3, 512, 512, 7, 7]⟩
abbrev SK1 : Shape := ⟨5, ![3, 512, 512, 1, 1]⟩
abbrev SK3 : Shape := ⟨3, ![3, 512, 512]⟩
abbrev SK4 : Shape := ⟨4, ![1, 3, 512, 512]⟩
abbrev S0 : Shape := ⟨0, ![]⟩

/-- The 49 taps in the order both programs add them: `p` (rows) outer, `q` (columns) inner. -/
def taps : List (Fin 7 × Fin 7) :=
  [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6), (4, 0), (4, 1), (4, 2), (4, 3), (4, 4), (4, 5), (4, 6), (5, 0), (5, 1), (5, 2), (5, 3), (5, 4), (5, 5), (5, 6), (6, 0), (6, 1), (6, 2), (6, 3), (6, 4), (6, 5), (6, 6)]

theorem slices_pad : ∀ pq : Fin 7 × Fin 7, SP.Slices ![0, 0, pq.1.val, pq.2.val] SX := by decide
theorem slices_ker : ∀ pq : Fin 7 × Fin 7, SK.Slices ![0, 0, 0, pq.1.val, pq.2.val] SK1 := by decide

/-! ## Reflect padding by three on both image axes

Rows first: rows 1..3 reversed go in front, then, of that 515-row array, rows 511..513 reversed (the
original rows 508..510) go behind; then the same on the columns of the 518-row array. -/

section Pad
variable {α : Type}

abbrev SR3 : Shape := ⟨4, ![2, 3, 3, 512]⟩
abbrev SR515 : Shape := ⟨4, ![2, 3, 515, 512]⟩
abbrev SR518 : Shape := ⟨4, ![2, 3, 518, 512]⟩
abbrev SC3 : Shape := ⟨4, ![2, 3, 518, 3]⟩
abbrev SC515 : Shape := ⟨4, ![2, 3, 518, 515]⟩

def padTop (x : SX.Idx → α) : SR515.Idx → α :=
  concatenate SR515 2 [⟨SR3, Host.reverse [2] (extractStridedSlice SR3 ![0, 0, 1, 0] x (by decide))⟩, ⟨SX, x⟩] (show Shape.Concatenates [SR3, SX] SR515 2 by decide)

def padRows (x : SX.Idx → α) : SR518.Idx → α :=
  concatenate SR518 2 [⟨SR515, padTop x⟩, ⟨SR3, Host.reverse [2] (extractStridedSlice SR3 ![0, 0, 511, 0] (padTop x) (by decide))⟩] (show Shape.Concatenates [SR515, SR3] SR518 2 by decide)

def padLeft (y : SR518.Idx → α) : SC515.Idx → α :=
  concatenate SC515 3 [⟨SC3, Host.reverse [3] (extractStridedSlice SC3 ![0, 0, 0, 1] y (by decide))⟩, ⟨SR518, y⟩] (show Shape.Concatenates [SC3, SR518] SC515 3 by decide)

def padCols (y : SR518.Idx → α) : SP.Idx → α :=
  concatenate SP 3 [⟨SC515, padLeft y⟩, ⟨SC3, Host.reverse [3] (extractStridedSlice SC3 ![0, 0, 0, 511] (padLeft y) (by decide))⟩] (show Shape.Concatenates [SC515, SC3] SP 3 by decide)

/-- The reflect-padded image. -/
def pad (x : SX.Idx → α) : SP.Idx → α := padCols (padRows x)

end Pad

section AnyFloat
variable {F : FTy → Type} [FloatOps F]

/-- One tap on whole arrays: the padded image shifted by `(p, q)`, times the plane `k[·, ·, ·, p, q]` of
    the kernels repeated over the batch, added to the running sum. -/
def tapR (pq : Fin 7 × Fin 7) (xpad : FVec F SP .f32) (k : FVec F SK .f32) (acc : FVec F SX .f32) : FVec F SX .f32 :=
  addf acc (mulf (extractStridedSlice SX ![0, 0, pq.1.val, pq.2.val] xpad (slices_pad pq))
    (broadcastInDim SX ![0, 1, 2, 3] (by decide)
      (broadcastInDim SK4 ![1, 2, 3] (by decide)
        (shapeCast SK3 (extractStridedSlice SK1 ![0, 0, 0, pq.1.val, pq.2.val] k (slices_ker pq)) (by decide)))))

/-- The running sum starts from zero. -/
def zeroX : FVec F SX .f32 := broadcastInDim SX ![] (by decide) (constant S0 .f32 0x00000000#32)

/-- All 49 taps, in order, from zero. -/
def refOut (xpad : FVec F SP .f32) (k : FVec F SK .f32) : FVec F SX .f32 :=
  taps.foldl (fun acc pq => tapR pq xpad k acc) zeroX

end AnyFloat

end SVConv

end
-- ==== Proof.SpecIdx.lean ====
/-
  The index-by-index reading of the spatially varying convolution.

  `conv X K` is the 49-term left fold  ((0 + X(0,0)·K(0,0)) + X(0,1)·K(0,1)) + …  over the taps; `G` is the
  output at an index:  X(p,q) = xpad[b, c, i+p, j+q],  K(p,q) = k[c, i, j, p, q].  One tap of the host form adds
  exactly the next term at every index (`tapR_apply`), so the host fold read at an index is `G`
  (`refOut_apply`): the slice reads the padded image at the index shifted by the tap, the two broadcasts
  and the reshape read the kernel plane at (c, i, j).
-/
import proofs.«134987_j23424751633061_2_alg».proof.Proof.Spec
import Idealize.ShloMosaic.PureOps.Ideal.Laws

noncomputable section

namespace SVConv

open Idealize.ShloMosaic Idealize.ShloMosaic.ValueIdx

/-- a coordinate moved by a tap offset: `i + p` inside the padded (or haloed) extent -/
def sh {n : Nat} (m : Nat) (i : Fin n) (p : Fin 7) (h : n + 6 ≤ m := by decide) : Fin m := ⟨i.val + p.val, by have := i.isLt; have := p.isLt; omega⟩

/-- The fold both programs compute, at one pixel: the taps' products added in order from zero. -/
def conv (X K : Fin 7 × Fin 7 → EReal) : EReal := taps.foldl (fun a pq => a + X pq * K pq) 0

/-- The output, index by index. -/
def G (xpad : SP.Idx → EReal) (k : SK.Idx → EReal) : SX.Idx → EReal := fun idx =>
  conv (fun pq => xpad (ix4 (idx 0) (idx 1) (sh 518 (idx 2) pq.1) (sh 518 (idx 3) pq.2)))
       (fun pq => k (ix5 (idx 1) (idx 2) (idx 3) pq.1 pq.2))

/-- One host tap at an index adds the tap's product. -/
theorem tapR_apply (pq : Fin 7 × Fin 7) (xpad : FVec Ideal SP .f32) (k : FVec Ideal SK .f32) (acc : FVec Ideal SX .f32)
    (b : Fin 2) (c : Fin 3) (i j : Fin 512) :
    tapR pq xpad k acc (ix4 b c i j)
      = acc (ix4 b c i j) + xpad (ix4 b c (sh 518 i pq.1) (sh 518 j pq.2)) * k (ix5 c i j pq.1 pq.2) := by
  unfold tapR
  rw [addf_apply, mulf_apply]
  have e1 : extractStridedSlice SX ![0, 0, pq.1.val, pq.2.val] xpad (slices_pad pq) (ix4 b c i j)
      = xpad (ix4 b c (sh 518 i pq.1) (sh 518 j pq.2)) :=
    extractStridedSlice_apply _ xpad _ _ _ (fun a => by
      match a with
      | ⟨0, _⟩ => show b.val = 0 + b.val; omega
      | ⟨1, _⟩ => show c.val = 0 + c.val; omega
      | ⟨2, _⟩ => show i.val + pq.1.val = pq.1.val + i.val; omega
      | ⟨3, _⟩ => show j.val + pq.2.val = pq.2.val + j.val; omega)
  have e2 : ∀ (h1 h2 h3) (y : FVec Ideal SK1 .f32), broadcastInDim SX ![0, 1, 2, 3] h1
        (broadcastInDim SK4 ![1, 2, 3] h2 (shapeCast SK3 y h3)) (ix4 b c i j)
      = y (ix5 c i j 0 0) := by
    intro h1 h2 h3 y
    refine (broadcastInDim_apply _ h1 _ (ix4 b c i j) (ix4 0 c i j) (fun a => by
      match a with
      | ⟨0, _⟩ => rfl
      | ⟨1, _⟩ => rfl
      | ⟨2, _⟩ => rfl
      | ⟨3, _⟩ => rfl)).trans ?_
    refine (broadcastInDim_apply _ h2 _ (ix4 0 c i j) (ix3 c i j) (fun a => by
      match a with
      | ⟨0, _⟩ => rfl
      | ⟨1, _⟩ => rfl
      | ⟨2, _⟩ => rfl)).trans ?_
    refine shapeCast_apply y h3 (ix3 c i j) (ix5 c i j 0 0) ?_
    rw [Shape.rowMajor_val_five, Shape.rowMajor_val_three]
    show ((((c.val * 512 + i.val) * 512 + j.val) * 1 + 0) * 1 + 0) = (c.val * 512 + i.val) * 512 + j.val
    omega
  have e3 : extractStridedSlice SK1 ![0, 0, 0, pq.1.val, pq.2.val] k (slices_ker pq) (ix5 c i j 0 0)
      = k (ix5 c i j pq.1 pq.2) :=
    extractStridedSlice_apply _ k _ _ _ (fun a => by
      match a with
      | ⟨0, _⟩ => show c.val = 0 + c.val; omega
      | ⟨1, _⟩ => show i.val = 0 + i.val; omega
      | ⟨2, _⟩ => show j.val = 0 + j.val; omega
      | ⟨3, _⟩ => show pq.1.val = pq.1.val + 0; omega
      | ⟨4, _⟩ => show pq.2.val = pq.2.val + 0; omega)
  rw [e1, e2, e3]

/-- A run of host taps at an index is the same run of scalar steps. -/
theorem foldl_tapR_apply (xpad : FVec Ideal SP .f32) (k : FVec Ideal SK .f32) (b : Fin 2) (c : Fin 3) (i j : Fin 512) :
    ∀ (l : List (Fin 7 × Fin 7)) (z : FVec Ideal SX .f32),
      (l.foldl (fun acc pq => tapR pq xpad k acc) z) (ix4 b c i j)
        = l.foldl (fun a pq => a + xpad (ix4 b c (sh 518 i pq.1) (sh 518 j pq.2)) * k (ix5 c i j pq.1 pq.2)) (z (ix4 b c i j))
  | [], _ => rfl
  | pq :: l, z => by
    rw [List.foldl_cons, List.foldl_cons, foldl_tapR_apply xpad k b c i j l, tapR_apply]

/-- The host fold is `G`. -/
theorem refOut_eq (xpad : FVec Ideal SP .f32) (k : FVec Ideal SK .f32) : refOut (F := Ideal) xpad k = G xpad k := by
  funext idx
  obtain ⟨b, c, i, j, rfl⟩ : ∃ (b : Fin 2) (c : Fin 3) (i j : Fin 512), idx = ix4 b c i j := ⟨idx 0, idx 1, idx 2, idx 3, eq_ix4 idx⟩
  unfold refOut
  rw [foldl_tapR_apply]
  have hz : (zeroX (F := Ideal)) (ix4 b c i j) = 0 := by
    unfold zeroX
    show Ideal.ofBits .f32 0x00000000#32 = 0
    exact Ideal.ofBits_zero_f32
  rw [hz]
  rfl

end SVConv

end
-- ==== Proof.SpecKer.lean ====
/-
  The kernel's body on one block, as whole-vector operations and read at an index.

  At a grid point the body holds a haloed band of the padded image, `xb` (2 × 70 × 518: the 64 output rows
  plus 6 rows of halo, all 518 columns), and for every tap `(p, q)` the plane `kls (p, q)` (64 × 512, stored
  with three leading unit axes) of the tap-major kernels. One tap multiplies the band shifted by `(p, q)`
  with the plane repeated over the batch and adds it to the running sum; the 49 taps run in the order
  `taps` from zero. Read at an index this is the fold `conv` of the band's entries at the shifted
  positions against the planes' entries at the position.
-/
import proofs.«134987_j23424751633061_2_alg».proof.Proof.SpecIdx

noncomputable section

namespace SVConv

open Idealize.ShloMosaic Idealize.ShloMosaic.ValueIdx

abbrev SB : Shape := ⟨3, ![2, 70, 518]⟩
abbrev SO : Shape := ⟨3, ![2, 64, 512]⟩
abbrev SOut : Shape := ⟨4, ![2, 1, 64, 512]⟩
abbrev SKL : Shape := ⟨5, ![1, 1, 1, 64, 512]⟩
abbrev SK2 : Shape := ⟨2, ![64, 512]⟩
abbrev SK2u : Shape := ⟨3, ![1, 64, 512]⟩

theorem slices_blk : ∀ pq : Fin 7 × Fin 7, SB.Slices ![0, pq.1.val, pq.2.val] SO := by decide

section AnyFloat
variable {F : FTy → Type} [FloatOps F]

/-- One tap on a block. -/
def tapK (pq : Fin 7 × Fin 7) (xb : FVec F SB .f32) (kl : FVec F SKL .f32) (acc : FVec F SO .f32) : FVec F SO .f32 :=
  addf acc (mulf (extractStridedSlice SO ![0, pq.1.val, pq.2.val] xb (slices_blk pq))
    (broadcastTo SO (shapeCast SK2u (shapeCast SK2 kl (by decide)) (by decide)) (by decide)))

def zeroO : FVec F SO .f32 := broadcast SO (Scalar.ofBits .f32 0x00000000#32)

/-- The block the body stores. -/
def bodyK (xb : FVec F SB .f32) (kls : Fin 7 × Fin 7 → FVec F SKL .f32) : FVec F SOut .f32 :=
  shapeCast SOut (taps.foldl (fun acc pq => tapK pq xb (kls pq) acc) zeroO) (by decide)

end AnyFloat

/-- One block tap at an index adds the tap's product. -/
theorem tapK_apply (pq : Fin 7 × Fin 7) (xb : FVec Ideal SB .f32) (kl : FVec Ideal SKL .f32) (acc : FVec Ideal SO .f32)
    (b : Fin 2) (r : Fin 64) (j : Fin 512) :
    tapK pq xb kl acc (ix3 b r j)
      = acc (ix3 b r j) + xb (ix3 b (sh 70 r pq.1) (sh 518 j pq.2)) * kl (ix5 0 0 0 r j) := by
  unfold tapK
  rw [addf_apply, mulf_apply]
  have e1 : extractStridedSlice SO ![0, pq.1.val, pq.2.val] xb (slices_blk pq) (ix3 b r j)
      = xb (ix3 b (sh 70 r pq.1) (sh 518 j pq.2)) :=
    extractStridedSlice_apply _ xb _ _ _ (fun a => by
      match a with
      | ⟨0, _⟩ => show b.val = 0 + b.val; omega
      | ⟨1, _⟩ => show r.val + pq.1.val = pq.1.val + r.val; omega
      | ⟨2, _⟩ => show j.val + pq.2.val = pq.2.val + j.val; omega)
  have e2 : ∀ (h1 h2 h3), broadcastTo SO (shapeCast SK2u (shapeCast SK2 kl h3) h2) h1 (ix3 b r j) = kl (ix5 0 0 0 r j) := by
    intro h1 h2 h3
    refine (broadcastTo_apply _ h1 (ix3 b r j) (ix3 0 r j) (fun a => by
      match a with
      | ⟨0, _⟩ => rfl
      | ⟨1, _⟩ => rfl
      | ⟨2, _⟩ => rfl)).trans ?_
    refine (shapeCast_apply _ h2 (ix3 0 r j) (ix2 r j) ?_).trans ?_
    · rw [Shape.rowMajor_val_two, Shape.rowMajor_val_three]
      show r.val * 512 + j.val = (0 * 64 + r.val) * 512 + j.val
      omega
    refine shapeCast_apply kl h3 (ix2 r j) (ix5 0 0 0 r j) ?_
    rw [Shape.rowMajor_val_five, Shape.rowMajor_val_two]
    show ((((0 * 1 + 0) * 1 + 0) * 64 + r.val) * 512 + j.val) = r.val * 512 + j.val
    omega
  rw [e1, e2]

theorem foldl_tapK_apply (xb : FVec Ideal SB .f32) (kls : Fin 7 × Fin 7 → FVec Ideal SKL .f32) (b : Fin 2) (r : Fin 64) (j : Fin 512) :
    ∀ (l : List (Fin 7 × Fin 7)) (z : FVec Ideal SO .f32),
      (l.foldl (fun acc pq => tapK pq xb (kls pq) acc) z) (ix3 b r j)
        = l.foldl (fun a pq => a + xb (ix3 b (sh 70 r pq.1) (sh 518 j pq.2)) * kls pq (ix5 0 0 0 r j)) (z (ix3 b r j))
  | [], _ => rfl
  | pq :: l, z => by
    rw [List.foldl_cons, List.foldl_cons, foldl_tapK_apply xb kls b r j l, tapK_apply]

/-- The stored block at an index: the fold of the band against the planes. -/
theorem bodyK_apply (xb : FVec Ideal SB .f32) (kls : Fin 7 × Fin 7 → FVec Ideal SKL .f32) (b : Fin 2) (r : Fin 64) (j : Fin 512) :
    bodyK xb kls (ix4 b 0 r j)
      = conv (fun pq => xb (ix3 b (sh 70 r pq.1) (sh 518 j pq.2))) (fun pq => kls pq (ix5 0 0 0 r j)) := by
  unfold bodyK
  refine (shapeCast_apply _ _ (ix4 b 0 r j) (ix3 b r j) ?_).trans ?_
  · rw [Shape.rowMajor_val_three, Shape.rowMajor_val_four]
    show (b.val * 64 + r.val) * 512 + j.val = ((b.val * 1 + 0) * 64 + r.val) * 512 + j.val
    omega
  rw [foldl_tapK_apply]
  have hz : (zeroO (F := Ideal)) (ix3 b r j) = 0 := by
    unfold zeroO
    show Ideal.ofBits .f32 0x00000000#32 = 0
    exact Ideal.ofBits_zero_f32
  rw [hz]
  rfl

end SVConv

end
-- ==== Proof.KerBody.lean ====
/-
  What the kernel's body stores at a grid point, as the block function of the specification.

  The body's one store covers the whole output block; its payload is the 49 taps over the band of the
  padded image loaded at row offset 64·h and the 49 planes loaded at offsets (0, p, q, 0, 0) of the kernel
  block. This module identifies that payload with `SVConv.bodyK` of the band and the planes.
-/
import proofs.«134987_j23424751633061_2_alg».proof.Proof.Gen.KernelIdeal.Frame
import proofs.«134987_j23424751633061_2_alg».proof.Proof.SpecKer
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem hz4 : (![0, 0, 0, 0] : Fin 4 → Nat) = fun _ => 0 := funext fun a => by fin_cases a <;> rfl

/-- The haloed band of the padded image the body loads: rows 64·h … 64·h + 69 of the staged block. -/
def band (i : grid0.Coords) (x0 : Vec F S2x1x518x518 .f32) : FVec F SVConv.SB .f32 :=
  shapeCast S2x70x518 (View.ld x0 (Rect.unit (s := S2x1x518x518) (k0_off1 i) S2x1x70x518.size (k0_off1_inb i))) shapeCasts_S2x1x70x518_S2x70x518

theorem plane_inb : ∀ (pq : Fin 7 × Fin 7) (a : Fin 5), (![0, pq.1.val, pq.2.val, 0, 0] : Fin 5 → Nat) a + S1x1x1x64x512.size a ≤ S1x7x7x64x512.size a := by decide

/-- The plane of tap `(p, q)` the body loads from the staged kernel block. -/
def plane (x1 : Vec F S1x7x7x64x512 .f32) (pq : Fin 7 × Fin 7) : FVec F SVConv.SKL .f32 :=
  View.ld x1 (Rect.unit (s := S1x7x7x64x512) ![0, pq.1.val, pq.2.val, 0, 0] S1x1x1x64x512.size (plane_inb pq))

/-- The block the body leaves in the output's staging buffer. -/
theorem out_eq (c : Dev nD) (i : grid0.Coords) (arg2 : Memref sig .tc .vmem S2x1x518x518 .f32) (harg2 : arg2.IsWhole) (arg3 : Memref sig .tc .vmem S1x7x7x64x512 .f32) (harg3 : arg3.IsWhole) (arg4 : Memref sig .tc .vmem S2x1x64x512 .f32) (harg4 : arg4.IsWhole)
    (x0 : Vec F S2x1x518x518 .f32) (x1 : Vec F S1x7x7x64x512 .f32) :
    out0_A_2 c i arg2 harg2 arg3 harg3 arg4 harg4 x0 x1 = SVConv.bodyK (band i x0) (plane x1) := by
  unfold out0_A_2
  rw [View.read_writes_eq_canon _ _ _ (cover0_A_2 c i arg2 harg2 arg3 harg3 arg4 harg4 x0 x1)]
  unfold kernelRun0_A
  dsimp only
  sl_unfold_run_names
  rw [View.canon_unit_zero hz4]
  simp only [View.readAt_eq_ld, harg2.read_unread, harg3.read_unread]
  unfold k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22
  rfl

open Idealize.ShloMosaic.ValueIdx in
/-- The band at (b, r, j) is the staged block at row `o + r`, where `o` is the row offset of the load. -/
theorem band_apply (i : grid0.Coords) (x0 : Vec F S2x1x518x518 .f32) (b : Fin 2) (r : Fin 70) (j : Fin 518) (o : Nat)
    (h0 : k0_off1 i 0 = 0) (h1 : k0_off1 i 1 = 0) (h2 : k0_off1 i 2 = o) (h3 : k0_off1 i 3 = 0) (ho : o + 70 ≤ 518) :
    band i x0 (ix3 b r j) = x0 (ix4 b 0 ⟨o + r.val, by have := r.isLt; omega⟩ j) := by
  unfold band
  refine (shapeCast_apply _ _ (ix3 b r j) (ix4 b 0 r j) ?_).trans ?_
  · rw [Shape.rowMajor_val_four, Shape.rowMajor_val_three]
    show ((b.val * 1 + 0) * 70 + r.val) * 518 + j.val = (b.val * 70 + r.val) * 518 + j.val
    omega
  show x0 _ = x0 _
  refine congrArg x0 (funext fun a => Fin.ext ?_)
  match a with
  | ⟨0, _⟩ => show k0_off1 i 0 + 1 * b.val = b.val; omega
  | ⟨1, _⟩ => show k0_off1 i 1 + 1 * 0 = 0; omega
  | ⟨2, _⟩ => show k0_off1 i 2 + 1 * r.val = o + r.val; omega
  | ⟨3, _⟩ => show k0_off1 i 3 + 1 * j.val = j.val; omega

open Idealize.ShloMosaic.ValueIdx in
/-- The plane of tap (p, q) at (r, j) is the staged kernel block at (0, p, q, r, j). -/
theorem plane_apply (x1 : Vec F S1x7x7x64x512 .f32) (pq : Fin 7 × Fin 7) (r : Fin 64) (j : Fin 512) :
    plane x1 pq (ix5 0 0 0 r j) = x1 (ix5 0 pq.1 pq.2 r j) := by
  unfold plane
  show x1 _ = x1 _
  refine congrArg x1 (funext fun a => Fin.ext ?_)
  match a with
  | ⟨0, _⟩ => show 0 + 1 * 0 = 0; omega
  | ⟨1, _⟩ => show pq.1.val + 1 * 0 = pq.1.val; omega
  | ⟨2, _⟩ => show pq.2.val + 1 * 0 = pq.2.val; omega
  | ⟨3, _⟩ => show 0 + 1 * r.val = r.val; omega
  | ⟨4, _⟩ => show 0 + 1 * j.val = j.val; omega

end Cert.KernelIdeal.Body

end
-- ==== Proof.KerHost.lean ====
/-
  What the region finds in its two input arrays: the reflect-padded image and the kernels laid out
  tap-major (axes (c, i, j, p, q) permuted to (c, p, q, i, j)).
-/
import proofs.«134987_j23424751633061_2_alg».proof.Proof.Gen.KernelIdeal.Frame
import proofs.«134987_j23424751633061_2_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The first window's array is the padded image. -/
theorem V_main_v0 (c : Dev nD) :
    (V m c main_v0 : S2x3x518x518.Idx → Elt F .f32) = SVConv.pad (m ((c : Thread nD τ).loc main_arg0)) := by
  dsimp only [Gen.V]
  simp only [Gen.hostOps0, Gen.hostOps0_1, Gen.hostOps0_2, List.flatten_cons, List.flatten_nil, List.append_nil, List.cons_append,
    List.nil_append]
  after_results
  simp only [TRef.toBuf, TRef.ofBuf, cast_eq]
  unfold SVConv.pad SVConv.padCols SVConv.padLeft SVConv.padRows SVConv.padTop
  rfl

/-- The second window's array is the kernels, tap-major. -/
theorem V_main_v1 (c : Dev nD) :
    (V m c main_v1 : S3x7x7x512x512.Idx → Elt F .f32)
      = transpose S3x7x7x512x512 [0, 3, 4, 1, 2] (m ((c : Thread nD τ).loc main_arg1)) transposes_S3x512x512x7x7_S3x7x7x512x512_0_3_4_1_2 := by
  dsimp only [Gen.V]
  simp only [Gen.hostOps0, Gen.hostOps0_1, Gen.hostOps0_2, List.flatten_cons, List.flatten_nil, List.append_nil, List.cons_append,
    List.nil_append]
  after_results

end Cert.KernelIdeal.Host

end
-- ==== Proof.KerValue.lean ====
/-
  The kernel's result array, whole: the spatially varying convolution `SVConv.G` of the padded image and the
  kernels.

  Grid point t = (c, h) stages image channel c of the padded image (all 518 rows), rows 64·h … 64·h + 63 of the
  tap-major kernels of channel c, and writes back rows 64·h … 64·h + 63 of channel c of the result. The block it
  writes is `SVConv.bodyK` of the band of rows 64·h … 64·h + 69 and the 49 planes (KerBody); read at a block
  index (b, r, j) that is the fold `conv` over the taps of  xpad[b, c, 64·h + r + p, j + q] · k[c, 64·h + r, j, p, q],
  which is `G` at the array index (b, c, 64·h + r, j) under the block. The 24 blocks tile the array, so the
  array ends holding `G`.
-/
import proofs.«134987_j23424751633061_2_alg».proof.Proof.Gen.KernelIdeal.Value
import proofs.«134987_j23424751633061_2_alg».proof.Proof.KerBody
import proofs.«134987_j23424751633061_2_alg».proof.Proof.KerHost

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result, as one function of the two argument arrays. -/
def result (c : Dev nD) : S2x3x512x512.Idx → EReal :=
  SVConv.G (SVConv.pad (m ((c : Thread nD τ).loc main_arg0))) (m ((c : Thread nD τ).loc main_arg1))

/-- The index maps over the 24 grid points: the image window sits at channel c = the output's, the kernel
    window at (c, h) = the output's, the band's row offset is 64·h, and c < 3, h < 8. -/
theorem idx_facts : ∀ t : Fin cfg0.N,
    win0_0.index t (0 : Fin 4) = 0 ∧ win0_0.index t (1 : Fin 4) = win0_2.index t (1 : Fin 4)
    ∧ win0_0.index t (2 : Fin 4) = 0 ∧ win0_0.index t (3 : Fin 4) = 0
    ∧ win0_1.index t (0 : Fin 5) = win0_2.index t (1 : Fin 4) ∧ win0_1.index t (1 : Fin 5) = 0
    ∧ win0_1.index t (2 : Fin 5) = 0 ∧ win0_1.index t (3 : Fin 5) = win0_2.index t (2 : Fin 4) ∧ win0_1.index t (4 : Fin 5) = 0
    ∧ win0_2.index t (0 : Fin 4) = 0 ∧ win0_2.index t (1 : Fin 4) ≤ 2 ∧ win0_2.index t (2 : Fin 4) ≤ 7 ∧ win0_2.index t (3 : Fin 4) = 0
    ∧ k0_off1 (grid0.coords t) 0 = 0 ∧ k0_off1 (grid0.coords t) 1 = 0
    ∧ k0_off1 (grid0.coords t) 2 = win0_2.index t (2 : Fin 4) * 64 ∧ k0_off1 (grid0.coords t) 3 = 0 :=
  (by decide +kernel : ∀ t : Fin grid0.N, _)

/-- Every (channel, row block) is some point's. -/
theorem idx_onto : ∀ (q1 : Fin 3) (q2 : Fin 8), ∃ t : Fin cfg0.N, win0_2.index t = ![0, q1.val, q2.val, 0] :=
  (by decide +kernel : ∀ (q1 : Fin 3) (q2 : Fin 8), ∃ t : Fin grid0.N, win0_2.index t = ![0, q1.val, q2.val, 0])

/-- `G` at an index given by its coordinates. -/
theorem G_apply (xpad : SVConv.SP.Idx → EReal) (k : SVConv.SK.Idx → EReal) (b : Fin 2) (c : Fin 3) (i j : Fin 512) :
    SVConv.G xpad k (ix4 b c i j)
      = SVConv.conv (fun pq => xpad (ix4 b c (SVConv.sh 518 i pq.1) (SVConv.sh 518 j pq.2))) (fun pq => k (ix5 c i j pq.1 pq.2)) := rfl

/-- A block of an array read at a block index is the array at the index under it. -/
theorem read_blk_apply (Gf : S2x3x512x512.Idx → EReal) (t : Fin cfg0.N) (y : ((cfg0.win 2).xblock (grid0.coords t)).Idx) :
    ((cfg0.win 2).blk t).view.read (Elt Ideal) Gf y = Gf (((cfg0.win 2).blk t).view.emb y) := rfl

/-- What point `t` writes back is block `t` of `result`. -/
theorem flushed_eq (c : Dev nD) (t : Fin cfg0.N) :
    (dats m 0 c).flushed 2 t = ((cfg0.win 2).blk t).view.read (Elt Ideal) (result m c) := by
  rw [flushed2_A, Body.out_eq c (grid0.coords t) (ms0_0 t) (hs0_0 t) (ms0_1 t) (hs0_1 t) (ms0_2 t) (hs0_2 t) (iblk m c 0 t) (iblk m c 1 t)]
  obtain ⟨a0, a1, a2, a3, k0, k1, k2, k3, k4, o0, o1, o2, o3, f0, f1, f2, f3⟩ := idx_facts t
  funext y
  have hy0 : (y 0).val < 2 := (y 0).isLt
  have hy1 : (y 1).val < 1 := (y 1).isLt
  have hy2 : (y 2).val < 64 := (y 2).isLt
  have hy3 : (y 3).val < 512 := (y 3).isLt
  -- the block index by coordinates
  let b : Fin 2 := ⟨(y 0).val, hy0⟩
  let r : Fin 64 := ⟨(y 2).val, hy2⟩
  let j : Fin 512 := ⟨(y 3).val, hy3⟩
  let cc : Fin 3 := ⟨win0_2.index t (1 : Fin 4), by omega⟩
  let i : Fin 512 := ⟨win0_2.index t (2 : Fin 4) * 64 + (y 2).val, by omega⟩
  have hx : (cfg0.win 2).xinj (grid0.coords t) y = ix4 b 0 r j := funext fun a => by
    match a with
    | ⟨0, _⟩ => exact Fin.ext rfl
    | ⟨1, _⟩ => exact Fin.ext (by show (y 1).val = 0; omega)
    | ⟨2, _⟩ => exact Fin.ext rfl
    | ⟨3, _⟩ => exact Fin.ext rfl
  have eemb : ((cfg0.win 2).blk t).view.emb y = ix4 b cc i j := funext fun a => Fin.ext (by
    match a with
    | ⟨0, _⟩ => show win0_2.index t (0 : Fin 4) * 2 + 1 * (y 0).val = (y 0).val; omega
    | ⟨1, _⟩ => show win0_2.index t (1 : Fin 4) * 1 + 1 * (y 1).val = win0_2.index t (1 : Fin 4); omega
    | ⟨2, _⟩ => show win0_2.index t (2 : Fin 4) * 64 + 1 * (y 2).val = win0_2.index t (2 : Fin 4) * 64 + (y 2).val; omega
    | ⟨3, _⟩ => show win0_2.index t (3 : Fin 4) * 512 + 1 * (y 3).val = (y 3).val; omega)
  show SVConv.bodyK _ _ ((cfg0.win 2).xinj (grid0.coords t) y) = _
  rw [hx, SVConv.bodyK_apply]
  rw [read_blk_apply, eemb]
  unfold result
  rw [G_apply]
  refine congrArg₂ SVConv.conv (funext fun pq => ?_) (funext fun pq => ?_)
  · skip
    refine (Body.band_apply (grid0.coords t) (iblk m c 0 t) b (SVConv.sh 70 r pq.1) (SVConv.sh 518 j pq.2)
      (win0_2.index t (2 : Fin 4) * 64) f0 f1 f2 f3 (by omega)).trans ?_
    show V m c main_v0 (((cfg0.win 0).blk t).view.emb _) = _
    rw [Host.V_main_v0]
    refine congrArg _ (funext fun a => Fin.ext ?_)
    match a with
    | ⟨0, _⟩ => show win0_0.index t (0 : Fin 4) * 2 + 1 * (y 0).val = (y 0).val; omega
    | ⟨1, _⟩ => show win0_0.index t (1 : Fin 4) * 1 + 1 * 0 = win0_2.index t (1 : Fin 4); omega
    | ⟨2, _⟩ => show win0_0.index t (2 : Fin 4) * 518 + 1 * (win0_2.index t (2 : Fin 4) * 64 + ((y 2).val + pq.1.val)) = win0_2.index t (2 : Fin 4) * 64 + (y 2).val + pq.1.val; omega
    | ⟨3, _⟩ => show win0_0.index t (3 : Fin 4) * 518 + 1 * ((y 3).val + pq.2.val) = (y 3).val + pq.2.val; omega
  · refine (Body.plane_apply (iblk m c 1 t) pq r j).trans ?_
    show V m c main_v1 (((cfg0.win 1).blk t).view.emb _) = _
    rw [Host.V_main_v1]
    refine transpose_apply _ _ _ _ (ix5 cc i j pq.1 pq.2) (fun a => ?_)
    match a with
    | ⟨0, _⟩ => show win0_2.index t (1 : Fin 4) = win0_1.index t (0 : Fin 5) * 1 + 1 * 0; omega
    | ⟨1, _⟩ => show pq.1.val = win0_1.index t (1 : Fin 5) * 7 + 1 * pq.1.val; omega
    | ⟨2, _⟩ => show pq.2.val = win0_1.index t (2 : Fin 5) * 7 + 1 * pq.2.val; omega
    | ⟨3, _⟩ => show win0_2.index t (2 : Fin 4) * 64 + (y 2).val = win0_1.index t (3 : Fin 5) * 64 + 1 * (y 2).val; omega
    | ⟨4, _⟩ => show (y 3).val = win0_1.index t (4 : Fin 5) * 512 + 1 * (y 3).val; omega

/-- An index of the array is in point `t`'s block iff each coordinate is in the block's range on its axis. -/
theorem mem_blk (t : Fin cfg0.N) (i : S2x3x512x512.Idx) :
    i ∈ ((cfg0.win 2).blk t).view.set ↔ ∀ a : Fin 4, win0_2.index t a * S2x1x64x512.size a ≤ (i a).val ∧ (i a).val < win0_2.index t a * S2x1x64x512.size a + S2x1x64x512.size a := by
  show i ∈ ((View.whole main_v2).slice (win0_2.rect t)).set ↔ _
  rw [View.set_slice_whole, Rect.mem_set_unit]
  exact Iff.rfl

/-- The 24 blocks cover the array. -/
theorem cover (i : S2x3x512x512.Idx) : ∃ t : Fin cfg0.N, (cfg0.win 2).flush t = true ∧ i ∈ ((cfg0.win 2).blk t).view.set := by
  have hi0 : (i 0).val < 2 := (i 0).isLt
  have hi1 : (i 1).val < 3 := (i 1).isLt
  have hi2 : (i 2).val < 512 := (i 2).isLt
  have hi3 : (i 3).val < 512 := (i 3).isLt
  obtain ⟨t, ht⟩ := idx_onto ⟨(i 1).val, hi1⟩ ⟨(i 2).val / 64, by omega⟩
  have q0 : win0_2.index t (0 : Fin 4) = 0 := congrFun ht 0
  have q1 : win0_2.index t (1 : Fin 4) = (i 1).val := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 2 ≤ (i 0).val ∧ (i 0).val < win0_2.index t (0 : Fin 4) * 2 + 2; omega
  | ⟨1, _⟩ => show win0_2.index t (1 : Fin 4) * 1 ≤ (i 1).val ∧ (i 1).val < win0_2.index t (1 : Fin 4) * 1 + 1; omega
  | ⟨2, _⟩ => show win0_2.index t (2 : Fin 4) * 64 ≤ (i 2).val ∧ (i 2).val < win0_2.index t (2 : Fin 4) * 64 + 64; omega
  | ⟨3, _⟩ => show win0_2.index t (3 : Fin 4) * 512 ≤ (i 3).val ∧ (i 3).val < win0_2.index t (3 : Fin 4) * 512 + 512; omega

/-- The result array after the run. -/
theorem final (c : Dev nD) : (dats m 0 c).arrAt 2 cfg0.N = result m c :=
  (dats m 0 c).arrAt_eq_of_cover 2 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefOps0.lean ====
import proofs.«134987_j23424751633061_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 19 host operations of window main_part0 of @main, in order: a constant, the call's operations inline over the call's record, the zero array. -/
abbrev ops_part0a : List (HloOp τ sig (Elt F)) :=
  [ StableHlo.nullary main_c (constantI S_ 32 0#32),
    StableHlo.TRef.unary (.of main_arg0 : StableHlo.TRef sig ⟨S2x3x512x512, .f32⟩) main_call0.v0 (extractStridedSlice S2x3x1x512 ![0, 0, 0, 0] · slices_S2x3x512x512_S2x3x1x512_0_0_0_0),
    StableHlo.TRef.unary (.of main_arg0 : StableHlo.TRef sig ⟨S2x3x512x512, .f32⟩) main_call0.v1 (extractStridedSlice S2x3x3x512 ![0, 0, 1, 0] · slices_S2x3x512x512_S2x3x3x512_0_0_1_0),
    StableHlo.TRef.unary main_call0.v1 main_call0.call0.v0 (Host.reverse [2]),
    StableHlo.TRef.binary main_call0.call0.v0 (.of main_arg0 : StableHlo.TRef sig ⟨S2x3x512x512, .f32⟩) main_call0.v3 (fun a b => concatenate S2x3x515x512 2 [⟨S2x3x3x512, a⟩, ⟨S2x3x512x512, b⟩] concatenates_S2x3x3x512_S2x3x512x512_S2x3x515x512_d2),
    StableHlo.TRef.unary main_call0.v3 main_call0.v4 (extractStridedSlice S2x3x1x512 ![0, 0, 514, 0] · slices_S2x3x515x512_S2x3x1x512_0_0_514_0),
    StableHlo.TRef.unary main_call0.v3 main_call0.v5 (extractStridedSlice S2x3x3x512 ![0, 0, 511, 0] · slices_S2x3x515x512_S2x3x3x512_0_0_511_0),
    StableHlo.TRef.unary main_call0.v5 main_call0.call1.v0 (Host.reverse [2]),
    StableHlo.TRef.binary main_call0.v3 main_call0.call1.v0 main_call0.v7 (fun a b => concatenate S2x3x518x512 2 [⟨S2x3x515x512, a⟩, ⟨S2x3x3x512, b⟩] concatenates_S2x3x515x512_S2x3x3x512_S2x3x518x512_d2),
    StableHlo.TRef.unary main_call0.v7 main_call0.v8 (extractStridedSlice S2x3x518x1 ![0, 0, 0, 0] · slices_S2x3x518x512_S2x3x518x1_0_0_0_0),
    StableHlo.TRef.unary main_call0.v7 main_call0.v9 (extractStridedSlice S2x3x518x3 ![0, 0, 0, 1] · slices_S2x3x518x512_S2x3x518x3_0_0_0_1),
    StableHlo.TRef.unary main_call0.v9 main_call0.call2.v0 (Host.reverse [3]),
    StableHlo.TRef.binary main_call0.call2.v0 main_call0.v7 main_call0.v11 (fun a b => concatenate S2x3x518x515 3 [⟨S2x3x518x3, a⟩, ⟨S2x3x518x512, b⟩] concatenates_S2x3x518x3_S2x3x518x512_S2x3x518x515_d3),
    StableHlo.TRef.unary main_call0.v11 main_call0.v12 (extractStridedSlice S2x3x518x1 ![0, 0, 0, 514] · slices_S2x3x518x515_S2x3x518x1_0_0_0_514),
    StableHlo.TRef.unary main_call0.v11 main_call0.v13 (extractStridedSlice S2x3x518x3 ![0, 0, 0, 511] · slices_S2x3x518x515_S2x3x518x3_0_0_0_511),
    StableHlo.TRef.unary main_call0.v13 main_call0.call3.v0 (Host.reverse [3]),
    StableHlo.TRef.binary main_call0.v11 main_call0.call3.v0 main_call0.v15 (fun a b => concatenate S2x3x518x518 3 [⟨S2x3x518x515, a⟩, ⟨S2x3x518x3, b⟩] concatenates_S2x3x518x515_S2x3x518x3_S2x3x518x518_d3),
    StableHlo.nullary main_cst (constant S_ .f32 0x00000000#32),
    StableHlo.unary main_cst main_v1 (broadcastInDim S2x3x512x512 ![] bcast_S_S2x3x512x512 : (⟨S_, .f32⟩ : BufTy).Contents (Elt F) → (⟨S2x3x512x512, .f32⟩ : BufTy).Contents (Elt F)) ]

/-- The other 56 host operations of window main_part0 of @main, in order: the first taps. -/
abbrev ops_part0b : List (HloOp τ sig (Elt F)) :=
  [ StableHlo.unary main_v0 main_v2 ((extractStridedSlice S2x3x512x512 ![0, 0, 0, 0] · slices_S2x3x518x518_S2x3x512x512_0_0_0_0) : (⟨S2x3x518x518, .f32⟩ : BufTy).Contents (Elt F) → (⟨S2x3x512x512, .f32⟩ : BufTy).Contents (Elt F)),
    StableHlo.unary main_arg1 main_v3 ((extractStridedSlice S3x512x512x1x1 ![0, 0, 0, 0, 0] · slices_S3x512x512x7x7_S3x512x512x1x1_0_0_0_0_0) : (⟨S3x512x512x7x7, .f32⟩ : BufTy).Contents (Elt F) → (⟨S3x512x512x1x1, .f32⟩ : BufTy).Contents (Elt F)),
    StableHlo.reshape main_v3 main_v4 rfl shapeCasts_S3x512x512x1x1_S3x512x512,
    StableHlo.unary main_v4 main_v5 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v5 main_v6 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v2 main_v6 main_v7 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v1 main_v7 main_v8 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v9 ((extractStridedSlice S2x3x512x512 ![0, 0, 0, 1] · slices_S2x3x518x518_S2x3x512x512_0_0_0_1) : (⟨S2x3x518x518, .f32⟩ : BufTy).Contents (Elt F) → (⟨S2x3x512x512, .f32⟩ : BufTy).Contents (Elt F)),
    StableHlo.unary main_arg1 main_v10 ((extractStridedSlice S3x512x512x1x1 ![0, 0, 0, 0, 1] · slices_S3x512x512x7x7_S3x512x512x1x1_0_0_0_0_1) : (⟨S3x512x512x7x7, .f32⟩ : BufTy).Contents (Elt F) → (⟨S3x512x512x1x1, .f32⟩ : BufTy).Contents (Elt F)),
    StableHlo.reshape main_v10 main_v11 rfl shapeCasts_S3x512x512x1x1_S3x512x512,
    StableHlo.unary main_v11 main_v12 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v12 main_v13 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v9 main_v13 main_v14 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v8 main_v14 main_v15 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v16 ((extractStridedSlice S2x3x512x512 ![0, 0, 0, 2] · slices_S2x3x518x518_S2x3x512x512_0_0_0_2) : (⟨S2x3x518x518, .f32⟩ : BufTy).Contents (Elt F) → (⟨S2x3x512x512, .f32⟩ : BufTy).Contents (Elt F)),
    StableHlo.unary main_arg1 main_v17 ((extractStridedSlice S3x512x512x1x1 ![0, 0, 0, 0, 2] · slices_S3x512x512x7x7_S3x512x512x1x1_0_0_0_0_2) : (⟨S3x512x512x7x7, .f32⟩ : BufTy).Contents (Elt F) → (⟨S3x512x512x1x1, .f32⟩ : BufTy).Contents (Elt F)),
    StableHlo.reshape main_v17 main_v18 rfl shapeCasts_S3x512x512x1x1_S3x512x512,
    StableHlo.unary main_v18 main_v19 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v19 main_v20 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v16 main_v20 main_v21 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v15 main_v21 main_v22 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v23 ((extractStridedSlice S2x3x512x512 ![0, 0, 0, 3] · slices_S2x3x518x518_S2x3x512x512_0_0_0_3) : (⟨S2x3x518x518, .f32⟩ : BufTy).Contents (Elt F) → (⟨S2x3x512x512, .f32⟩ : BufTy).Contents (Elt F)),
    StableHlo.unary main_arg1 main_v24 ((extractStridedSlice S3x512x512x1x1 ![0, 0, 0, 0, 3] · slices_S3x512x512x7x7_S3x512x512x1x1_0_0_0_0_3) : (⟨S3x512x512x7x7, .f32⟩ : BufTy).Contents (Elt F) → (⟨S3x512x512x1x1, .f32⟩ : BufTy).Contents (Elt F)),
    StableHlo.reshape main_v24 main_v25 rfl shapeCasts_S3x512x512x1x1_S3x512x512,
    StableHlo.unary main_v25 main_v26 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v26 main_v27 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v23 main_v27 main_v28 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v22 main_v28 main_v29 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v30 ((extractStridedSlice S2x3x512x512 ![0, 0, 0, 4] · slices_S2x3x518x518_S2x3x512x512_0_0_0_4) : (⟨S2x3x518x518, .f32⟩ : BufTy).Contents (Elt F) → (⟨S2x3x512x512, .f32⟩ : BufTy).Contents (Elt F)),
    StableHlo.unary main_arg1 main_v31 ((extractStridedSlice S3x512x512x1x1 ![0, 0, 0, 0, 4] · slices_S3x512x512x7x7_S3x512x512x1x1_0_0_0_0_4) : (⟨S3x512x512x7x7, .f32⟩ : BufTy).Contents (Elt F) → (⟨S3x512x512x1x1, .f32⟩ : BufTy).Contents (Elt F)),
    StableHlo.reshape main_v31 main_v32 rfl shapeCasts_S3x512x512x1x1_S3x512x512,
    StableHlo.unary main_v32 main_v33 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v33 main_v34 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v30 main_v34 main_v35 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v29 main_v35 main_v36 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v37 ((extractStridedSlice S2x3x512x512 ![0, 0, 0, 5] · slices_S2x3x518x518_S2x3x512x512_0_0_0_5) : (⟨S2x3x518x518, .f32⟩ : BufTy).Contents (Elt F) → (⟨S2x3x512x512, .f32⟩ : BufTy).Contents (Elt F)),
    StableHlo.unary main_arg1 main_v38 ((extractStridedSlice S3x512x512x1x1 ![0, 0, 0, 0, 5] · slices_S3x512x512x7x7_S3x512x512x1x1_0_0_0_0_5) : (⟨S3x512x512x7x7, .f32⟩ : BufTy).Contents (Elt F) → (⟨S3x512x512x1x1, .f32⟩ : BufTy).Contents (Elt F)),
    StableHlo.reshape main_v38 main_v39 rfl shapeCasts_S3x512x512x1x1_S3x512x512,
    StableHlo.unary main_v39 main_v40 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v40 main_v41 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v37 main_v41 main_v42 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v36 main_v42 main_v43 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v44 ((extractStridedSlice S2x3x512x512 ![0, 0, 0, 6] · slices_S2x3x518x518_S2x3x512x512_0_0_0_6) : (⟨S2x3x518x518, .f32⟩ : BufTy).Contents (Elt F) → (⟨S2x3x512x512, .f32⟩ : BufTy).Contents (Elt F)),
    StableHlo.unary main_arg1 main_v45 ((extractStridedSlice S3x512x512x1x1 ![0, 0, 0, 0, 6] · slices_S3x512x512x7x7_S3x512x512x1x1_0_0_0_0_6) : (⟨S3x512x512x7x7, .f32⟩ : BufTy).Contents (Elt F) → (⟨S3x512x512x1x1, .f32⟩ : BufTy).Contents (Elt F)),
    StableHlo.reshape main_v45 main_v46 rfl shapeCasts_S3x512x512x1x1_S3x512x512,
    StableHlo.unary main_v46 main_v47 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v47 main_v48 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v44 main_v48 main_v49 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v43 main_v49 main_v50 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v51 ((extractStridedSlice S2x3x512x512 ![0, 0, 1, 0] · slices_S2x3x518x518_S2x3x512x512_0_0_1_0) : (⟨S2x3x518x518, .f32⟩ : BufTy).Contents (Elt F) → (⟨S2x3x512x512, .f32⟩ : BufTy).Contents (Elt F)),
    StableHlo.unary main_arg1 main_v52 ((extractStridedSlice S3x512x512x1x1 ![0, 0, 0, 1, 0] · slices_S3x512x512x7x7_S3x512x512x1x1_0_0_0_1_0) : (⟨S3x512x512x7x7, .f32⟩ : BufTy).Contents (Elt F) → (⟨S3x512x512x1x1, .f32⟩ : BufTy).Contents (Elt F)),
    StableHlo.reshape main_v52 main_v53 rfl shapeCasts_S3x512x512x1x1_S3x512x512,
    StableHlo.unary main_v53 main_v54 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v54 main_v55 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v51 main_v55 main_v56 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v50 main_v56 main_v57 (addf : (⟨S2x3x512x512, .f32⟩ : BufTy).Contents (Elt F) → (⟨S2x3x512x512, .f32⟩ : BufTy).Contents (Elt F) → (⟨S2x3x512x512, .f32⟩ : BufTy).Contents (Elt F)) ]

/-- The 75 host operations of window main_part0 of @main, in order. -/
abbrev ops_part0 : List (HloOp τ sig (Elt F)) :=
  ops_part0a ++ ops_part0b

end Cert.ReferenceIdeal.RefRun

end
-- ==== Proof.RefEq0.lean ====
/-
  Window 0 of the reference program (statements 1 … 60 of @main) is the straight line of its list
  of operations; every operation touches TensorCore buffers only and determines what it writes.
  The call of the padding function in this window is its sixteen operations in place, over the
  buffers of the call's record; unfolding the callee's definition at the call gives the same line.
  The list is kept in two stretches, before and after the zero array is made.
-/
import proofs.«134987_j23424751633061_2_alg».proof.Proof.RefOps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per operation of the window
set_option maxRecDepth 8192 in
/-- The window's definition and the line of its operations are the same chain of steps. -/
theorem main_part0_eq (c : Dev nD) : main_part0 (F := F) c = seq ops_part0 := rfl

set_option maxRecDepth 8192 in
/-- Each operation reads and writes TensorCore buffers only. -/
theorem ops_part0_sub : (ops_part0 : List (HloOp τ sig (Elt F))).Forall fun op => op.bufs ⊆ tcRefs τ sig := by
  simp only [ops_part0, ops_part0a, ops_part0b, List.cons_append, List.nil_append, List.Forall, unary_bufs_sub,
    binary_bufs_sub, reshape_bufs_sub, nullary_bufs_sub, and_self]

set_option maxRecDepth 8192 in
/-- No operation leaves a buffer undetermined. -/
theorem ops_part0_fresh : ∀ op ∈ (ops_part0 : List (HloOp τ sig (Elt F))), op.fresh = ∅ := by
  intro op h
  rcases List.mem_append.mp h with h | h
  · repeat (cases h with | head => rfl | tail _ h => ?_)
    exact nomatch h
  · repeat (cases h with | head => rfl | tail _ h => ?_)
    exact nomatch h

end Cert.ReferenceIdeal.RefRun

end
-- ==== Proof.RefOps1.lean ====
import proofs.«134987_j23424751633061_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 host operations of window main_part1 of @main, in order. -/
abbrev ops_part1 : List (HloOp τ sig (Elt F)) :=
  [ StableHlo.unary main_v0 main_v58 ((extractStridedSlice S2x3x512x512 ![0, 0, 1, 1] · slices_S2x3x518x518_S2x3x512x512_0_0_1_1) : (⟨S2x3x518x518, .f32⟩ : BufTy).Contents (Elt F) → (⟨S2x3x512x512, .f32⟩ : BufTy).Contents (Elt F)),
    StableHlo.unary main_arg1 main_v59 ((extractStridedSlice S3x512x512x1x1 ![0, 0, 0, 1, 1] · slices_S3x512x512x7x7_S3x512x512x1x1_0_0_0_1_1) : (⟨S3x512x512x7x7, .f32⟩ : BufTy).Contents (Elt F) → (⟨S3x512x512x1x1, .f32⟩ : BufTy).Contents (Elt F)),
    StableHlo.reshape main_v59 main_v60 rfl shapeCasts_S3x512x512x1x1_S3x512x512,
    StableHlo.unary main_v60 main_v61 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v61 main_v62 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v58 main_v62 main_v63 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v57 main_v63 main_v64 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v65 ((extractStridedSlice S2x3x512x512 ![0, 0, 1, 2] · slices_S2x3x518x518_S2x3x512x512_0_0_1_2) : (⟨S2x3x518x518, .f32⟩ : BufTy).Contents (Elt F) → (⟨S2x3x512x512, .f32⟩ : BufTy).Contents (Elt F)),
    StableHlo.unary main_arg1 main_v66 ((extractStridedSlice S3x512x512x1x1 ![0, 0, 0, 1, 2] · slices_S3x512x512x7x7_S3x512x512x1x1_0_0_0_1_2) : (⟨S3x512x512x7x7, .f32⟩ : BufTy).Contents (Elt F) → (⟨S3x512x512x1x1, .f32⟩ : BufTy).Contents (Elt F)),
    StableHlo.reshape main_v66 main_v67 rfl shapeCasts_S3x512x512x1x1_S3x512x512,
    StableHlo.unary main_v67 main_v68 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v68 main_v69 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v65 main_v69 main_v70 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v64 main_v70 main_v71 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v72 ((extractStridedSlice S2x3x512x512 ![0, 0, 1, 3] · slices_S2x3x518x518_S2x3x512x512_0_0_1_3) : (⟨S2x3x518x518, .f32⟩ : BufTy).Contents (Elt F) → (⟨S2x3x512x512, .f32⟩ : BufTy).Contents (Elt F)),
    StableHlo.unary main_arg1 main_v73 ((extractStridedSlice S3x512x512x1x1 ![0, 0, 0, 1, 3] · slices_S3x512x512x7x7_S3x512x512x1x1_0_0_0_1_3) : (⟨S3x512x512x7x7, .f32⟩ : BufTy).Contents (Elt F) → (⟨S3x512x512x1x1, .f32⟩ : BufTy).Contents (Elt F)),
    StableHlo.reshape main_v73 main_v74 rfl shapeCasts_S3x512x512x1x1_S3x512x512,
    StableHlo.unary main_v74 main_v75 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v75 main_v76 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v72 main_v76 main_v77 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v71 main_v77 main_v78 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v79 ((extractStridedSlice S2x3x512x512 ![0, 0, 1, 4] · slices_S2x3x518x518_S2x3x512x512_0_0_1_4) : (⟨S2x3x518x518, .f32⟩ : BufTy).Contents (Elt F) → (⟨S2x3x512x512, .f32⟩ : BufTy).Contents (Elt F)),
    StableHlo.unary main_arg1 main_v80 ((extractStridedSlice S3x512x512x1x1 ![0, 0, 0, 1, 4] · slices_S3x512x512x7x7_S3x512x512x1x1_0_0_0_1_4) : (⟨S3x512x512x7x7, .f32⟩ : BufTy).Contents (Elt F) → (⟨S3x512x512x1x1, .f32⟩ : BufTy).Contents (Elt F)),
    StableHlo.reshape main_v80 main_v81 rfl shapeCasts_S3x512x512x1x1_S3x512x512,
    StableHlo.unary main_v81 main_v82 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v82 main_v83 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v79 main_v83 main_v84 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v78 main_v84 main_v85 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v86 ((extractStridedSlice S2x3x512x512 ![0, 0, 1, 5] · slices_S2x3x518x518_S2x3x512x512_0_0_1_5) : (⟨S2x3x518x518, .f32⟩ : BufTy).Contents (Elt F) → (⟨S2x3x512x512, .f32⟩ : BufTy).Contents (Elt F)),
    StableHlo.unary main_arg1 main_v87 ((extractStridedSlice S3x512x512x1x1 ![0, 0, 0, 1, 5] · slices_S3x512x512x7x7_S3x512x512x1x1_0_0_0_1_5) : (⟨S3x512x512x7x7, .f32⟩ : BufTy).Contents (Elt F) → (⟨S3x512x512x1x1, .f32⟩ : BufTy).Contents (Elt F)),
    StableHlo.reshape main_v87 main_v88 rfl shapeCasts_S3x512x512x1x1_S3x512x512,
    StableHlo.unary main_v88 main_v89 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v89 main_v90 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v86 main_v90 main_v91 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v85 main_v91 main_v92 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v93 ((extractStridedSlice S2x3x512x512 ![0, 0, 1, 6] · slices_S2x3x518x518_S2x3x512x512_0_0_1_6) : (⟨S2x3x518x518, .f32⟩ : BufTy).Contents (Elt F) → (⟨S2x3x512x512, .f32⟩ : BufTy).Contents (Elt F)),
    StableHlo.unary main_arg1 main_v94 ((extractStridedSlice S3x512x512x1x1 ![0, 0, 0, 1, 6] · slices_S3x512x512x7x7_S3x512x512x1x1_0_0_0_1_6) : (⟨S3x512x512x7x7, .f32⟩ : BufTy).Contents (Elt F) → (⟨S3x512x512x1x1, .f32⟩ : BufTy).Contents (Elt F)),
    StableHlo.reshape main_v94 main_v95 rfl shapeCasts_S3x512x512x1x1_S3x512x512,
    StableHlo.unary main_v95 main_v96 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v96 main_v97 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v93 main_v97 main_v98 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v92 main_v98 main_v99 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v100 ((extractStridedSlice S2x3x512x512 ![0, 0, 2, 0] · slices_S2x3x518x518_S2x3x512x512_0_0_2_0) : (⟨S2x3x518x518, .f32⟩ : BufTy).Contents (Elt F) → (⟨S2x3x512x512, .f32⟩ : BufTy).Contents (Elt F)),
    StableHlo.unary main_arg1 main_v101 ((extractStridedSlice S3x512x512x1x1 ![0, 0, 0, 2, 0] · slices_S3x512x512x7x7_S3x512x512x1x1_0_0_0_2_0) : (⟨S3x512x512x7x7, .f32⟩ : BufTy).Contents (Elt F) → (⟨S3x512x512x1x1, .f32⟩ : BufTy).Contents (Elt F)),
    StableHlo.reshape main_v101 main_v102 rfl shapeCasts_S3x512x512x1x1_S3x512x512,
    StableHlo.unary main_v102 main_v103 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v103 main_v104 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v100 main_v104 main_v105 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v99 main_v105 main_v106 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v107 ((extractStridedSlice S2x3x512x512 ![0, 0, 2, 1] · slices_S2x3x518x518_S2x3x512x512_0_0_2_1) : (⟨S2x3x518x518, .f32⟩ : BufTy).Contents (Elt F) → (⟨S2x3x512x512, .f32⟩ : BufTy).Contents (Elt F)),
    StableHlo.unary main_arg1 main_v108 ((extractStridedSlice S3x512x512x1x1 ![0, 0, 0, 2, 1] · slices_S3x512x512x7x7_S3x512x512x1x1_0_0_0_2_1) : (⟨S3x512x512x7x7, .f32⟩ : BufTy).Contents (Elt F) → (⟨S3x512x512x1x1, .f32⟩ : BufTy).Contents (Elt F)),
    StableHlo.reshape main_v108 main_v109 rfl shapeCasts_S3x512x512x1x1_S3x512x512,
    StableHlo.unary main_v109 main_v110 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v110 main_v111 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v107 main_v111 main_v112 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v106 main_v112 main_v113 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v114 ((extractStridedSlice S2x3x512x512 ![0, 0, 2, 2] · slices_S2x3x518x518_S2x3x512x512_0_0_2_2) : (⟨S2x3x518x518, .f32⟩ : BufTy).Contents (Elt F) → (⟨S2x3x512x512, .f32⟩ : BufTy).Contents (Elt F)),
    StableHlo.unary main_arg1 main_v115 ((extractStridedSlice S3x512x512x1x1 ![0, 0, 0, 2, 2] · slices_S3x512x512x7x7_S3x512x512x1x1_0_0_0_2_2) : (⟨S3x512x512x7x7, .f32⟩ : BufTy).Contents (Elt F) → (⟨S3x512x512x1x1, .f32⟩ : BufTy).Contents (Elt F)),
    StableHlo.reshape main_v115 main_v116 rfl shapeCasts_S3x512x512x1x1_S3x512x512,
    StableHlo.unary main_v116 main_v117 (broadcastInDim S1x3x512x512 ![1, 2, 3] bcast_S3x512x512_S1x3x512x512_1_2_3 : (⟨S3x512x512, .f32⟩ : BufTy).Contents (Elt F) → (⟨S1x3x512x512, .f32⟩ : BufTy).Contents (Elt F)) ]

end Cert.ReferenceIdeal.RefRun

end
-- ==== Proof.RefEq1.lean ====
/-
  Window 1 of the reference program (statements 61 … 120 of @main) is the straight line of its list
  of operations; every operation touches TensorCore buffers only and determines what it writes.
-/
import proofs.«134987_j23424751633061_2_alg».proof.Proof.RefOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per operation of the window
set_option maxRecDepth 8192 in
/-- The window's definition and the line of its operations are the same chain of steps. -/
theorem main_part1_eq (c : Dev nD) : main_part1 (F := F) c = seq ops_part1 := rfl

set_option maxRecDepth 8192 in
/-- Each operation reads and writes TensorCore buffers only. -/
theorem ops_part1_sub : (ops_part1 : List (HloOp τ sig (Elt F))).Forall fun op => op.bufs ⊆ tcRefs τ sig := by
  simp only [ops_part1, List.Forall, unary_bufs_sub, binary_bufs_sub, reshape_bufs_sub, nullary_bufs_sub, and_self]

set_option maxRecDepth 8192 in
/-- No operation leaves a buffer undetermined. -/
theorem ops_part1_fresh : ∀ op ∈ (ops_part1 : List (HloOp τ sig (Elt F))), op.fresh = ∅ := by
  intro _ h
  repeat (cases h with | head => rfl | tail _ h => ?_)
  exact nomatch h

end Cert.ReferenceIdeal.RefRun

end
-- ==== Proof.RefOps2.lean ====
import proofs.«134987_j23424751633061_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 host operations of window main_part2 of @main, in order. -/
abbrev ops_part2 : List (HloOp τ sig (Elt F)) :=
  [ StableHlo.unary main_v117 main_v118 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v114 main_v118 main_v119 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v113 main_v119 main_v120 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v121 ((extractStridedSlice S2x3x512x512 ![0, 0, 2, 3] · slices_S2x3x518x518_S2x3x512x512_0_0_2_3) : (⟨S2x3x518x518, .f32⟩ : BufTy).Contents (Elt F) → (⟨S2x3x512x512, .f32⟩ : BufTy).Contents (Elt F)),
    StableHlo.unary main_arg1 main_v122 ((extractStridedSlice S3x512x512x1x1 ![0, 0, 0, 2, 3] · slices_S3x512x512x7x7_S3x512x512x1x1_0_0_0_2_3) : (⟨S3x512x512x7x7, .f32⟩ : BufTy).Contents (Elt F) → (⟨S3x512x512x1x1, .f32⟩ : BufTy).Contents (Elt F)),
    StableHlo.reshape main_v122 main_v123 rfl shapeCasts_S3x512x512x1x1_S3x512x512,
    StableHlo.unary main_v123 main_v124 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v124 main_v125 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v121 main_v125 main_v126 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v120 main_v126 main_v127 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v128 ((extractStridedSlice S2x3x512x512 ![0, 0, 2, 4] · slices_S2x3x518x518_S2x3x512x512_0_0_2_4) : (⟨S2x3x518x518, .f32⟩ : BufTy).Contents (Elt F) → (⟨S2x3x512x512, .f32⟩ : BufTy).Contents (Elt F)),
    StableHlo.unary main_arg1 main_v129 ((extractStridedSlice S3x512x512x1x1 ![0, 0, 0, 2, 4] · slices_S3x512x512x7x7_S3x512x512x1x1_0_0_0_2_4) : (⟨S3x512x512x7x7, .f32⟩ : BufTy).Contents (Elt F) → (⟨S3x512x512x1x1, .f32⟩ : BufTy).Contents (Elt F)),
    StableHlo.reshape main_v129 main_v130 rfl shapeCasts_S3x512x512x1x1_S3x512x512,
    StableHlo.unary main_v130 main_v131 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v131 main_v132 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v128 main_v132 main_v133 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v127 main_v133 main_v134 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v135 ((extractStridedSlice S2x3x512x512 ![0, 0, 2, 5] · slices_S2x3x518x518_S2x3x512x512_0_0_2_5) : (⟨S2x3x518x518, .f32⟩ : BufTy).Contents (Elt F) → (⟨S2x3x512x512, .f32⟩ : BufTy).Contents (Elt F)),
    StableHlo.unary main_arg1 main_v136 ((extractStridedSlice S3x512x512x1x1 ![0, 0, 0, 2, 5] · slices_S3x512x512x7x7_S3x512x512x1x1_0_0_0_2_5) : (⟨S3x512x512x7x7, .f32⟩ : BufTy).Contents (Elt F) → (⟨S3x512x512x1x1, .f32⟩ : BufTy).Contents (Elt F)),
    StableHlo.reshape main_v136 main_v137 rfl shapeCasts_S3x512x512x1x1_S3x512x512,
    StableHlo.unary main_v137 main_v138 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v138 main_v139 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v135 main_v139 main_v140 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v134 main_v140 main_v141 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v142 ((extractStridedSlice S2x3x512x512 ![0, 0, 2, 6] · slices_S2x3x518x518_S2x3x512x512_0_0_2_6) : (⟨S2x3x518x518, .f32⟩ : BufTy).Contents (Elt F) → (⟨S2x3x512x512, .f32⟩ : BufTy).Contents (Elt F)),
    StableHlo.unary main_arg1 main_v143 ((extractStridedSlice S3x512x512x1x1 ![0, 0, 0, 2, 6] · slices_S3x512x512x7x7_S3x512x512x1x1_0_0_0_2_6) : (⟨S3x512x512x7x7, .f32⟩ : BufTy).Contents (Elt F) → (⟨S3x512x512x1x1, .f32⟩ : BufTy).Contents (Elt F)),
    StableHlo.reshape main_v143 main_v144 rfl shapeCasts_S3x512x512x1x1_S3x512x512,
    StableHlo.unary main_v144 main_v145 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v145 main_v146 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v142 main_v146 main_v147 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v141 main_v147 main_v148 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v149 ((extractStridedSlice S2x3x512x512 ![0, 0, 3, 0] · slices_S2x3x518x518_S2x3x512x512_0_0_3_0) : (⟨S2x3x518x518, .f32⟩ : BufTy).Contents (Elt F) → (⟨S2x3x512x512, .f32⟩ : BufTy).Contents (Elt F)),
    StableHlo.unary main_arg1 main_v150 ((extractStridedSlice S3x512x512x1x1 ![0, 0, 0, 3, 0] · slices_S3x512x512x7x7_S3x512x512x1x1_0_0_0_3_0) : (⟨S3x512x512x7x7, .f32⟩ : BufTy).Contents (Elt F) → (⟨S3x512x512x1x1, .f32⟩ : BufTy).Contents (Elt F)),
    StableHlo.reshape main_v150 main_v151 rfl shapeCasts_S3x512x512x1x1_S3x512x512,
    StableHlo.unary main_v151 main_v152 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v152 main_v153 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v149 main_v153 main_v154 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v148 main_v154 main_v155 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v156 ((extractStridedSlice S2x3x512x512 ![0, 0, 3, 1] · slices_S2x3x518x518_S2x3x512x512_0_0_3_1) : (⟨S2x3x518x518, .f32⟩ : BufTy).Contents (Elt F) → (⟨S2x3x512x512, .f32⟩ : BufTy).Contents (Elt F)),
    StableHlo.unary main_arg1 main_v157 ((extractStridedSlice S3x512x512x1x1 ![0, 0, 0, 3, 1] · slices_S3x512x512x7x7_S3x512x512x1x1_0_0_0_3_1) : (⟨S3x512x512x7x7, .f32⟩ : BufTy).Contents (Elt F) → (⟨S3x512x512x1x1, .f32⟩ : BufTy).Contents (Elt F)),
    StableHlo.reshape main_v157 main_v158 rfl shapeCasts_S3x512x512x1x1_S3x512x512,
    StableHlo.unary main_v158 main_v159 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v159 main_v160 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v156 main_v160 main_v161 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v155 main_v161 main_v162 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v163 ((extractStridedSlice S2x3x512x512 ![0, 0, 3, 2] · slices_S2x3x518x518_S2x3x512x512_0_0_3_2) : (⟨S2x3x518x518, .f32⟩ : BufTy).Contents (Elt F) → (⟨S2x3x512x512, .f32⟩ : BufTy).Contents (Elt F)),
    StableHlo.unary main_arg1 main_v164 ((extractStridedSlice S3x512x512x1x1 ![0, 0, 0, 3, 2] · slices_S3x512x512x7x7_S3x512x512x1x1_0_0_0_3_2) : (⟨S3x512x512x7x7, .f32⟩ : BufTy).Contents (Elt F) → (⟨S3x512x512x1x1, .f32⟩ : BufTy).Contents (Elt F)),
    StableHlo.reshape main_v164 main_v165 rfl shapeCasts_S3x512x512x1x1_S3x512x512,
    StableHlo.unary main_v165 main_v166 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v166 main_v167 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v163 main_v167 main_v168 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v162 main_v168 main_v169 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v170 ((extractStridedSlice S2x3x512x512 ![0, 0, 3, 3] · slices_S2x3x518x518_S2x3x512x512_0_0_3_3) : (⟨S2x3x518x518, .f32⟩ : BufTy).Contents (Elt F) → (⟨S2x3x512x512, .f32⟩ : BufTy).Contents (Elt F)),
    StableHlo.unary main_arg1 main_v171 ((extractStridedSlice S3x512x512x1x1 ![0, 0, 0, 3, 3] · slices_S3x512x512x7x7_S3x512x512x1x1_0_0_0_3_3) : (⟨S3x512x512x7x7, .f32⟩ : BufTy).Contents (Elt F) → (⟨S3x512x512x1x1, .f32⟩ : BufTy).Contents (Elt F)),
    StableHlo.reshape main_v171 main_v172 rfl shapeCasts_S3x512x512x1x1_S3x512x512,
    StableHlo.unary main_v172 main_v173 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v173 main_v174 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v170 main_v174 main_v175 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v169 main_v175 main_v176 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v177 ((extractStridedSlice S2x3x512x512 ![0, 0, 3, 4] · slices_S2x3x518x518_S2x3x512x512_0_0_3_4) : (⟨S2x3x518x518, .f32⟩ : BufTy).Contents (Elt F) → (⟨S2x3x512x512, .f32⟩ : BufTy).Contents (Elt F)) ]

end Cert.ReferenceIdeal.RefRun

end
-- ==== Proof.RefEq2.lean ====
/-
  Window 2 of the reference program (statements 121 … 180 of @main) is the straight line of its list
  of operations; every operation touches TensorCore buffers only and determines what it writes.
-/
import proofs.«134987_j23424751633061_2_alg».proof.Proof.RefOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per operation of the window
set_option maxRecDepth 8192 in
/-- The window's definition and the line of its operations are the same chain of steps. -/
theorem main_part2_eq (c : Dev nD) : main_part2 (F := F) c = seq ops_part2 := rfl

set_option maxRecDepth 8192 in
/-- Each operation reads and writes TensorCore buffers only. -/
theorem ops_part2_sub : (ops_part2 : List (HloOp τ sig (Elt F))).Forall fun op => op.bufs ⊆ tcRefs τ sig := by
  simp only [ops_part2, List.Forall, unary_bufs_sub, binary_bufs_sub, reshape_bufs_sub, nullary_bufs_sub, and_self]

set_option maxRecDepth 8192 in
/-- No operation leaves a buffer undetermined. -/
theorem ops_part2_fresh : ∀ op ∈ (ops_part2 : List (HloOp τ sig (Elt F))), op.fresh = ∅ := by
  intro _ h
  repeat (cases h with | head => rfl | tail _ h => ?_)
  exact nomatch h

end Cert.ReferenceIdeal.RefRun

end
-- ==== Proof.RefOps3.lean ====
import proofs.«134987_j23424751633061_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 host operations of window main_part3 of @main, in order. -/
abbrev ops_part3 : List (HloOp τ sig (Elt F)) :=
  [ StableHlo.unary main_arg1 main_v178 ((extractStridedSlice S3x512x512x1x1 ![0, 0, 0, 3, 4] · slices_S3x512x512x7x7_S3x512x512x1x1_0_0_0_3_4) : (⟨S3x512x512x7x7, .f32⟩ : BufTy).Contents (Elt F) → (⟨S3x512x512x1x1, .f32⟩ : BufTy).Contents (Elt F)),
    StableHlo.reshape main_v178 main_v179 rfl shapeCasts_S3x512x512x1x1_S3x512x512,
    StableHlo.unary main_v179 main_v180 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v180 main_v181 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v177 main_v181 main_v182 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v176 main_v182 main_v183 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v184 ((extractStridedSlice S2x3x512x512 ![0, 0, 3, 5] · slices_S2x3x518x518_S2x3x512x512_0_0_3_5) : (⟨S2x3x518x518, .f32⟩ : BufTy).Contents (Elt F) → (⟨S2x3x512x512, .f32⟩ : BufTy).Contents (Elt F)),
    StableHlo.unary main_arg1 main_v185 ((extractStridedSlice S3x512x512x1x1 ![0, 0, 0, 3, 5] · slices_S3x512x512x7x7_S3x512x512x1x1_0_0_0_3_5) : (⟨S3x512x512x7x7, .f32⟩ : BufTy).Contents (Elt F) → (⟨S3x512x512x1x1, .f32⟩ : BufTy).Contents (Elt F)),
    StableHlo.reshape main_v185 main_v186 rfl shapeCasts_S3x512x512x1x1_S3x512x512,
    StableHlo.unary main_v186 main_v187 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v187 main_v188 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v184 main_v188 main_v189 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v183 main_v189 main_v190 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v191 ((extractStridedSlice S2x3x512x512 ![0, 0, 3, 6] · slices_S2x3x518x518_S2x3x512x512_0_0_3_6) : (⟨S2x3x518x518, .f32⟩ : BufTy).Contents (Elt F) → (⟨S2x3x512x512, .f32⟩ : BufTy).Contents (Elt F)),
    StableHlo.unary main_arg1 main_v192 ((extractStridedSlice S3x512x512x1x1 ![0, 0, 0, 3, 6] · slices_S3x512x512x7x7_S3x512x512x1x1_0_0_0_3_6) : (⟨S3x512x512x7x7, .f32⟩ : BufTy).Contents (Elt F) → (⟨S3x512x512x1x1, .f32⟩ : BufTy).Contents (Elt F)),
    StableHlo.reshape main_v192 main_v193 rfl shapeCasts_S3x512x512x1x1_S3x512x512,
    StableHlo.unary main_v193 main_v194 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v194 main_v195 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v191 main_v195 main_v196 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v190 main_v196 main_v197 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v198 ((extractStridedSlice S2x3x512x512 ![0, 0, 4, 0] · slices_S2x3x518x518_S2x3x512x512_0_0_4_0) : (⟨S2x3x518x518, .f32⟩ : BufTy).Contents (Elt F) → (⟨S2x3x512x512, .f32⟩ : BufTy).Contents (Elt F)),
    StableHlo.unary main_arg1 main_v199 ((extractStridedSlice S3x512x512x1x1 ![0, 0, 0, 4, 0] · slices_S3x512x512x7x7_S3x512x512x1x1_0_0_0_4_0) : (⟨S3x512x512x7x7, .f32⟩ : BufTy).Contents (Elt F) → (⟨S3x512x512x1x1, .f32⟩ : BufTy).Contents (Elt F)),
    StableHlo.reshape main_v199 main_v200 rfl shapeCasts_S3x512x512x1x1_S3x512x512,
    StableHlo.unary main_v200 main_v201 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v201 main_v202 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v198 main_v202 main_v203 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v197 main_v203 main_v204 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v205 ((extractStridedSlice S2x3x512x512 ![0, 0, 4, 1] · slices_S2x3x518x518_S2x3x512x512_0_0_4_1) : (⟨S2x3x518x518, .f32⟩ : BufTy).Contents (Elt F) → (⟨S2x3x512x512, .f32⟩ : BufTy).Contents (Elt F)),
    StableHlo.unary main_arg1 main_v206 ((extractStridedSlice S3x512x512x1x1 ![0, 0, 0, 4, 1] · slices_S3x512x512x7x7_S3x512x512x1x1_0_0_0_4_1) : (⟨S3x512x512x7x7, .f32⟩ : BufTy).Contents (Elt F) → (⟨S3x512x512x1x1, .f32⟩ : BufTy).Contents (Elt F)),
    StableHlo.reshape main_v206 main_v207 rfl shapeCasts_S3x512x512x1x1_S3x512x512,
    StableHlo.unary main_v207 main_v208 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v208 main_v209 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v205 main_v209 main_v210 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v204 main_v210 main_v211 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v212 ((extractStridedSlice S2x3x512x512 ![0, 0, 4, 2] · slices_S2x3x518x518_S2x3x512x512_0_0_4_2) : (⟨S2x3x518x518, .f32⟩ : BufTy).Contents (Elt F) → (⟨S2x3x512x512, .f32⟩ : BufTy).Contents (Elt F)),
    StableHlo.unary main_arg1 main_v213 ((extractStridedSlice S3x512x512x1x1 ![0, 0, 0, 4, 2] · slices_S3x512x512x7x7_S3x512x512x1x1_0_0_0_4_2) : (⟨S3x512x512x7x7, .f32⟩ : BufTy).Contents (Elt F) → (⟨S3x512x512x1x1, .f32⟩ : BufTy).Contents (Elt F)),
    StableHlo.reshape main_v213 main_v214 rfl shapeCasts_S3x512x512x1x1_S3x512x512,
    StableHlo.unary main_v214 main_v215 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v215 main_v216 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v212 main_v216 main_v217 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v211 main_v217 main_v218 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v219 ((extractStridedSlice S2x3x512x512 ![0, 0, 4, 3] · slices_S2x3x518x518_S2x3x512x512_0_0_4_3) : (⟨S2x3x518x518, .f32⟩ : BufTy).Contents (Elt F) → (⟨S2x3x512x512, .f32⟩ : BufTy).Contents (Elt F)),
    StableHlo.unary main_arg1 main_v220 ((extractStridedSlice S3x512x512x1x1 ![0, 0, 0, 4, 3] · slices_S3x512x512x7x7_S3x512x512x1x1_0_0_0_4_3) : (⟨S3x512x512x7x7, .f32⟩ : BufTy).Contents (Elt F) → (⟨S3x512x512x1x1, .f32⟩ : BufTy).Contents (Elt F)),
    StableHlo.reshape main_v220 main_v221 rfl shapeCasts_S3x512x512x1x1_S3x512x512,
    StableHlo.unary main_v221 main_v222 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v222 main_v223 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v219 main_v223 main_v224 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v218 main_v224 main_v225 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v226 ((extractStridedSlice S2x3x512x512 ![0, 0, 4, 4] · slices_S2x3x518x518_S2x3x512x512_0_0_4_4) : (⟨S2x3x518x518, .f32⟩ : BufTy).Contents (Elt F) → (⟨S2x3x512x512, .f32⟩ : BufTy).Contents (Elt F)),
    StableHlo.unary main_arg1 main_v227 ((extractStridedSlice S3x512x512x1x1 ![0, 0, 0, 4, 4] · slices_S3x512x512x7x7_S3x512x512x1x1_0_0_0_4_4) : (⟨S3x512x512x7x7, .f32⟩ : BufTy).Contents (Elt F) → (⟨S3x512x512x1x1, .f32⟩ : BufTy).Contents (Elt F)),
    StableHlo.reshape main_v227 main_v228 rfl shapeCasts_S3x512x512x1x1_S3x512x512,
    StableHlo.unary main_v228 main_v229 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v229 main_v230 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v226 main_v230 main_v231 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v225 main_v231 main_v232 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v233 ((extractStridedSlice S2x3x512x512 ![0, 0, 4, 5] · slices_S2x3x518x518_S2x3x512x512_0_0_4_5) : (⟨S2x3x518x518, .f32⟩ : BufTy).Contents (Elt F) → (⟨S2x3x512x512, .f32⟩ : BufTy).Contents (Elt F)),
    StableHlo.unary main_arg1 main_v234 ((extractStridedSlice S3x512x512x1x1 ![0, 0, 0, 4, 5] · slices_S3x512x512x7x7_S3x512x512x1x1_0_0_0_4_5) : (⟨S3x512x512x7x7, .f32⟩ : BufTy).Contents (Elt F) → (⟨S3x512x512x1x1, .f32⟩ : BufTy).Contents (Elt F)),
    StableHlo.reshape main_v234 main_v235 rfl shapeCasts_S3x512x512x1x1_S3x512x512,
    StableHlo.unary main_v235 main_v236 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v236 main_v237 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)) ]

end Cert.ReferenceIdeal.RefRun

end
-- ==== Proof.RefEq3.lean ====
/-
  Window 3 of the reference program (statements 181 … 240 of @main) is the straight line of its list
  of operations; every operation touches TensorCore buffers only and determines what it writes.
-/
import proofs.«134987_j23424751633061_2_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per operation of the window
set_option maxRecDepth 8192 in
/-- The window's definition and the line of its operations are the same chain of steps. -/
theorem main_part3_eq (c : Dev nD) : main_part3 (F := F) c = seq ops_part3 := rfl

set_option maxRecDepth 8192 in
/-- Each operation reads and writes TensorCore buffers only. -/
theorem ops_part3_sub : (ops_part3 : List (HloOp τ sig (Elt F))).Forall fun op => op.bufs ⊆ tcRefs τ sig := by
  simp only [ops_part3, List.Forall, unary_bufs_sub, binary_bufs_sub, reshape_bufs_sub, nullary_bufs_sub, and_self]

set_option maxRecDepth 8192 in
/-- No operation leaves a buffer undetermined. -/
theorem ops_part3_fresh : ∀ op ∈ (ops_part3 : List (HloOp τ sig (Elt F))), op.fresh = ∅ := by
  intro _ h
  repeat (cases h with | head => rfl | tail _ h => ?_)
  exact nomatch h

end Cert.ReferenceIdeal.RefRun

end
-- ==== Proof.RefOps4.lean ====
import proofs.«134987_j23424751633061_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 host operations of window main_part4 of @main, in order. -/
abbrev ops_part4 : List (HloOp τ sig (Elt F)) :=
  [ StableHlo.binary main_v233 main_v237 main_v238 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v232 main_v238 main_v239 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v240 ((extractStridedSlice S2x3x512x512 ![0, 0, 4, 6] · slices_S2x3x518x518_S2x3x512x512_0_0_4_6) : (⟨S2x3x518x518, .f32⟩ : BufTy).Contents (Elt F) → (⟨S2x3x512x512, .f32⟩ : BufTy).Contents (Elt F)),
    StableHlo.unary main_arg1 main_v241 ((extractStridedSlice S3x512x512x1x1 ![0, 0, 0, 4, 6] · slices_S3x512x512x7x7_S3x512x512x1x1_0_0_0_4_6) : (⟨S3x512x512x7x7, .f32⟩ : BufTy).Contents (Elt F) → (⟨S3x512x512x1x1, .f32⟩ : BufTy).Contents (Elt F)),
    StableHlo.reshape main_v241 main_v242 rfl shapeCasts_S3x512x512x1x1_S3x512x512,
    StableHlo.unary main_v242 main_v243 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v243 main_v244 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v240 main_v244 main_v245 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v239 main_v245 main_v246 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v247 ((extractStridedSlice S2x3x512x512 ![0, 0, 5, 0] · slices_S2x3x518x518_S2x3x512x512_0_0_5_0) : (⟨S2x3x518x518, .f32⟩ : BufTy).Contents (Elt F) → (⟨S2x3x512x512, .f32⟩ : BufTy).Contents (Elt F)),
    StableHlo.unary main_arg1 main_v248 ((extractStridedSlice S3x512x512x1x1 ![0, 0, 0, 5, 0] · slices_S3x512x512x7x7_S3x512x512x1x1_0_0_0_5_0) : (⟨S3x512x512x7x7, .f32⟩ : BufTy).Contents (Elt F) → (⟨S3x512x512x1x1, .f32⟩ : BufTy).Contents (Elt F)),
    StableHlo.reshape main_v248 main_v249 rfl shapeCasts_S3x512x512x1x1_S3x512x512,
    StableHlo.unary main_v249 main_v250 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v250 main_v251 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v247 main_v251 main_v252 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v246 main_v252 main_v253 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v254 ((extractStridedSlice S2x3x512x512 ![0, 0, 5, 1] · slices_S2x3x518x518_S2x3x512x512_0_0_5_1) : (⟨S2x3x518x518, .f32⟩ : BufTy).Contents (Elt F) → (⟨S2x3x512x512, .f32⟩ : BufTy).Contents (Elt F)),
    StableHlo.unary main_arg1 main_v255 ((extractStridedSlice S3x512x512x1x1 ![0, 0, 0, 5, 1] · slices_S3x512x512x7x7_S3x512x512x1x1_0_0_0_5_1) : (⟨S3x512x512x7x7, .f32⟩ : BufTy).Contents (Elt F) → (⟨S3x512x512x1x1, .f32⟩ : BufTy).Contents (Elt F)),
    StableHlo.reshape main_v255 main_v256 rfl shapeCasts_S3x512x512x1x1_S3x512x512,
    StableHlo.unary main_v256 main_v257 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v257 main_v258 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v254 main_v258 main_v259 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v253 main_v259 main_v260 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v261 ((extractStridedSlice S2x3x512x512 ![0, 0, 5, 2] · slices_S2x3x518x518_S2x3x512x512_0_0_5_2) : (⟨S2x3x518x518, .f32⟩ : BufTy).Contents (Elt F) → (⟨S2x3x512x512, .f32⟩ : BufTy).Contents (Elt F)),
    StableHlo.unary main_arg1 main_v262 ((extractStridedSlice S3x512x512x1x1 ![0, 0, 0, 5, 2] · slices_S3x512x512x7x7_S3x512x512x1x1_0_0_0_5_2) : (⟨S3x512x512x7x7, .f32⟩ : BufTy).Contents (Elt F) → (⟨S3x512x512x1x1, .f32⟩ : BufTy).Contents (Elt F)),
    StableHlo.reshape main_v262 main_v263 rfl shapeCasts_S3x512x512x1x1_S3x512x512,
    StableHlo.unary main_v263 main_v264 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v264 main_v265 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v261 main_v265 main_v266 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v260 main_v266 main_v267 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v268 ((extractStridedSlice S2x3x512x512 ![0, 0, 5, 3] · slices_S2x3x518x518_S2x3x512x512_0_0_5_3) : (⟨S2x3x518x518, .f32⟩ : BufTy).Contents (Elt F) → (⟨S2x3x512x512, .f32⟩ : BufTy).Contents (Elt F)),
    StableHlo.unary main_arg1 main_v269 ((extractStridedSlice S3x512x512x1x1 ![0, 0, 0, 5, 3] · slices_S3x512x512x7x7_S3x512x512x1x1_0_0_0_5_3) : (⟨S3x512x512x7x7, .f32⟩ : BufTy).Contents (Elt F) → (⟨S3x512x512x1x1, .f32⟩ : BufTy).Contents (Elt F)),
    StableHlo.reshape main_v269 main_v270 rfl shapeCasts_S3x512x512x1x1_S3x512x512,
    StableHlo.unary main_v270 main_v271 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v271 main_v272 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v268 main_v272 main_v273 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v267 main_v273 main_v274 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v275 ((extractStridedSlice S2x3x512x512 ![0, 0, 5, 4] · slices_S2x3x518x518_S2x3x512x512_0_0_5_4) : (⟨S2x3x518x518, .f32⟩ : BufTy).Contents (Elt F) → (⟨S2x3x512x512, .f32⟩ : BufTy).Contents (Elt F)),
    StableHlo.unary main_arg1 main_v276 ((extractStridedSlice S3x512x512x1x1 ![0, 0, 0, 5, 4] · slices_S3x512x512x7x7_S3x512x512x1x1_0_0_0_5_4) : (⟨S3x512x512x7x7, .f32⟩ : BufTy).Contents (Elt F) → (⟨S3x512x512x1x1, .f32⟩ : BufTy).Contents (Elt F)),
    StableHlo.reshape main_v276 main_v277 rfl shapeCasts_S3x512x512x1x1_S3x512x512,
    StableHlo.unary main_v277 main_v278 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v278 main_v279 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v275 main_v279 main_v280 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v274 main_v280 main_v281 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v282 ((extractStridedSlice S2x3x512x512 ![0, 0, 5, 5] · slices_S2x3x518x518_S2x3x512x512_0_0_5_5) : (⟨S2x3x518x518, .f32⟩ : BufTy).Contents (Elt F) → (⟨S2x3x512x512, .f32⟩ : BufTy).Contents (Elt F)),
    StableHlo.unary main_arg1 main_v283 ((extractStridedSlice S3x512x512x1x1 ![0, 0, 0, 5, 5] · slices_S3x512x512x7x7_S3x512x512x1x1_0_0_0_5_5) : (⟨S3x512x512x7x7, .f32⟩ : BufTy).Contents (Elt F) → (⟨S3x512x512x1x1, .f32⟩ : BufTy).Contents (Elt F)),
    StableHlo.reshape main_v283 main_v284 rfl shapeCasts_S3x512x512x1x1_S3x512x512,
    StableHlo.unary main_v284 main_v285 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v285 main_v286 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v282 main_v286 main_v287 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v281 main_v287 main_v288 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v289 ((extractStridedSlice S2x3x512x512 ![0, 0, 5, 6] · slices_S2x3x518x518_S2x3x512x512_0_0_5_6) : (⟨S2x3x518x518, .f32⟩ : BufTy).Contents (Elt F) → (⟨S2x3x512x512, .f32⟩ : BufTy).Contents (Elt F)),
    StableHlo.unary main_arg1 main_v290 ((extractStridedSlice S3x512x512x1x1 ![0, 0, 0, 5, 6] · slices_S3x512x512x7x7_S3x512x512x1x1_0_0_0_5_6) : (⟨S3x512x512x7x7, .f32⟩ : BufTy).Contents (Elt F) → (⟨S3x512x512x1x1, .f32⟩ : BufTy).Contents (Elt F)),
    StableHlo.reshape main_v290 main_v291 rfl shapeCasts_S3x512x512x1x1_S3x512x512,
    StableHlo.unary main_v291 main_v292 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v292 main_v293 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v289 main_v293 main_v294 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v288 main_v294 main_v295 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v296 ((extractStridedSlice S2x3x512x512 ![0, 0, 6, 0] · slices_S2x3x518x518_S2x3x512x512_0_0_6_0) : (⟨S2x3x518x518, .f32⟩ : BufTy).Contents (Elt F) → (⟨S2x3x512x512, .f32⟩ : BufTy).Contents (Elt F)),
    StableHlo.unary main_arg1 main_v297 ((extractStridedSlice S3x512x512x1x1 ![0, 0, 0, 6, 0] · slices_S3x512x512x7x7_S3x512x512x1x1_0_0_0_6_0) : (⟨S3x512x512x7x7, .f32⟩ : BufTy).Contents (Elt F) → (⟨S3x512x512x1x1, .f32⟩ : BufTy).Contents (Elt F)) ]

end Cert.ReferenceIdeal.RefRun

end
-- ==== Proof.RefEq4.lean ====
/-
  Window 4 of the reference program (statements 241 … 300 of @main) is the straight line of its list
  of operations; every operation touches TensorCore buffers only and determines what it writes.
-/
import proofs.«134987_j23424751633061_2_alg».proof.Proof.RefOps4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per operation of the window
set_option maxRecDepth 8192 in
/-- The window's definition and the line of its operations are the same chain of steps. -/
theorem main_part4_eq (c : Dev nD) : main_part4 (F := F) c = seq ops_part4 := rfl

set_option maxRecDepth 8192 in
/-- Each operation reads and writes TensorCore buffers only. -/
theorem ops_part4_sub : (ops_part4 : List (HloOp τ sig (Elt F))).Forall fun op => op.bufs ⊆ tcRefs τ sig := by
  simp only [ops_part4, List.Forall, unary_bufs_sub, binary_bufs_sub, reshape_bufs_sub, nullary_bufs_sub, and_self]

set_option maxRecDepth 8192 in
/-- No operation leaves a buffer undetermined. -/
theorem ops_part4_fresh : ∀ op ∈ (ops_part4 : List (HloOp τ sig (Elt F))), op.fresh = ∅ := by
  intro _ h
  repeat (cases h with | head => rfl | tail _ h => ?_)
  exact nomatch h

end Cert.ReferenceIdeal.RefRun

end
-- ==== Proof.RefOps5.lean ====
import proofs.«134987_j23424751633061_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 47 host operations of window main_part5 of @main, in order. -/
abbrev ops_part5 : List (HloOp τ sig (Elt F)) :=
  [ StableHlo.reshape main_v297 main_v298 rfl shapeCasts_S3x512x512x1x1_S3x512x512,
    StableHlo.unary main_v298 main_v299 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v299 main_v300 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v296 main_v300 main_v301 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v295 main_v301 main_v302 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v303 ((extractStridedSlice S2x3x512x512 ![0, 0, 6, 1] · slices_S2x3x518x518_S2x3x512x512_0_0_6_1) : (⟨S2x3x518x518, .f32⟩ : BufTy).Contents (Elt F) → (⟨S2x3x512x512, .f32⟩ : BufTy).Contents (Elt F)),
    StableHlo.unary main_arg1 main_v304 ((extractStridedSlice S3x512x512x1x1 ![0, 0, 0, 6, 1] · slices_S3x512x512x7x7_S3x512x512x1x1_0_0_0_6_1) : (⟨S3x512x512x7x7, .f32⟩ : BufTy).Contents (Elt F) → (⟨S3x512x512x1x1, .f32⟩ : BufTy).Contents (Elt F)),
    StableHlo.reshape main_v304 main_v305 rfl shapeCasts_S3x512x512x1x1_S3x512x512,
    StableHlo.unary main_v305 main_v306 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v306 main_v307 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v303 main_v307 main_v308 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v302 main_v308 main_v309 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v310 ((extractStridedSlice S2x3x512x512 ![0, 0, 6, 2] · slices_S2x3x518x518_S2x3x512x512_0_0_6_2) : (⟨S2x3x518x518, .f32⟩ : BufTy).Contents (Elt F) → (⟨S2x3x512x512, .f32⟩ : BufTy).Contents (Elt F)),
    StableHlo.unary main_arg1 main_v311 ((extractStridedSlice S3x512x512x1x1 ![0, 0, 0, 6, 2] · slices_S3x512x512x7x7_S3x512x512x1x1_0_0_0_6_2) : (⟨S3x512x512x7x7, .f32⟩ : BufTy).Contents (Elt F) → (⟨S3x512x512x1x1, .f32⟩ : BufTy).Contents (Elt F)),
    StableHlo.reshape main_v311 main_v312 rfl shapeCasts_S3x512x512x1x1_S3x512x512,
    StableHlo.unary main_v312 main_v313 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v313 main_v314 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v310 main_v314 main_v315 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v309 main_v315 main_v316 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v317 ((extractStridedSlice S2x3x512x512 ![0, 0, 6, 3] · slices_S2x3x518x518_S2x3x512x512_0_0_6_3) : (⟨S2x3x518x518, .f32⟩ : BufTy).Contents (Elt F) → (⟨S2x3x512x512, .f32⟩ : BufTy).Contents (Elt F)),
    StableHlo.unary main_arg1 main_v318 ((extractStridedSlice S3x512x512x1x1 ![0, 0, 0, 6, 3] · slices_S3x512x512x7x7_S3x512x512x1x1_0_0_0_6_3) : (⟨S3x512x512x7x7, .f32⟩ : BufTy).Contents (Elt F) → (⟨S3x512x512x1x1, .f32⟩ : BufTy).Contents (Elt F)),
    StableHlo.reshape main_v318 main_v319 rfl shapeCasts_S3x512x512x1x1_S3x512x512,
    StableHlo.unary main_v319 main_v320 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v320 main_v321 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v317 main_v321 main_v322 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v316 main_v322 main_v323 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v324 ((extractStridedSlice S2x3x512x512 ![0, 0, 6, 4] · slices_S2x3x518x518_S2x3x512x512_0_0_6_4) : (⟨S2x3x518x518, .f32⟩ : BufTy).Contents (Elt F) → (⟨S2x3x512x512, .f32⟩ : BufTy).Contents (Elt F)),
    StableHlo.unary main_arg1 main_v325 ((extractStridedSlice S3x512x512x1x1 ![0, 0, 0, 6, 4] · slices_S3x512x512x7x7_S3x512x512x1x1_0_0_0_6_4) : (⟨S3x512x512x7x7, .f32⟩ : BufTy).Contents (Elt F) → (⟨S3x512x512x1x1, .f32⟩ : BufTy).Contents (Elt F)),
    StableHlo.reshape main_v325 main_v326 rfl shapeCasts_S3x512x512x1x1_S3x512x512,
    StableHlo.unary main_v326 main_v327 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v327 main_v328 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v324 main_v328 main_v329 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v323 main_v329 main_v330 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v331 ((extractStridedSlice S2x3x512x512 ![0, 0, 6, 5] · slices_S2x3x518x518_S2x3x512x512_0_0_6_5) : (⟨S2x3x518x518, .f32⟩ : BufTy).Contents (Elt F) → (⟨S2x3x512x512, .f32⟩ : BufTy).Contents (Elt F)),
    StableHlo.unary main_arg1 main_v332 ((extractStridedSlice S3x512x512x1x1 ![0, 0, 0, 6, 5] · slices_S3x512x512x7x7_S3x512x512x1x1_0_0_0_6_5) : (⟨S3x512x512x7x7, .f32⟩ : BufTy).Contents (Elt F) → (⟨S3x512x512x1x1, .f32⟩ : BufTy).Contents (Elt F)),
    StableHlo.reshape main_v332 main_v333 rfl shapeCasts_S3x512x512x1x1_S3x512x512,
    StableHlo.unary main_v333 main_v334 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v334 main_v335 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v331 main_v335 main_v336 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v330 main_v336 main_v337 (addf : (⟨S2x3x512x512, .f32⟩ : BufTy).Contents (Elt F) → (⟨S2x3x512x512, .f32⟩ : BufTy).Contents (Elt F) → (⟨S2x3x512x512, .f32⟩ : BufTy).Contents (Elt F)),
    StableHlo.unary main_v0 main_v338 ((extractStridedSlice S2x3x512x512 ![0, 0, 6, 6] · slices_S2x3x518x518_S2x3x512x512_0_0_6_6) : (⟨S2x3x518x518, .f32⟩ : BufTy).Contents (Elt F) → (⟨S2x3x512x512, .f32⟩ : BufTy).Contents (Elt F)),
    StableHlo.unary main_arg1 main_v339 ((extractStridedSlice S3x512x512x1x1 ![0, 0, 0, 6, 6] · slices_S3x512x512x7x7_S3x512x512x1x1_0_0_0_6_6) : (⟨S3x512x512x7x7, .f32⟩ : BufTy).Contents (Elt F) → (⟨S3x512x512x1x1, .f32⟩ : BufTy).Contents (Elt F)),
    StableHlo.reshape main_v339 main_v340 rfl shapeCasts_S3x512x512x1x1_S3x512x512,
    StableHlo.unary main_v340 main_v341 (broadcastInDim S1x3x512x512 ![1, 2, 3] bcast_S3x512x512_S1x3x512x512_1_2_3 : (⟨S3x512x512, .f32⟩ : BufTy).Contents (Elt F) → (⟨S1x3x512x512, .f32⟩ : BufTy).Contents (Elt F)),
    StableHlo.unary main_v341 main_v342 (broadcastInDim S2x3x512x512 ![0, 1, 2, 3] bcast_S1x3x512x512_S2x3x512x512_0_1_2_3 : (⟨S1x3x512x512, .f32⟩ : BufTy).Contents (Elt F) → (⟨S2x3x512x512, .f32⟩ : BufTy).Contents (Elt F)),
    StableHlo.binary main_v338 main_v342 main_v343 (mulf : (⟨S2x3x512x512, .f32⟩ : BufTy).Contents (Elt F) → (⟨S2x3x512x512, .f32⟩ : BufTy).Contents (Elt F) → (⟨S2x3x512x512, .f32⟩ : BufTy).Contents (Elt F)),
    StableHlo.binary main_v337 main_v343 main_v344 (addf : (⟨S2x3x512x512, .f32⟩ : BufTy).Contents (Elt F) → (⟨S2x3x512x512, .f32⟩ : BufTy).Contents (Elt F) → (⟨S2x3x512x512, .f32⟩ : BufTy).Contents (Elt F)) ]

end Cert.ReferenceIdeal.RefRun

end
-- ==== Proof.RefEq5.lean ====
/-
  Window 5 of the reference program (statements 301 … 348 of @main) is the straight line of its list
  of operations; every operation touches TensorCore buffers only and determines what it writes.
-/
import proofs.«134987_j23424751633061_2_alg».proof.Proof.RefOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per operation of the window
set_option maxRecDepth 8192 in
/-- The window's definition and the line of its operations are the same chain of steps. -/
theorem main_part5_eq (c : Dev nD) : main_part5 (F := F) c = seq ops_part5 := rfl

set_option maxRecDepth 8192 in
/-- Each operation reads and writes TensorCore buffers only. -/
theorem ops_part5_sub : (ops_part5 : List (HloOp τ sig (Elt F))).Forall fun op => op.bufs ⊆ tcRefs τ sig := by
  simp only [ops_part5, List.Forall, unary_bufs_sub, binary_bufs_sub, reshape_bufs_sub, nullary_bufs_sub, and_self]

set_option maxRecDepth 8192 in
/-- No operation leaves a buffer undetermined. -/
theorem ops_part5_fresh : ∀ op ∈ (ops_part5 : List (HloOp τ sig (Elt F))), op.fresh = ∅ := by
  intro _ h
  repeat (cases h with | head => rfl | tail _ h => ?_)
  exact nomatch h

end Cert.ReferenceIdeal.RefRun

end
-- ==== Proof.RefMain.lean ====
/-
  The reference program's @main as ONE straight line of host operations, and its run.

  @main runs its six windows in order; each window is the line of its own list, so @main is the line of
  the lists' concatenation.  No buffer or semaphore of the program is scoped, every operation touches
  TensorCore buffers only and determines what it writes: so every weakly fair execution terminates with
  each buffer at the operations' results folded, in order, over the launch contents.
-/
import proofs.«134987_j23424751633061_2_alg».proof.Proof.RefEq0
import proofs.«134987_j23424751633061_2_alg».proof.Proof.RefEq1
import proofs.«134987_j23424751633061_2_alg».proof.Proof.RefEq2
import proofs.«134987_j23424751633061_2_alg».proof.Proof.RefEq3
import proofs.«134987_j23424751633061_2_alg».proof.Proof.RefEq4
import proofs.«134987_j23424751633061_2_alg».proof.Proof.RefEq5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the six windows' lists one after the other. -/
abbrev ops : List (HloOp τ sig (Elt F)) :=
  ops_part0 ++ (ops_part1 ++ (ops_part2 ++ (ops_part3 ++ (ops_part4 ++ ops_part5))))

set_option maxRecDepth 8192 in
/-- @main is the line of all its operations: a line of a concatenation is the lines in sequence. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Each operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op (List.mem_append.mpr h), List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h]

/-- No operation leaves a buffer undetermined. -/
theorem ops_fresh : ∀ op ∈ (ops : List (HloOp τ sig (Elt F))), op.fresh = ∅ := by
  intro op h
  simp only [ops, List.mem_append] at h
  rcases h with h | h | h | h | h | h
  exacts [ops_part0_fresh op (List.mem_append.mpr h), ops_part1_fresh op h, ops_part2_fresh op h, ops_part3_fresh op h,
    ops_part4_fresh op h, ops_part5_fresh op h]

/-- On every device, for any float values, from any memory with zero counters: every weakly fair execution of
    @main terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefTap.lean ====
/-
  The pieces of one tap of the spatially varying convolution, named, and a run of consecutive taps.

  A tap (p, q) adds to the running sum the product of the padded image shifted by (p, q) with the
  plane k[·, ·, ·, p, q] of the kernels repeated over the batch.  The program computes a tap in seven
  operations (two slices, a reshape, two broadcasts, the product, the sum); where a stretch of the
  program begins or ends inside a tap, the values already computed are these pieces.
-/
import proofs.«134987_j23424751633061_2_alg».proof.Proof.Spec

noncomputable section

namespace Cert.ReferenceIdeal.RefRun

open Idealize.ShloMosaic SVConv

variable {F : FTy → Type} [FloatOps F]

/-- The padded image shifted by `(p, q)`. -/
def padWin (pq : Fin 7 × Fin 7) (xpad : FVec F SP .f32) : FVec F SX .f32 :=
  extractStridedSlice SX ![0, 0, pq.1.val, pq.2.val] xpad (slices_pad pq)

/-- The plane `k[·, ·, ·, p, q]` of the kernels, still with its two unit axes. -/
def kerCut (pq : Fin 7 × Fin 7) (k : FVec F SK .f32) : FVec F SK1 .f32 :=
  extractStridedSlice SK1 ![0, 0, 0, pq.1.val, pq.2.val] k (slices_ker pq)

/-- A plane with its unit axes dropped, given a unit batch axis. -/
def kerLift (s : FVec F SK1 .f32) : FVec F SK4 .f32 :=
  broadcastInDim SK4 ![1, 2, 3] (by decide) (shapeCast SK3 s (by decide))

/-- A plane repeated over the batch. -/
def kerRep (t : FVec F SK4 .f32) : FVec F SX .f32 :=
  broadcastInDim SX ![0, 1, 2, 3] (by decide) t

/-- One tap is the sum of the running sum and the product of its two pieces. -/
theorem tapR_eq (pq : Fin 7 × Fin 7) (xpad : FVec F SP .f32) (k : FVec F SK .f32) (acc : FVec F SX .f32) :
    tapR pq xpad k acc = addf acc (mulf (padWin pq xpad) (kerRep (kerLift (kerCut pq k)))) := rfl

/-- Consecutive taps, in order, added to a running sum. -/
def tapsR (l : List (Fin 7 × Fin 7)) (xpad : FVec F SP .f32) (k : FVec F SK .f32) (acc : FVec F SX .f32) :
    FVec F SX .f32 :=
  l.foldl (fun acc pq => tapR pq xpad k acc) acc

theorem tapsR_nil (xpad : FVec F SP .f32) (k : FVec F SK .f32) (acc : FVec F SX .f32) :
    tapsR [] xpad k acc = acc := rfl

theorem tapsR_cons (pq : Fin 7 × Fin 7) (l : List (Fin 7 × Fin 7)) (xpad : FVec F SP .f32) (k : FVec F SK .f32)
    (acc : FVec F SX .f32) : tapsR (pq :: l) xpad k acc = tapsR l xpad k (tapR pq xpad k acc) := rfl

/-- Two runs of taps one after the other are one run. -/
theorem tapsR_append (l₁ l₂ : List (Fin 7 × Fin 7)) (xpad : FVec F SP .f32) (k : FVec F SK .f32)
    (acc : FVec F SX .f32) : tapsR l₂ xpad k (tapsR l₁ xpad k acc) = tapsR (l₁ ++ l₂) xpad k acc := by
  unfold tapsR
  rw [List.foldl_append]

/-- The whole sum is the run of all 49 taps from zero. -/
theorem refOut_eq (xpad : FVec F SP .f32) (k : FVec F SK .f32) :
    refOut xpad k = tapsR taps xpad k zeroX := rfl

end Cert.ReferenceIdeal.RefRun

end
-- ==== Proof.RefWin0.lean ====
/-
  Window 0 of the reference program, read back from ANY contents W of the buffers before it, in two
  stretches.

  The first stretch pads the image (the sixteen operations of the padding function, in place) and makes
  the zero array.  The padded image is the specification's padding of the first argument: the same slices,
  reversals and concatenations, in the same order (the four slices the function computes and never uses
  aside).  The typed references of the call's operations move contents between a buffer's type and the
  value's type; at these literal buffers the two are the same type and the move is the identity.

  The second stretch holds taps (0,0) … (1,0) whole, added in order to the array it finds in main_v1, on
  the image it finds in main_v0.  Neither stretch writes the arguments; the second does not write the
  padded image.
-/
import proofs.«134987_j23424751633061_2_alg».proof.Proof.RefOps0
import proofs.«134987_j23424751633061_2_alg».proof.Proof.RefTap

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Up to the zero array -/

set_option maxRecDepth 8192 in
set_option maxHeartbeats 2000000 in
/-- The padded image. -/
theorem win0a_v0 (W : Valuation τ sig (Elt F)) :
    after ops_part0a W (Proc.devRef .tc main_v0) = SVConv.pad (W (Proc.devRef .tc main_arg0)) := by
  simp only [ops_part0a]
  after_results
  simp only [TRef.toBuf, TRef.ofBuf, cast_eq]
  unfold SVConv.pad SVConv.padCols SVConv.padLeft SVConv.padRows SVConv.padTop
  rfl

set_option maxRecDepth 8192 in
set_option maxHeartbeats 2000000 in
/-- The zero array. -/
theorem win0a_v1 (W : Valuation τ sig (Elt F)) :
    after ops_part0a W (Proc.devRef .tc main_v1) = SVConv.zeroX := by
  simp only [ops_part0a]
  after_results
  rfl

set_option maxRecDepth 8192 in
set_option maxHeartbeats 2000000 in
theorem win0a_arg0 (W : Valuation τ sig (Elt F)) :
    after ops_part0a W (no_index (Proc.devRef .tc main_arg0)) = W (Proc.devRef .tc main_arg0) := by
  simp only [ops_part0a]
  after_results_simp

set_option maxRecDepth 8192 in
set_option maxHeartbeats 2000000 in
theorem win0a_arg1 (W : Valuation τ sig (Elt F)) :
    after ops_part0a W (no_index (Proc.devRef .tc main_arg1)) = W (Proc.devRef .tc main_arg1) := by
  simp only [ops_part0a]
  after_results_simp

/-! ## The first eight taps -/

set_option maxRecDepth 8192 in
set_option maxHeartbeats 2000000 in
/-- The running sum after the window: eight taps on the array before them. -/
theorem win0b_v57 (W : Valuation τ sig (Elt F)) :
    after ops_part0b W (no_index (Proc.devRef .tc main_v57)) =
      tapsR [(0, 0), (0, 1), (0, 2), (0, 3), (0, 4), (0, 5), (0, 6), (1, 0)]
        (W (Proc.devRef .tc main_v0)) (W (Proc.devRef .tc main_arg1)) (W (Proc.devRef .tc main_v1)) := by
  simp only [ops_part0b]
  after_results_simp
  rfl

set_option maxRecDepth 8192 in
set_option maxHeartbeats 2000000 in
theorem win0b_v0 (W : Valuation τ sig (Elt F)) :
    after ops_part0b W (no_index (Proc.devRef .tc main_v0)) = W (Proc.devRef .tc main_v0) := by
  simp only [ops_part0b]
  after_results_simp

set_option maxRecDepth 8192 in
set_option maxHeartbeats 2000000 in
theorem win0b_arg0 (W : Valuation τ sig (Elt F)) :
    after ops_part0b W (no_index (Proc.devRef .tc main_arg0)) = W (Proc.devRef .tc main_arg0) := by
  simp only [ops_part0b]
  after_results_simp

set_option maxRecDepth 8192 in
set_option maxHeartbeats 2000000 in
theorem win0b_arg1 (W : Valuation τ sig (Elt F)) :
    after ops_part0b W (no_index (Proc.devRef .tc main_arg1)) = W (Proc.devRef .tc main_arg1) := by
  simp only [ops_part0b]
  after_results_simp

end Cert.ReferenceIdeal.RefRun

end
-- ==== Proof.RefWin1.lean ====
/-
  Window 1 of the reference program, read back from ANY contents W of the buffers before it.

  The window holds taps (1,1) … (2,1) whole, added in order to the sum it finds in main_v57, and the
  first four operations of tap (2,2): the shifted image and the kernel plane with its unit batch axis.
  It writes neither the padded image nor the arguments.
-/
import proofs.«134987_j23424751633061_2_alg».proof.Proof.RefOps1
import proofs.«134987_j23424751633061_2_alg».proof.Proof.RefTap

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The running sum after the window: eight more taps on the sum before it. -/
theorem win1_v113 (W : Valuation τ sig (Elt F)) :
    after ops_part1 W (no_index (Proc.devRef .tc main_v113)) =
      tapsR [(1, 1), (1, 2), (1, 3), (1, 4), (1, 5), (1, 6), (2, 0), (2, 1)]
        (W (Proc.devRef .tc main_v0)) (W (Proc.devRef .tc main_arg1)) (W (Proc.devRef .tc main_v57)) := by
  simp only [ops_part1]
  after_results_simp
  rfl

set_option maxRecDepth 8192 in
set_option maxHeartbeats 2000000 in
/-- Tap (2,2), begun: the padded image shifted. -/
theorem win1_v114 (W : Valuation τ sig (Elt F)) :
    after ops_part1 W (no_index (Proc.devRef .tc main_v114)) = padWin (2, 2) (W (Proc.devRef .tc main_v0)) := by
  simp only [ops_part1]
  after_results_simp
  rfl

set_option maxRecDepth 8192 in
set_option maxHeartbeats 2000000 in
/-- Tap (2,2), begun: the kernel plane, not yet repeated over the batch. -/
theorem win1_v117 (W : Valuation τ sig (Elt F)) :
    after ops_part1 W (no_index (Proc.devRef .tc main_v117)) =
      kerLift (kerCut (2, 2) (W (Proc.devRef .tc main_arg1))) := by
  simp only [ops_part1]
  after_results_simp
  rfl

set_option maxRecDepth 8192 in
set_option maxHeartbeats 2000000 in
theorem win1_v0 (W : Valuation τ sig (Elt F)) :
    after ops_part1 W (no_index (Proc.devRef .tc main_v0)) = W (Proc.devRef .tc main_v0) := by
  simp only [ops_part1]
  after_results_simp

set_option maxRecDepth 8192 in
set_option maxHeartbeats 2000000 in
theorem win1_arg0 (W : Valuation τ sig (Elt F)) :
    after ops_part1 W (no_index (Proc.devRef .tc main_arg0)) = W (Proc.devRef .tc main_arg0) := by
  simp only [ops_part1]
  after_results_simp

set_option maxRecDepth 8192 in
set_option maxHeartbeats 2000000 in
theorem win1_arg1 (W : Valuation τ sig (Elt F)) :
    after ops_part1 W (no_index (Proc.devRef .tc main_arg1)) = W (Proc.devRef .tc main_arg1) := by
  simp only [ops_part1]
  after_results_simp

end Cert.ReferenceIdeal.RefRun

end
-- ==== Proof.RefWin2.lean ====
/-
  Window 2 of the reference program, read back from ANY contents W of the buffers before it.

  The window first finishes tap (2,2) from the two pieces it finds (main_v114, main_v117) and the sum in
  main_v113, then holds taps (2,3) … (3,3) whole, then begins tap (3,4) with the shifted image.
  It writes neither the padded image nor the arguments.
-/
import proofs.«134987_j23424751633061_2_alg».proof.Proof.RefOps2
import proofs.«134987_j23424751633061_2_alg».proof.Proof.RefTap

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The running sum after the window: tap (2,2) finished from its pieces, then eight more taps. -/
theorem win2_v176 (W : Valuation τ sig (Elt F)) :
    after ops_part2 W (no_index (Proc.devRef .tc main_v176)) =
      tapsR [(2, 3), (2, 4), (2, 5), (2, 6), (3, 0), (3, 1), (3, 2), (3, 3)]
        (W (Proc.devRef .tc main_v0)) (W (Proc.devRef .tc main_arg1))
        (addf (W (Proc.devRef .tc main_v113))
          (mulf (W (Proc.devRef .tc main_v114)) (kerRep (W (Proc.devRef .tc main_v117))))) := by
  simp only [ops_part2]
  after_results_simp
  rfl

set_option maxRecDepth 8192 in
set_option maxHeartbeats 2000000 in
/-- Tap (3,4), begun: the padded image shifted. -/
theorem win2_v177 (W : Valuation τ sig (Elt F)) :
    after ops_part2 W (no_index (Proc.devRef .tc main_v177)) = padWin (3, 4) (W (Proc.devRef .tc main_v0)) := by
  simp only [ops_part2]
  after_results_simp
  rfl

set_option maxRecDepth 8192 in
set_option maxHeartbeats 2000000 in
theorem win2_v0 (W : Valuation τ sig (Elt F)) :
    after ops_part2 W (no_index (Proc.devRef .tc main_v0)) = W (Proc.devRef .tc main_v0) := by
  simp only [ops_part2]
  after_results_simp

set_option maxRecDepth 8192 in
set_option maxHeartbeats 2000000 in
theorem win2_arg0 (W : Valuation τ sig (Elt F)) :
    after ops_part2 W (no_index (Proc.devRef .tc main_arg0)) = W (Proc.devRef .tc main_arg0) := by
  simp only [ops_part2]
  after_results_simp

set_option maxRecDepth 8192 in
set_option maxHeartbeats 2000000 in
theorem win2_arg1 (W : Valuation τ sig (Elt F)) :
    after ops_part2 W (no_index (Proc.devRef .tc main_arg1)) = W (Proc.devRef .tc main_arg1) := by
  simp only [ops_part2]
  after_results_simp

end Cert.ReferenceIdeal.RefRun

end
-- ==== Proof.RefWin3.lean ====
/-
  Window 3 of the reference program, read back from ANY contents W of the buffers before it.

  The window first finishes tap (3,4) from the shifted image it finds (main_v177) and the sum in main_v176,
  then holds taps (3,5) … (4,4) whole, then the first five operations of tap (4,5): the shifted image and
  the kernel plane repeated over the batch.  It writes neither the padded image nor the arguments.
-/
import proofs.«134987_j23424751633061_2_alg».proof.Proof.RefOps3
import proofs.«134987_j23424751633061_2_alg».proof.Proof.RefTap

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The running sum after the window: tap (3,4) finished, then seven more taps. -/
theorem win3_v232 (W : Valuation τ sig (Elt F)) :
    after ops_part3 W (no_index (Proc.devRef .tc main_v232)) =
      tapsR [(3, 5), (3, 6), (4, 0), (4, 1), (4, 2), (4, 3), (4, 4)]
        (W (Proc.devRef .tc main_v0)) (W (Proc.devRef .tc main_arg1))
        (addf (W (Proc.devRef .tc main_v176))
          (mulf (W (Proc.devRef .tc main_v177)) (kerRep (kerLift (kerCut (3, 4) (W (Proc.devRef .tc main_arg1))))))) := by
  simp only [ops_part3]
  after_results_simp
  rfl

set_option maxRecDepth 8192 in
set_option maxHeartbeats 2000000 in
/-- Tap (4,5), begun: the padded image shifted. -/
theorem win3_v233 (W : Valuation τ sig (Elt F)) :
    after ops_part3 W (no_index (Proc.devRef .tc main_v233)) = padWin (4, 5) (W (Proc.devRef .tc main_v0)) := by
  simp only [ops_part3]
  after_results_simp
  rfl

set_option maxRecDepth 8192 in
set_option maxHeartbeats 2000000 in
/-- Tap (4,5), begun: the kernel plane repeated over the batch. -/
theorem win3_v237 (W : Valuation τ sig (Elt F)) :
    after ops_part3 W (no_index (Proc.devRef .tc main_v237)) =
      kerRep (kerLift (kerCut (4, 5) (W (Proc.devRef .tc main_arg1)))) := by
  simp only [ops_part3]
  after_results_simp
  rfl

set_option maxRecDepth 8192 in
set_option maxHeartbeats 2000000 in
theorem win3_v0 (W : Valuation τ sig (Elt F)) :
    after ops_part3 W (no_index (Proc.devRef .tc main_v0)) = W (Proc.devRef .tc main_v0) := by
  simp only [ops_part3]
  after_results_simp

set_option maxRecDepth 8192 in
set_option maxHeartbeats 2000000 in
theorem win3_arg0 (W : Valuation τ sig (Elt F)) :
    after ops_part3 W (no_index (Proc.devRef .tc main_arg0)) = W (Proc.devRef .tc main_arg0) := by
  simp only [ops_part3]
  after_results_simp

set_option maxRecDepth 8192 in
set_option maxHeartbeats 2000000 in
theorem win3_arg1 (W : Valuation τ sig (Elt F)) :
    after ops_part3 W (no_index (Proc.devRef .tc main_arg1)) = W (Proc.devRef .tc main_arg1) := by
  simp only [ops_part3]
  after_results_simp

end Cert.ReferenceIdeal.RefRun

end
-- ==== Proof.RefWin4.lean ====
/-
  Window 4 of the reference program, read back from ANY contents W of the buffers before it.

  The window first finishes tap (4,5) — the product of the two pieces it finds (main_v233, main_v237) added
  to the sum in main_v232 —, then holds taps (4,6) … (5,6) whole, then the first two operations of tap (6,0):
  the shifted image and the kernel plane still with its unit axes.  It writes neither the padded image nor
  the arguments.
-/
import proofs.«134987_j23424751633061_2_alg».proof.Proof.RefOps4
import proofs.«134987_j23424751633061_2_alg».proof.Proof.RefTap

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The running sum after the window: tap (4,5) finished, then eight more taps. -/
theorem win4_v295 (W : Valuation τ sig (Elt F)) :
    after ops_part4 W (no_index (Proc.devRef .tc main_v295)) =
      tapsR [(4, 6), (5, 0), (5, 1), (5, 2), (5, 3), (5, 4), (5, 5), (5, 6)]
        (W (Proc.devRef .tc main_v0)) (W (Proc.devRef .tc main_arg1))
        (addf (W (Proc.devRef .tc main_v232))
          (mulf (W (Proc.devRef .tc main_v233)) (W (Proc.devRef .tc main_v237)))) := by
  simp only [ops_part4]
  after_results_simp
  rfl

set_option maxRecDepth 8192 in
set_option maxHeartbeats 2000000 in
/-- Tap (6,0), begun: the padded image shifted. -/
theorem win4_v296 (W : Valuation τ sig (Elt F)) :
    after ops_part4 W (no_index (Proc.devRef .tc main_v296)) = padWin (6, 0) (W (Proc.devRef .tc main_v0)) := by
  simp only [ops_part4]
  after_results_simp
  rfl

set_option maxRecDepth 8192 in
set_option maxHeartbeats 2000000 in
/-- Tap (6,0), begun: the kernel plane, still with its unit axes. -/
theorem win4_v297 (W : Valuation τ sig (Elt F)) :
    after ops_part4 W (no_index (Proc.devRef .tc main_v297)) = kerCut (6, 0) (W (Proc.devRef .tc main_arg1)) := by
  simp only [ops_part4]
  after_results_simp
  rfl

set_option maxRecDepth 8192 in
set_option maxHeartbeats 2000000 in
theorem win4_v0 (W : Valuation τ sig (Elt F)) :
    after ops_part4 W (no_index (Proc.devRef .tc main_v0)) = W (Proc.devRef .tc main_v0) := by
  simp only [ops_part4]
  after_results_simp

set_option maxRecDepth 8192 in
set_option maxHeartbeats 2000000 in
theorem win4_arg0 (W : Valuation τ sig (Elt F)) :
    after ops_part4 W (no_index (Proc.devRef .tc main_arg0)) = W (Proc.devRef .tc main_arg0) := by
  simp only [ops_part4]
  after_results_simp

set_option maxRecDepth 8192 in
set_option maxHeartbeats 2000000 in
theorem win4_arg1 (W : Valuation τ sig (Elt F)) :
    after ops_part4 W (no_index (Proc.devRef .tc main_arg1)) = W (Proc.devRef .tc main_arg1) := by
  simp only [ops_part4]
  after_results_simp

end Cert.ReferenceIdeal.RefRun

end
-- ==== Proof.RefWin5.lean ====
/-
  Window 5, the last, of the reference program, read back from ANY contents W of the buffers before it.

  The window first finishes tap (6,0) from the two pieces it finds (the shifted image main_v296, the kernel
  plane with its unit axes main_v297) and the sum in main_v295, then holds taps (6,1) … (6,6) whole; the
  result is main_v344.  It does not write the arguments.
-/
import proofs.«134987_j23424751633061_2_alg».proof.Proof.RefOps5
import proofs.«134987_j23424751633061_2_alg».proof.Proof.RefTap

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The result: tap (6,0) finished, then the last six taps. -/
theorem win5_v344 (W : Valuation τ sig (Elt F)) :
    after ops_part5 W (no_index (Proc.devRef .tc main_v344)) =
      tapsR [(6, 1), (6, 2), (6, 3), (6, 4), (6, 5), (6, 6)]
        (W (Proc.devRef .tc main_v0)) (W (Proc.devRef .tc main_arg1))
        (addf (W (Proc.devRef .tc main_v295))
          (mulf (W (Proc.devRef .tc main_v296)) (kerRep (kerLift (W (Proc.devRef .tc main_v297)))))) := by
  simp only [ops_part5]
  after_results_simp
  rfl

set_option maxRecDepth 8192 in
set_option maxHeartbeats 2000000 in
theorem win5_arg0 (W : Valuation τ sig (Elt F)) :
    after ops_part5 W (no_index (Proc.devRef .tc main_arg0)) = W (Proc.devRef .tc main_arg0) := by
  simp only [ops_part5]
  after_results_simp

set_option maxRecDepth 8192 in
set_option maxHeartbeats 2000000 in
theorem win5_arg1 (W : Valuation τ sig (Elt F)) :
    after ops_part5 W (no_index (Proc.devRef .tc main_arg1)) = W (Proc.devRef .tc main_arg1) := by
  simp only [ops_part5]
  after_results_simp

end Cert.ReferenceIdeal.RefRun

end
-- ==== Proof.RefRun.lean ====
/-
  The run of the reference program: a spatially varying 7×7 convolution computed tap by tap.

  @main pads the image by reflection, makes a zero array, and then, for each of the 49 taps (p, q) in order
  (p outer), adds to a running sum the product of the padded image shifted by (p, q) with the plane
  k[·, ·, ·, p, q] of the kernels repeated over the batch.  Its 348 statements are printed in six windows;
  each window's operations were read back, over arbitrary contents before the window, in a module of its
  own.  Here the windows are chained: the contents after window i are the window's operations folded over
  the contents after window i - 1 (window 0 in two stretches, before and after the zero array is made).  A window boundary may fall inside a tap; the next window then finishes
  the tap from the pieces the previous one left, and the finished tap joins the run of taps.  After the last
  window the result buffer holds all 49 taps, in order, from zero, on the padded first argument: the
  specification's fold.  No window writes the arguments.
-/
import proofs.«134987_j23424751633061_2_alg».proof.Proof.RefMain
import proofs.«134987_j23424751633061_2_alg».proof.Proof.RefWin0
import proofs.«134987_j23424751633061_2_alg».proof.Proof.RefWin1
import proofs.«134987_j23424751633061_2_alg».proof.Proof.RefWin2
import proofs.«134987_j23424751633061_2_alg».proof.Proof.RefWin3
import proofs.«134987_j23424751633061_2_alg».proof.Proof.RefWin4
import proofs.«134987_j23424751633061_2_alg».proof.Proof.RefWin5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A tap begun before a run of taps and finished at its head joins the run. -/
theorem tapsR_finish (pq : Fin 7 × Fin 7) (l : List (Fin 7 × Fin 7)) (xpad : FVec F SVConv.SP .f32)
    (k : FVec F SVConv.SK .f32) (acc : FVec F SVConv.SX .f32) :
    tapsR l xpad k (addf acc (mulf (padWin pq xpad) (kerRep (kerLift (kerCut pq k))))) = tapsR (pq :: l) xpad k acc :=
  rfl

/-- The contents after two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The contents after each window -/

def val0a (V : Valuation τ sig (Elt F)) : Valuation τ sig (Elt F) := after ops_part0a V
def val1 (V : Valuation τ sig (Elt F)) : Valuation τ sig (Elt F) := after ops_part0b (val0a V)
def val2 (V : Valuation τ sig (Elt F)) : Valuation τ sig (Elt F) := after ops_part1 (val1 V)
def val3 (V : Valuation τ sig (Elt F)) : Valuation τ sig (Elt F) := after ops_part2 (val2 V)
def val4 (V : Valuation τ sig (Elt F)) : Valuation τ sig (Elt F) := after ops_part3 (val3 V)
def val5 (V : Valuation τ sig (Elt F)) : Valuation τ sig (Elt F) := after ops_part4 (val4 V)
def val6 (V : Valuation τ sig (Elt F)) : Valuation τ sig (Elt F) := after ops_part5 (val5 V)

theorem after_ops (V : Valuation τ sig (Elt F)) : after ops V = val6 V := by
  simp only [ops, ops_part0, after_app]
  rfl

/-! ### After window 0: the padded image, and taps (0,0) … (1,0) from zero -/

theorem val0a_arg0 (V : Valuation τ sig (Elt F)) :
    val0a V (no_index (Proc.devRef .tc main_arg0)) = V (Proc.devRef .tc main_arg0) := win0a_arg0 V
theorem val0a_arg1 (V : Valuation τ sig (Elt F)) :
    val0a V (no_index (Proc.devRef .tc main_arg1)) = V (Proc.devRef .tc main_arg1) := win0a_arg1 V
theorem val0a_v0 (V : Valuation τ sig (Elt F)) :
    val0a V (no_index (Proc.devRef .tc main_v0)) = SVConv.pad (V (Proc.devRef .tc main_arg0)) := win0a_v0 V
theorem val0a_v1 (V : Valuation τ sig (Elt F)) :
    val0a V (no_index (Proc.devRef .tc main_v1)) = SVConv.zeroX := win0a_v1 V

theorem val1_arg0 (V : Valuation τ sig (Elt F)) :
    val1 V (no_index (Proc.devRef .tc main_arg0)) = V (Proc.devRef .tc main_arg0) :=
  (win0b_arg0 (val0a V)).trans (val0a_arg0 V)
theorem val1_arg1 (V : Valuation τ sig (Elt F)) :
    val1 V (no_index (Proc.devRef .tc main_arg1)) = V (Proc.devRef .tc main_arg1) :=
  (win0b_arg1 (val0a V)).trans (val0a_arg1 V)
theorem val1_v0 (V : Valuation τ sig (Elt F)) :
    val1 V (no_index (Proc.devRef .tc main_v0)) = SVConv.pad (V (Proc.devRef .tc main_arg0)) :=
  (win0b_v0 (val0a V)).trans (val0a_v0 V)
theorem val1_v57 (V : Valuation τ sig (Elt F)) :
    val1 V (no_index (Proc.devRef .tc main_v57)) =
      tapsR [(0, 0), (0, 1), (0, 2), (0, 3), (0, 4), (0, 5), (0, 6), (1, 0)] (SVConv.pad (V (Proc.devRef .tc main_arg0))) (V (Proc.devRef .tc main_arg1)) SVConv.zeroX := by
  refine (win0b_v57 (val0a V)).trans ?_
  simp only [val0a_v0, val0a_arg1, val0a_v1]

/-! ### After window 1: through tap (2,1), and tap (2,2) begun -/

theorem val2_arg0 (V : Valuation τ sig (Elt F)) :
    val2 V (no_index (Proc.devRef .tc main_arg0)) = V (Proc.devRef .tc main_arg0) :=
  (win1_arg0 (val1 V)).trans (val1_arg0 V)
theorem val2_arg1 (V : Valuation τ sig (Elt F)) :
    val2 V (no_index (Proc.devRef .tc main_arg1)) = V (Proc.devRef .tc main_arg1) :=
  (win1_arg1 (val1 V)).trans (val1_arg1 V)
theorem val2_v0 (V : Valuation τ sig (Elt F)) :
    val2 V (no_index (Proc.devRef .tc main_v0)) = SVConv.pad (V (Proc.devRef .tc main_arg0)) :=
  (win1_v0 (val1 V)).trans (val1_v0 V)
theorem val2_v113 (V : Valuation τ sig (Elt F)) :
    val2 V (no_index (Proc.devRef .tc main_v113)) =
      tapsR [(0, 0), (0, 1), (0, 2), (0, 3), (0, 4), (0, 5), (0, 6), (1, 0), (1, 1), (1, 2), (1, 3), (1, 4), (1, 5), (1, 6), (2, 0), (2, 1)] (SVConv.pad (V (Proc.devRef .tc main_arg0))) (V (Proc.devRef .tc main_arg1)) SVConv.zeroX := by
  refine (win1_v113 (val1 V)).trans ?_
  simp only [val1_v0, val1_arg1, val1_v57, tapsR_append, List.cons_append, List.nil_append]
theorem val2_v114 (V : Valuation τ sig (Elt F)) :
    val2 V (no_index (Proc.devRef .tc main_v114)) = padWin (2, 2) (SVConv.pad (V (Proc.devRef .tc main_arg0))) := by
  refine (win1_v114 (val1 V)).trans ?_
  simp only [val1_v0]
theorem val2_v117 (V : Valuation τ sig (Elt F)) :
    val2 V (no_index (Proc.devRef .tc main_v117)) = kerLift (kerCut (2, 2) (V (Proc.devRef .tc main_arg1))) := by
  refine (win1_v117 (val1 V)).trans ?_
  simp only [val1_arg1]

/-! ### After window 2: through tap (3,3), and tap (3,4) begun -/

theorem val3_arg0 (V : Valuation τ sig (Elt F)) :
    val3 V (no_index (Proc.devRef .tc main_arg0)) = V (Proc.devRef .tc main_arg0) :=
  (win2_arg0 (val2 V)).trans (val2_arg0 V)
theorem val3_arg1 (V : Valuation τ sig (Elt F)) :
    val3 V (no_index (Proc.devRef .tc main_arg1)) = V (Proc.devRef .tc main_arg1) :=
  (win2_arg1 (val2 V)).trans (val2_arg1 V)
theorem val3_v0 (V : Valuation τ sig (Elt F)) :
    val3 V (no_index (Proc.devRef .tc main_v0)) = SVConv.pad (V (Proc.devRef .tc main_arg0)) :=
  (win2_v0 (val2 V)).trans (val2_v0 V)
theorem val3_v176 (V : Valuation τ sig (Elt F)) :
    val3 V (no_index (Proc.devRef .tc main_v176)) =
      tapsR [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3)] (SVConv.pad (V (Proc.devRef .tc main_arg0))) (V (Proc.devRef .tc main_arg1)) SVConv.zeroX := by
  refine (win2_v176 (val2 V)).trans ?_
  simp only [val2_v0, val2_arg1, val2_v113, val2_v114, val2_v117]
  rw [tapsR_finish, tapsR_append]
  simp only [List.cons_append, List.nil_append]
theorem val3_v177 (V : Valuation τ sig (Elt F)) :
    val3 V (no_index (Proc.devRef .tc main_v177)) = padWin (3, 4) (SVConv.pad (V (Proc.devRef .tc main_arg0))) := by
  refine (win2_v177 (val2 V)).trans ?_
  simp only [val2_v0]

/-! ### After window 3: through tap (4,4), and tap (4,5) begun -/

theorem val4_arg0 (V : Valuation τ sig (Elt F)) :
    val4 V (no_index (Proc.devRef .tc main_arg0)) = V (Proc.devRef .tc main_arg0) :=
  (win3_arg0 (val3 V)).trans (val3_arg0 V)
theorem val4_arg1 (V : Valuation τ sig (Elt F)) :
    val4 V (no_index (Proc.devRef .tc main_arg1)) = V (Proc.devRef .tc main_arg1) :=
  (win3_arg1 (val3 V)).trans (val3_arg1 V)
theorem val4_v0 (V : Valuation τ sig (Elt F)) :
    val4 V (no_index (Proc.devRef .tc main_v0)) = SVConv.pad (V (Proc.devRef .tc main_arg0)) :=
  (win3_v0 (val3 V)).trans (val3_v0 V)
theorem val4_v232 (V : Valuation τ sig (Elt F)) :
    val4 V (no_index (Proc.devRef .tc main_v232)) =
      tapsR [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6), (4, 0), (4, 1), (4, 2), (4, 3), (4, 4)] (SVConv.pad (V (Proc.devRef .tc main_arg0))) (V (Proc.devRef .tc main_arg1)) SVConv.zeroX := by
  refine (win3_v232 (val3 V)).trans ?_
  simp only [val3_v0, val3_arg1, val3_v176, val3_v177]
  rw [tapsR_finish, tapsR_append]
  simp only [List.cons_append, List.nil_append]
theorem val4_v233 (V : Valuation τ sig (Elt F)) :
    val4 V (no_index (Proc.devRef .tc main_v233)) = padWin (4, 5) (SVConv.pad (V (Proc.devRef .tc main_arg0))) := by
  refine (win3_v233 (val3 V)).trans ?_
  simp only [val3_v0]
theorem val4_v237 (V : Valuation τ sig (Elt F)) :
    val4 V (no_index (Proc.devRef .tc main_v237)) = kerRep (kerLift (kerCut (4, 5) (V (Proc.devRef .tc main_arg1)))) := by
  refine (win3_v237 (val3 V)).trans ?_
  simp only [val3_arg1]

/-! ### After window 4: through tap (5,6), and tap (6,0) begun -/

theorem val5_arg0 (V : Valuation τ sig (Elt F)) :
    val5 V (no_index (Proc.devRef .tc main_arg0)) = V (Proc.devRef .tc main_arg0) :=
  (win4_arg0 (val4 V)).trans (val4_arg0 V)
theorem val5_arg1 (V : Valuation τ sig (Elt F)) :
    val5 V (no_index (Proc.devRef .tc main_arg1)) = V (Proc.devRef .tc main_arg1) :=
  (win4_arg1 (val4 V)).trans (val4_arg1 V)
theorem val5_v0 (V : Valuation τ sig (Elt F)) :
    val5 V (no_index (Proc.devRef .tc main_v0)) = SVConv.pad (V (Proc.devRef .tc main_arg0)) :=
  (win4_v0 (val4 V)).trans (val4_v0 V)
theorem val5_v295 (V : Valuation τ sig (Elt F)) :
    val5 V (no_index (Proc.devRef .tc main_v295)) =
      tapsR [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6), (4, 0), (4, 1), (4, 2), (4, 3), (4, 4), (4, 5), (4, 6), (5, 0), (5, 1), (5, 2), (5, 3), (5, 4), (5, 5), (5, 6)] (SVConv.pad (V (Proc.devRef .tc main_arg0))) (V (Proc.devRef .tc main_arg1)) SVConv.zeroX := by
  refine (win4_v295 (val4 V)).trans ?_
  simp only [val4_v0, val4_arg1, val4_v232, val4_v233, val4_v237]
  rw [tapsR_finish, tapsR_append]
  simp only [List.cons_append, List.nil_append]
theorem val5_v296 (V : Valuation τ sig (Elt F)) :
    val5 V (no_index (Proc.devRef .tc main_v296)) = padWin (6, 0) (SVConv.pad (V (Proc.devRef .tc main_arg0))) := by
  refine (win4_v296 (val4 V)).trans ?_
  simp only [val4_v0]
theorem val5_v297 (V : Valuation τ sig (Elt F)) :
    val5 V (no_index (Proc.devRef .tc main_v297)) = kerCut (6, 0) (V (Proc.devRef .tc main_arg1)) := by
  refine (win4_v297 (val4 V)).trans ?_
  simp only [val4_arg1]

/-! ### After window 5: all 49 taps -/

theorem val6_arg0 (V : Valuation τ sig (Elt F)) :
    val6 V (no_index (Proc.devRef .tc main_arg0)) = V (Proc.devRef .tc main_arg0) :=
  (win5_arg0 (val5 V)).trans (val5_arg0 V)
theorem val6_arg1 (V : Valuation τ sig (Elt F)) :
    val6 V (no_index (Proc.devRef .tc main_arg1)) = V (Proc.devRef .tc main_arg1) :=
  (win5_arg1 (val5 V)).trans (val5_arg1 V)
theorem val6_v344 (V : Valuation τ sig (Elt F)) :
    val6 V (no_index (Proc.devRef .tc main_v344)) =
      tapsR [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6), (4, 0), (4, 1), (4, 2), (4, 3), (4, 4), (4, 5), (4, 6), (5, 0), (5, 1), (5, 2), (5, 3), (5, 4), (5, 5), (5, 6), (6, 0), (6, 1), (6, 2), (6, 3), (6, 4), (6, 5), (6, 6)] (SVConv.pad (V (Proc.devRef .tc main_arg0))) (V (Proc.devRef .tc main_arg1)) SVConv.zeroX := by
  refine (win5_v344 (val5 V)).trans ?_
  simp only [val5_v0, val5_arg1, val5_v295, val5_v296, val5_v297]
  rw [tapsR_finish, tapsR_append]
  simp only [List.cons_append, List.nil_append]

/-! ## The result of the whole line -/

/-- The result buffer after @main's operations: the specification's fold on the padded first argument. -/
theorem out_eq (V : Valuation τ sig (Elt F)) :
    after ops V (Proc.devRef .tc main_v344) = SVConv.refOut (SVConv.pad (V (Proc.devRef .tc main_arg0))) (V (Proc.devRef .tc main_arg1)) := by
  rw [after_ops, refOut_eq]
  exact val6_v344 V

theorem arg0_eq (V : Valuation τ sig (Elt F)) :
    after ops V (Proc.devRef .tc main_arg0) = V (Proc.devRef .tc main_arg0) := by
  rw [after_ops]
  exact val6_arg0 V

theorem arg1_eq (V : Valuation τ sig (Elt F)) :
    after ops V (Proc.devRef .tc main_arg1) = V (Proc.devRef .tc main_arg1) := by
  rw [after_ops]
  exact val6_arg1 V

/-- On every device, for any float values, from any memory with zero counters: every weakly fair execution of
    @main terminates with the result buffer at the specification's fold — all 49 taps, in order, from zero —
    on the reflect-padded first argument, and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v344)
          = SVConv.refOut (F := F) (SVConv.pad (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v344).trans (out_eq (launchContents m c)),
        (h c main_arg0).trans (arg0_eq (launchContents m c)),
        (h c main_arg1).trans (arg1_eq (launchContents m c))⟩)
    (run_main m ρ)

/-- The same at the ideal instance (a float an extended real). -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v344)
          = SVConv.refOut (F := Ideal) (SVConv.pad (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_any m ρ

end Cert.ReferenceIdeal.RefRun

end
-- ==== Proof.lean ====
/-
  The spatially varying 7×7 convolution kernel against its jnp reference, over the extended reals.

  Both programs reflect-pad the image by the same host operations and then add, for the 49 taps (p, q) in the
  same order and from zero, the product  xpad[b, c, i + p, j + q] · k[c, i, j, p, q].  The reference does it on
  whole arrays (a shifted slice of the padded image times a plane of the kernels, 49 times); the kernel does it
  block by block over a grid of (channel, 64-row band), on a haloed band of the padded image and the tap-major
  kernels. Read at an index both are the same left fold `SVConv.G` (SpecIdx: the reference's fold; SpecKer,
  KerBody, KerValue: the kernel's blocks and the array they tile), so the two result arrays are equal term for
  term and no law of the extended reals beyond the reading of each operation at an index is used; the
  precondition is not needed. The idealization rewrote nothing, so `preserves` is trivial.
-/
import proofs.«134987_j23424751633061_2_alg».proof.Defs
import proofs.«134987_j23424751633061_2_alg».proof.Proof.Gen.Kernel
import proofs.«134987_j23424751633061_2_alg».proof.Proof.Gen.Kernel.Frame
import proofs.«134987_j23424751633061_2_alg».proof.Proof.Gen.KernelIdeal
import proofs.«134987_j23424751633061_2_alg».proof.Proof.Gen.KernelIdeal.Frame
import proofs.«134987_j23424751633061_2_alg».proof.Proof.Gen.KernelIdeal.Value
import proofs.«134987_j23424751633061_2_alg».proof.Proof.Gen.ReferenceIdeal
import proofs.«134987_j23424751633061_2_alg».proof.Proof.Gen.Pre_finite_inputs
import proofs.«134987_j23424751633061_2_alg».proof.Proof.SpecIdx
import proofs.«134987_j23424751633061_2_alg».proof.Proof.KerValue
import proofs.«134987_j23424751633061_2_alg».proof.Proof.RefRun

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its read-back run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Both runs end with the result array at `SVConv.G` of the padded image and the kernels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2, SVConv.refOut_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
